-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x768 .f32 .bf16
  ∧ IdealRules.truncf_extf.Statement Cert.KernelIdeal.S768x768 .f32 .bf16
  ∧ IdealRules.truncf_extf.Statement Cert.KernelIdeal.S1024x768 .f32 .bf16
  ∧ IdealRules.truncf_extf.Statement Cert.KernelIdeal.S768x768 .f32 .bf16
  ∧ IdealRules.truncf_extf.Statement Cert.KernelIdeal.S1024x64 .f32 .bf16
  ∧ IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x768 : Shape := ⟨3, ![4, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S4x1024x768 : S_.BroadcastsInDim S4x1024x768 (![] : Fin 0 → Fin S4x1024x768.rank)
  reducesTo_S4x1024x768_S_d0_1_2 : S4x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x1024x768 .f32) (main_arg1 : FVec F S2304x768 .f32) (main_arg2 : FVec F S768x768 .f32) (main_arg3 : FVec F S768 .f32) : IVec S_ 1 :=
  let main_v0 : FVec F S4x1024x768 .f32 := Host.absf main_arg0
  let main_cst : FVec F S_ .f32 := constant S_ .f32 0x7F800000#32
  let main_v1 : FVec F S4x1024x768 .f32 := broadcastInDim S4x1024x768 ![] bcast_S_S4x1024x768 main_cst
  let main_v2 : IVec S4x1024x768 1 := cmpf .olt main_v0 main_v1
  let main_c : IVec S_ 1 := constantI S_ 1 1#1
  let main_v3 : IVec S_ 1 := (fun x v => Host.reduce IntOp.andi x v reducesTo_S4x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x1024x768 : Shape := ⟨3, ![4, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩
abbrev S768x1536 : Shape := ⟨2, ![768, 1536]⟩
abbrev S4x12x1024x1024 : Shape := ⟨4, ![4, 12, 1024, 1024]⟩
abbrev S1x1024x768 : Shape := ⟨3, ![1, 1024, 768]⟩
abbrev S1x1x1024x1024 : Shape := ⟨4, ![1, 1, 1024, 1024]⟩
abbrev S1024x1536 : Shape := ⟨2, ![1024, 1536]⟩
abbrev S1024x768 : Shape := ⟨2, ![1024, 768]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 19
  | .vmem => 13
  | .smem => 0
  | _ => 0

abbrev bufTy : (tb : Table) → Fin (tcTables nBuf tb) → BufTy
  | .hbm, ⟨0, _⟩ => ⟨S4x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768x768, .f32⟩
  | .hbm, ⟨6, _⟩ => ⟨S_, .f32⟩
  | .hbm, ⟨7, _⟩ => ⟨S768x768, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x1536, .f32⟩
  | .hbm, ⟨12, _⟩ => ⟨S768x768, .f32⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .bf16⟩
  | .hbm, ⟨17, _⟩ => ⟨S4x1024x768, .f32⟩
  | .hbm, ⟨18, _⟩ => ⟨S4x12x1024x1024, .f32⟩
  | .local _ .vmem, ⟨0, _⟩ => ⟨S1x1024x768, .f32⟩
  | .local _ .vmem, ⟨1, _⟩ => ⟨S1x1024x768, .f32⟩
  | .local _ .vmem, ⟨2, _⟩ => ⟨S768x1536, .f32⟩
  | .local _ .vmem, ⟨3, _⟩ => ⟨S768x768, .bf16⟩
  | .local _ .vmem, ⟨4, _⟩ => ⟨S768x768, .bf16⟩
  | .local _ .vmem, ⟨5, _⟩ => ⟨S768, .f32⟩
  | .local _ .vmem, ⟨6, _⟩ => ⟨S1x1024x768, .f32⟩
  | .local _ .vmem, ⟨7, _⟩ => ⟨S1x1024x768, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1024x1536, .f32⟩
  | .local _ .vmem, ⟨11, _⟩ => ⟨S1024x768, .bf16⟩
  | .local _ .vmem, ⟨12, _⟩ => ⟨S1024x768, .bf16⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 2 → Nat :=
  let c0 : Index := 0#32
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  ![0, v5.toNat]
def k0_off2 (i : grid0.Coords) : Fin 2 → Nat :=
  let c0_1 : Index := 0#32
  let c768_i32 : BitVec 32 := 768#32
  let arg1 : BitVec 32 := BitVec.ofNat 32 (i 1).val
  let c64_i32 : BitVec 32 := 64#32
  let v3 : BitVec 32 := Scalar.muli arg1 c64_i32
  let v4 : BitVec 32 := v3
  let v7 : BitVec 32 := Scalar.addi c768_i32 v4
  let v8 : Index := Scalar.indexCast v7
  ![0, v8.toNat]
def k0_off3 (i : grid0.Coords) : Fin 2 → Nat :=
  let c0_2 : Index := 0#32
  let arg1 : BitVec 32 := BitVec.ofNat 32 (i 1).val
  let c64_i32 : BitVec 32 := 64#32
  let v3 : BitVec 32 := Scalar.muli arg1 c64_i32
  let v4 : BitVec 32 := v3
  let v10 : Index := Scalar.indexCast v4
  ![0, v10.toNat]
def k0_cond2 (i : grid0.Coords) : BitVec 1 :=
  let arg1 : BitVec 32 := BitVec.ofNat 32 (i 1).val
  let c11_i32 : BitVec 32 := 11#32
  let v45 : BitVec 1 := Scalar.cmpi .eq arg1 c11_i32
  let v46 : BitVec 32 := Scalar.extui v45
  let c0_i32_13 : BitVec 32 := 0#32
  let v47 : BitVec 1 := Scalar.cmpi .ne v46 c0_i32_13
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S2304x768_S768x768_0_0 : S2304x768.Slices ![0, 0] S768x768
  transposes_S768x768_S768x768_1_0 : S768x768.Transposes [1, 0] S768x768
  bcast_S_S768x768 : S_.BroadcastsInDim S768x768 (![] : Fin 0 → Fin S768x768.rank)
  slices_S2304x768_S768x768_768_0 : S2304x768.Slices ![768, 0] S768x768
  concatenates_S768x768_S768x768_S768x1536_d1 : Shape.Concatenates [S768x768, S768x768] S768x1536 1
  slices_S2304x768_S768x768_1536_0 : S2304x768.Slices ![1536, 0] S768x768
  bitsLt_bf16_f32 : FTy.bits .bf16 < FTy.bits .f32
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x1536_S768x768_0_0 : ∀ a, (![0, 0] : Fin 2 → Nat) a + S768x768.size a ≤ S768x1536.size a
  h_S768x768 : 0 < S768x768.numel
  shapeCasts_S768x768_S768x768 : S768x768.ShapeCasts S768x768
  inb_S1024x1536_S1024x768_0_0 : ∀ a, (![0, 0] : Fin 2 → Nat) a + S1024x768.size a ≤ S1024x1536.size a
  h_S1024x768 : 0 < S1024x768.numel
  shapeCasts_S1024x768_S1024x768 : S1024x768.ShapeCasts S1024x768
  inb_S768x1536_S768x768_0_768 : ∀ a, (![0, 768] : Fin 2 → Nat) a + S768x768.size a ≤ S768x1536.size a
  inb_S1024x1536_S1024x768_0_768 : ∀ a, (![0, 768] : Fin 2 → Nat) a + S1024x768.size a ≤ S1024x1536.size a
  inb_S768x768_S768x768_0_0 : ∀ a, (![0, 0] : Fin 2 → Nat) a + S768x768.size a ≤ S768x768.size a
  inb_S1024x768_S1024x768_0_0 : ∀ a, (![0, 0] : Fin 2 → Nat) a + S1024x768.size a ≤ S1024x768.size a
  packedbf16_S1024x768_S1024x768_0_0 : (Rect.unit (s := S1024x768) ![0, 0] S1024x768.size inb_S1024x768_S1024x768_0_0).PackedRows (EltTy.packing .bf16)
  h_S1024x64 : 0 < S1024x64.numel
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  shapeCasts_S1024x64_S1024x64 : S1024x64.ShapeCasts S1024x64
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 64 ∣ (k0_mult1 i).toNat
  k0_off1_inb : ∀ i : grid0.Coords, ∀ a, (k0_off1 i) a + S1024x64.size a ≤ S1024x1536.size a
  k0_off2_inb : ∀ i : grid0.Coords, ∀ a, (k0_off2 i) a + S1024x64.size a ≤ S1024x1536.size a
  k0_off3_inb : ∀ i : grid0.Coords, ∀ a, (k0_off3 i) a + S1024x64.size a ≤ S1024x768.size a
  k0_off3_packedbf16 : ∀ i : grid0.Coords, (Rect.unit (s := S1024x768) (k0_off3 i) S1024x64.size (k0_off3_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x1024x768.size a
  hwx0_0 : ∀ i : grid0.Coords, EltTy.bits .f32 = 32 ∨ (Rect.block (s := S4x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x1536.size a
  hwx0_1 : ∀ i : grid0.Coords, EltTy.bits .f32 = 32 ∨ (Rect.block (s := S768x1536) S768x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x768.size a ≤ S4x1024x768.size a
  hwx0_5 : ∀ i : grid0.Coords, EltTy.bits .f32 = 32 ∨ (Rect.block (s := S4x1024x768) S1x1024x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024x1024.size a ≤ S4x12x1024x1024.size a
  hwx0_6 : ∀ i : grid0.Coords, EltTy.bits .f32 = 32 ∨ (Rect.block (s := S4x12x1024x1024) S1x1x1024x1024.size (cc0_transform_6 i) (hinb0_6 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S1x1024x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S1x1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S4x1024x768 : Shape := ⟨3, ![4, 1024, 768]⟩
abbrev S2304x768 : Shape := ⟨2, ![2304, 768]⟩
abbrev S768x768 : Shape := ⟨2, ![768, 768]⟩
abbrev S768 : Shape := ⟨1, ![768]⟩
abbrev S4x1024x2304 : Shape := ⟨3, ![4, 1024, 2304]⟩
abbrev S4x1024x3x12x64 : Shape := ⟨5, ![4, 1024, 3, 12, 64]⟩
abbrev S3x4x12x1024x64 : Shape := ⟨5, ![3, 4, 12, 1024, 64]⟩
abbrev S1x4x12x1024x64 : Shape := ⟨5, ![1, 4, 12, 1024, 64]⟩
abbrev S4x12x1024x64 : Shape := ⟨4, ![4, 12, 1024, 64]⟩
abbrev S4x12x1024x1024 : Shape := ⟨4, ![4, 12, 1024, 1024]⟩
abbrev S_ : Shape := ⟨0, ![]⟩
abbrev S4x12x1024 : Shape := ⟨3, ![4, 12, 1024]⟩
abbrev S4x12x1024x1 : Shape := ⟨4, ![4, 12, 1024, 1]⟩
abbrev S4x1024x12x64 : Shape := ⟨4, ![4, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S4x1024x2304, .f32⟩
  | .hbm, ⟨5, _⟩ => ⟨S4x1024x3x12x64, .f32⟩
  | .hbm, ⟨6, _⟩ => ⟨S3x4x12x1024x64, .f32⟩
  | .hbm, ⟨7, _⟩ => ⟨S1x4x12x1024x64, .f32⟩
  | .hbm, ⟨8, _⟩ => ⟨S4x12x1024x64, .f32⟩
  | .hbm, ⟨9, _⟩ => ⟨S1x4x12x1024x64, .f32⟩
  | .hbm, ⟨10, _⟩ => ⟨S4x12x1024x64, .f32⟩
  | .hbm, ⟨11, _⟩ => ⟨S1x4x12x1024x64, .f32⟩
  | .hbm, ⟨12, _⟩ => ⟨S4x12x1024x64, .f32⟩
  | .hbm, ⟨13, _⟩ => ⟨S4x12x1024x1024, .f32⟩
  | .hbm, ⟨14, _⟩ => ⟨S_, .f32⟩
  | .hbm, ⟨15, _⟩ => ⟨S4x12x1024x1024, .f32⟩
  | .hbm, ⟨16, _⟩ => ⟨S4x12x1024x1024, .f32⟩
  | .hbm, ⟨17, _⟩ => ⟨S_, .f32⟩
  | .hbm, ⟨18, _⟩ => ⟨S4x12x1024, .f32⟩
  | .hbm, ⟨19, _⟩ => ⟨S_, .f32⟩
  | .hbm, ⟨20, _⟩ => ⟨S4x12x1024, .f32⟩
  | .hbm, ⟨21, _⟩ => ⟨S4x12x1024, .f32⟩
  | .hbm, ⟨22, _⟩ => ⟨S4x12x1024x1, .f32⟩
  | .hbm, ⟨23, _⟩ => ⟨S4x12x1024x1024, .f32⟩
  | .hbm, ⟨24, _⟩ => ⟨S4x12x1024x1024, .f32⟩
  | .hbm, ⟨25, _⟩ => ⟨S4x12x1024x1024, .f32⟩
  | .hbm, ⟨26, _⟩ => ⟨S_, .f32⟩
  | .hbm, ⟨27, _⟩ => ⟨S4x12x1024, .f32⟩
  | .hbm, ⟨28, _⟩ => ⟨S4x12x1024x1, .f32⟩
  | .hbm, ⟨29, _⟩ => ⟨S4x12x1024x1024, .f32⟩
  | .hbm, ⟨30, _⟩ => ⟨S4x12x1024x1024, .f32⟩
  | .hbm, ⟨31, _⟩ => ⟨S4x12x1024x64, .f32⟩
  | .hbm, ⟨32, _⟩ => ⟨S4x1024x12x64, .f32⟩
  | .hbm, ⟨33, _⟩ => ⟨S4x1024x768, .f32⟩
  | .hbm, ⟨34, _⟩ => ⟨S4x1024x768, .f32⟩
  | .hbm, ⟨35, _⟩ => ⟨S1x1x768, .f32⟩
  | .hbm, ⟨36, _⟩ => ⟨S4x1024x768, .f32⟩
  | .hbm, ⟨37, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x1024x2304_S4x1024x3x12x64 : S4x1024x2304.ShapeCasts S4x1024x3x12x64
  transposes_S4x1024x3x12x64_S3x4x12x1024x64_2_0_3_1_4 : S4x1024x3x12x64.Transposes [2, 0, 3, 1, 4] S3x4x12x1024x64
  slices_S3x4x12x1024x64_S1x4x12x1024x64_0_0_0_0_0 : S3x4x12x1024x64.Slices ![0, 0, 0, 0, 0] S1x4x12x1024x64
  shapeCasts_S1x4x12x1024x64_S4x12x1024x64 : S1x4x12x1024x64.ShapeCasts S4x12x1024x64
  slices_S3x4x12x1024x64_S1x4x12x1024x64_1_0_0_0_0 : S3x4x12x1024x64.Slices ![1, 0, 0, 0, 0] S1x4x12x1024x64
  slices_S3x4x12x1024x64_S1x4x12x1024x64_2_0_0_0_0 : S3x4x12x1024x64.Slices ![2, 0, 0, 0, 0] S1x4x12x1024x64
  bcast_S_S4x12x1024x1024 : S_.BroadcastsInDim S4x12x1024x1024 (![] : Fin 0 → Fin S4x12x1024x1024.rank)
  reducesTo_S4x12x1024x1024_S4x12x1024_d3 : S4x12x1024x1024.ReducesTo [3] S4x12x1024
  h_S_ : 0 < S_.numel
  bcast_S_S4x12x1024 : S_.BroadcastsInDim S4x12x1024 (![] : Fin 0 → Fin S4x12x1024.rank)
  bcast_S4x12x1024_S4x12x1024x1_0_1_2 : S4x12x1024.BroadcastsInDim S4x12x1024x1 (![0, 1, 2] : Fin 3 → Fin S4x12x1024x1.rank)
  bcast_S4x12x1024x1_S4x12x1024x1024_0_1_2_3 : S4x12x1024x1.BroadcastsInDim S4x12x1024x1024 (![0, 1, 2, 3] : Fin 4 → Fin S4x12x1024x1024.rank)
  transposes_S4x12x1024x64_S4x1024x12x64_0_2_1_3 : S4x12x1024x64.Transposes [0, 2, 1, 3] S4x1024x12x64
  shapeCasts_S4x1024x12x64_S4x1024x768 : S4x1024x12x64.ShapeCasts S4x1024x768
  bcast_S768_S1x1x768_2 : S768.BroadcastsInDim S1x1x768 (![2] : Fin 1 → Fin S1x1x768.rank)
  bcast_S1x1x768_S4x1024x768_0_1_2 : S1x1x768.BroadcastsInDim S4x1024x768 (![0, 1, 2] : Fin 3 → Fin S4x1024x768.rank)
  dot_S4x1024x768_S2304x768_S4x1024x2304_2_1_01_0_n_n_wf : DotDims.WF S4x1024x768 S2304x768 S4x1024x2304 [2] [1] [0, 1] [0] [] []
  dot_S4x12x1024x64_S4x12x1024x64_S4x12x1024x1024_3_3_2_2_01_01_wf : DotDims.WF S4x12x1024x64 S4x12x1024x64 S4x12x1024x1024 [3] [3] [2] [2] [0, 1] [0, 1]
  dot_S4x12x1024x1024_S4x12x1024x64_S4x12x1024x64_3_2_2_3_01_01_wf : DotDims.WF S4x12x1024x1024 S4x12x1024x64 S4x12x1024x64 [3] [2] [2] [3] [0, 1] [0, 1]
  dot_S4x1024x768_S768x768_S4x1024x768_2_1_01_0_n_n_wf : DotDims.WF S4x1024x768 S768x768 S4x1024x768 [2] [1] [0, 1] [0] [] []

variable [Facts₀]

def dot_S4x1024x768_S2304x768_S4x1024x2304_2_1_01_0_n_n : DotDims S4x1024x768 S2304x768 S4x1024x2304 where
  lhsContracting := [2]
  rhsContracting := [1]
  lhsNonContracting := [0, 1]
  rhsNonContracting := [0]
  lhsBatch := []
  rhsBatch := []
  wf := dot_S4x1024x768_S2304x768_S4x1024x2304_2_1_01_0_n_n_wf
def dot_S4x12x1024x64_S4x12x1024x64_S4x12x1024x1024_3_3_2_2_01_01 : DotDims S4x12x1024x64 S4x12x1024x64 S4x12x1024x1024 where
  lhsContracting := [3]
  rhsContracting := [3]
  lhsNonContracting := [2]
  rhsNonContracting := [2]
  lhsBatch := [0, 1]
  rhsBatch := [0, 1]
  wf := dot_S4x12x1024x64_S4x12x1024x64_S4x12x1024x1024_3_3_2_2_01_01_wf
def dot_S4x12x1024x1024_S4x12x1024x64_S4x12x1024x64_3_2_2_3_01_01 : DotDims S4x12x1024x1024 S4x12x1024x64 S4x12x1024x64 where
  lhsContracting := [3]
  rhsContracting := [2]
  lhsNonContracting := [2]
  rhsNonContracting := [3]
  lhsBatch := [0, 1]
  rhsBatch := [0, 1]
  wf := dot_S4x12x1024x1024_S4x12x1024x64_S4x12x1024x64_3_2_2_3_01_01_wf
def dot_S4x1024x768_S768x768_S4x1024x768_2_1_01_0_n_n : DotDims S4x1024x768 S768x768 S4x1024x768 where
  lhsContracting := [2]
  rhsContracting := [1]
  lhsNonContracting := [0, 1]
  rhsNonContracting := [0]
  lhsBatch := []
  rhsBatch := []
  wf := dot_S4x1024x768_S768x768_S4x1024x768_2_1_01_0_n_n_wf

class Facts : Prop extends Facts₀ where

variable [Facts]
-- ==== Proof.BodyTerms.lean ====
/-
  The contents the attention body leaves in each buffer, as pure functions of what it found there.

  A grid point is a pair (batch, head). At the first head of a batch the body projects the batch's tokens once: the
  query and key features into one [1024, 1536] scratch (two column halves, one store each), the value features into a
  [1024, 768] scratch. At every head it reads that head's 64 query columns, 64 key columns and 64 value columns out of
  the two scratches, writes the head's [1024, 1024] attention tile to its output block, and writes the head's
  [1024, 64] result into that head's 64 columns of a third [1024, 768] scratch, the other columns kept. At the last
  head it reads the third scratch whole and writes the projected block with its bias to the other output block.
  The arithmetic is kept behind the body's named values; this module only says which value lands where.
-/
import proofs.«178072_j6914897347234_2_alg».proof.Proof.Gen.KernelIdeal.Frame
import proofs.«178072_j6914897347234_2_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe

variable {F : FTy → Type} [FloatOps F]

/-! ## The two tests on the head coordinate -/

/-- The body's first test: the head coordinate is 0 (the scalar chain the body computes). -/
abbrev isFirstHead (i : grid0.Coords) : Prop :=
  (Scalar.cmpi .ne (Scalar.extui (Scalar.cmpi .eq (BitVec.ofNat 32 (i 1).val) 0#32)) 0#32) = 1#1

/-- The body's second test: the head coordinate is 11. -/
abbrev isLastHead (i : grid0.Coords) : Prop := k0_cond2 i = 1#1

/-- Point `t` is (t / 12, t % 12): the first test holds exactly at the points ≡ 0 (mod 12), -/
theorem isFirstHead_iff : ∀ t : Fin cfg0.N, isFirstHead (grid0.coords t) ↔ t.val % 12 = 0 :=
  (by decide +kernel : ∀ t : Fin grid0.N, isFirstHead (grid0.coords t) ↔ t.val % 12 = 0)

/-- and the second exactly at the points ≡ 11 (mod 12). -/
theorem isLastHead_iff : ∀ t : Fin cfg0.N, isLastHead (grid0.coords t) ↔ t.val % 12 = 11 :=
  (by decide +kernel : ∀ t : Fin grid0.N, isLastHead (grid0.coords t) ↔ t.val % 12 = 11)

/-! ## One store through a unit-stride rectangle, as a function -/

/-- `X` with the rectangle of sizes `size` at offsets `off` overwritten by `w`: inside the rectangle `w` at the index
    minus the offsets, outside it `X`. -/
def put {S : Shape} {α : Type} (X : S.Idx → α) (off size : Fin S.rank → ℕ) (inb : ∀ a, off a + size a ≤ S.size a)
    (w : (Rect.unit off size inb).shape.Idx → α) : S.Idx → α :=
  fun y => if h : ∀ a, off a ≤ (y a).val ∧ (y a).val < off a + size a then
      w (Rect.unitLocal (s := S) (off := off) (size := size) y h)
    else X y

/-- Reading a buffer after a list of stores whose newest goes through a unit-stride rectangle: the older stores' result
    with that rectangle overwritten. -/
theorem read_writes_cons_put {sig : RefSig} {κ : Kind} {sp : Space} {S : Shape} {e : EltTy} {Val : EltTy → Type}
    (v : View sig κ sp S e) (f : v.ty.Contents Val) {off size : Fin S.rank → ℕ} (inb : ∀ a, off a + size a ≤ S.size a)
    (w : (Rect.unit off size inb).shape.Idx → Val e) (L : List (View.Piece Val S e)) :
    v.read Val (v.writes Val f ((⟨Rect.unit off size inb, w⟩ : View.Piece Val S e) :: L))
      = put (v.read Val (v.writes Val f L)) off size inb w :=
  funext fun y => View.read_writes_cons_unit v f inb w L y rfl

/-! ## What the body reads and writes, named -/

/-- The 64 query columns of the head at point `i`, out of the [1024, 1536] scratch. -/
def qCols (i : grid0.Coords) (qk : Vec F S1024x1536 .f32) : Vec F S1024x64 .f32 :=
  View.ld qk (Rect.unit (s := S1024x1536) (k0_off1 i) S1024x64.size (k0_off1_inb i))

/-- Its 64 key columns, 768 columns further on. -/
def kCols (i : grid0.Coords) (qk : Vec F S1024x1536 .f32) : Vec F S1024x64 .f32 :=
  View.ld qk (Rect.unit (s := S1024x1536) (k0_off2 i) S1024x64.size (k0_off2_inb i))

/-- Its 64 value columns, out of the [1024, 768] value scratch. -/
def vCols (i : grid0.Coords) (vals : Vec F S1024x768 .bf16) : Vec F S1024x64 .bf16 :=
  View.ld vals (Rect.unit (s := S1024x768) (k0_off3 i) S1024x64.size (k0_off3_inb i))

/-- The head's attention tile, as stored to the attention output block. -/
def attnTile (i : grid0.Coords) (qk : Vec F S1024x1536 .f32) : Vec F S1x1x1024x1024 .f32 :=
  k0_pay9 (qCols i qk) (kCols i qk)

/-- The head's [1024, 64] result. -/
def headCols (i : grid0.Coords) (qk : Vec F S1024x1536 .f32) (vals : Vec F S1024x768 .bf16) : FVec F S1024x64 .bf16 :=
  k0_pay1 (vCols i vals) (k0_pay10 (qCols i qk) (kCols i qk)) (constant S1024x64 .f32 0x00000000#32)

/-- The third scratch after the head's store: the head's 64 columns overwritten, the others as found. -/
def mergedAfter (i : grid0.Coords) (qk : Vec F S1024x1536 .f32) (vals : Vec F S1024x768 .bf16) (mg : Vec F S1024x768 .bf16) :
    Vec F S1024x768 .bf16 :=
  put mg (k0_off3 i) S1024x64.size (k0_off3_inb i) (headCols i qk vals)

/-- The two stores of the projection into the [1024, 1536] scratch, newest first: the key half, then the query half. -/
def projPieces (x : Vec F S1x1024x768 .f32) (w : Vec F S768x1536 .f32) : List (View.Piece (Elt F) S1024x1536 .f32) :=
  [⟨Rect.unit (s := S1024x1536) ![0, 768] S1024x768.size inb_S1024x1536_S1024x768_0_768,
      k0_pay5 x (View.ld w (Rect.unit (s := S768x1536) ![0, 768] S768x768.size inb_S768x1536_S768x768_0_768))⟩,
   ⟨Rect.unit (s := S1024x1536) ![0, 0] S1024x768.size inb_S1024x1536_S1024x768_0_0,
      k0_pay4 x (View.ld w (Rect.unit (s := S768x1536) ![0, 0] S768x768.size inb_S768x1536_S768x768_0_0))⟩]

/-- The two halves tile the scratch: every index lies under one of them. -/
theorem projPieces_cover (x : Vec F S1x1024x768 .f32) (w : Vec F S768x1536 .f32) (y : S1024x1536.Idx) :
    ∃ pc ∈ projPieces x w, y ∈ pc.1.set :=
  View.cover_of_tiledL (projPieces x w) S1024x768.size (by sl_kernel_rfl) y

/-- The [1024, 1536] scratch after the projection at a batch's first head. -/
def projected (x : Vec F S1x1024x768 .f32) (w : Vec F S768x1536 .f32) : Vec F S1024x1536 .f32 :=
  View.canon (projPieces x w)

/-- The value scratch after the projection: one store of the whole block. -/
def values (x : Vec F S1x1024x768 .f32) (wv : Vec F S768x768 .bf16) : Vec F S1024x768 .bf16 :=
  k0_pay7 (k0_pay6 x) wv

/-- The projected output block, as stored at a batch's last head. -/
def outBlock (mg : Vec F S1024x768 .bf16) (wp : Vec F S768x768 .bf16) (bias : Vec F S768 .f32) : Vec F S1x1024x768 .f32 :=
  k0_pay2 mg wp bias

end Cert.KernelIdeal.Body

end
-- ==== Proof.BodyFirst.lean ====
/-
  The attention body at the first head of a batch. The batch's tokens are projected once: the query half and the key
  half of the [1024, 1536] scratch are stored (together they tile it, so what it held before does not matter), and the
  value scratch is stored whole. Then the head proceeds as every head does, reading its columns out of the scratches
  just written: its attention tile goes to the attention block, its result into its 64 columns of the third scratch.
  The other output block is not touched.
-/
import proofs.«178072_j6914897347234_2_alg».proof.Proof.BodyTerms

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, spelt as functions. -/
theorem zero4' : (![0, 0, 0, 0] : Fin 4 → Nat) = fun _ => 0 := funext fun a => by fin_cases a <;> rfl
theorem zero3' : (![0, 0, 0] : Fin 3 → Nat) = fun _ => 0 := funext fun a => by fin_cases a <;> rfl
theorem zero2' : (![0, 0] : Fin 2 → Nat) = fun _ => 0 := funext fun a => by fin_cases a <;> rfl

set_option maxHeartbeats 2000000 in
/-- At a batch's first head: from the inputs at their contents and every other buffer at any contents, the body runs to
    the continuation with the two projection scratches at the batch's projections, the attention block at the head's
    tile, and the third scratch with the head's columns overwritten. -/
theorem firstHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : isFirstHead i) (hc1 : ¬isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (d9 : Vec F S1024x1536 .f32) (d10 : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (attnTile i (projected x0 x1)) ∗ owns (c : Thread nD τ) arg9 fullShare (projected x0 x1) ∗ owns (c : Thread nD τ) arg10 fullShare (values x0 x2) ∗ owns (c : Thread nD τ) arg11 fullShare (mergedAfter i (projected x0 x1) (values x0 x2) mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  have eP : arg9.view.read (Elt F) (arg9.view.writes (Elt F) arg9.view.junk (projPieces x0 x1)) = projected x0 x1 :=
    View.read_writes_eq_canon _ _ _ (projPieces_cover x0 x1)
  unfold projPieces at eP
  have eV : arg10.view.read (Elt F) (arg10.view.writes (Elt F) arg10.view.junk
      [⟨Rect.unit (s := S1024x768) ![0, 0] S1024x768.size inb_S1024x768_S1024x768_0_0, k0_pay7 (k0_pay6 x0) x2⟩]) = values x0 x2 :=
    (View.read_writes_eq_canon _ _ _ (fun y => ⟨_, List.mem_singleton_self _, View.mem_set_unit_zero zero2' inb_S1024x768_S1024x768_0_0 y⟩)).trans
      (View.canon_unit_zero zero2' _ _)
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero4' inb_S1x1x1024x1024_S1x1x1024x1024_0_0_0_0 y⟩), View.canon_unit_zero zero4']
    sl_unfold_run_names
    unfold attnTile qCols kCols
    simp only [View.readAt_eq_ld, harg2.read_unread, harg3.read_unread, View.ld_unit_zero (S := S1x1024x768) zero3', eP]
  isplitl [HS0]
  · iexists _; isplitr; swap; · iexact HS0
    ipureintro
    sl_unfold_run_names
    simp only [View.readAt_eq_ld, harg2.read_unread, harg3.read_unread, View.ld_unit_zero (S := S1x1024x768) zero3', eP]
  isplitl [HS1]
  · iexists _; isplitr; swap; · iexact HS1
    ipureintro
    sl_unfold_run_names
    simp only [View.readAt_eq_ld, harg2.read_unread, harg4.read_unread, View.ld_unit_zero (S := S1x1024x768) zero3', View.ld_unit_zero (S := S768x768) zero2', eV]
  iexists _; isplitr; swap; · iexact HS2
  ipureintro
  sl_unfold_run_names
  rw [read_writes_cons_put, View.writes_nil, harg11.read_unread]
  unfold mergedAfter headCols qCols kCols vCols
  simp only [View.readAt_eq_ld, harg2.read_unread, harg3.read_unread, harg4.read_unread, View.ld_unit_zero (S := S1x1024x768) zero3', View.ld_unit_zero (S := S768x768) zero2', eP, eV]

end Cert.KernelIdeal.Body

end
-- ==== Proof.BodyMiddle.lean ====
/-
  The attention body at a middle head of a batch (neither the first nor the last): nothing is projected and no output
  block is finished. The head's query, key and value columns are read out of the two projection scratches as the
  earlier head left them; the head's attention tile goes to its output block; the head's result goes into its 64
  columns of the third scratch. Everything else is handed back as found.
-/
import proofs.«178072_j6914897347234_2_alg».proof.Proof.BodyTerms

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 4-axis zero offsets, spelt as a function. -/
theorem zero4 : (![0, 0, 0, 0] : Fin 4 → Nat) = fun _ => 0 := funext fun a => by fin_cases a <;> rfl

set_option maxHeartbeats 1000000 in
/-- At a middle head: from every buffer at known contents, the body runs to the continuation with the attention block at
    the head's tile, the third scratch with the head's columns overwritten, and every other buffer as it was. -/
theorem middleHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : ¬isFirstHead i) (hc1 : ¬isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (qk : Vec F S1024x1536 .f32) (vals : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare qk ∗ owns (c : Thread nD τ) arg10 fullShare vals ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (attnTile i qk) ∗ owns (c : Thread nD τ) arg9 fullShare qk ∗ owns (c : Thread nD τ) arg10 fullShare vals ∗ owns (c : Thread nD τ) arg11 fullShare (mergedAfter i qk vals mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero4 inb_S1x1x1024x1024_S1x1x1024x1024_0_0_0_0 y⟩), View.canon_unit_zero zero4]
    unfold attnTile qCols kCols
    rw [View.readAt_eq_ld, View.readAt_eq_ld, harg9.read_unread]
  isplitl [HS0]
  · iexists _; isplitr; · ipureintro; exact harg9.read_unread _
    iexact HS0
  isplitl [HS1]
  · iexists _; isplitr; · ipureintro; exact harg10.read_unread _
    iexact HS1
  iexists _; isplitr; swap; · iexact HS2
  ipureintro
  sl_unfold_run_names
  rw [read_writes_cons_put, View.writes_nil, harg11.read_unread]
  unfold mergedAfter headCols qCols kCols vCols
  simp only [View.readAt_eq_ld, harg9.read_unread, harg10.read_unread]

end Cert.KernelIdeal.Body

end
-- ==== Proof.BodyLast.lean ====
/-
  The attention body at the last head of a batch. Nothing is projected. The head proceeds as every head does — its
  attention tile to the attention block, its result into its 64 columns of the third scratch — and then the third
  scratch, now holding every head's columns, is read whole and the projected block with its bias is stored to the
  other output block.
-/
import proofs.«178072_j6914897347234_2_alg».proof.Proof.BodyTerms

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, spelt as functions. -/
theorem zero4'' : (![0, 0, 0, 0] : Fin 4 → Nat) = fun _ => 0 := funext fun a => by fin_cases a <;> rfl
theorem zero3'' : (![0, 0, 0] : Fin 3 → Nat) = fun _ => 0 := funext fun a => by fin_cases a <;> rfl
theorem zero2'' : (![0, 0] : Fin 2 → Nat) = fun _ => 0 := funext fun a => by fin_cases a <;> rfl
theorem zero1'' : (![0] : Fin 1 → Nat) = fun _ => 0 := funext fun a => by fin_cases a; rfl

set_option maxHeartbeats 2000000 in
/-- At a batch's last head: from every buffer at known contents, the body runs to the continuation with the attention
    block at the head's tile, the third scratch with the head's columns overwritten, and the other output block at the
    projection of that scratch with the bias. -/
theorem lastHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : ¬isFirstHead i) (hc1 : isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (qk : Vec F S1024x1536 .f32) (vals : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare qk ∗ owns (c : Thread nD τ) arg10 fullShare vals ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock (mergedAfter i qk vals mg) x3 x4) ∗ owns (c : Thread nD τ) arg8 fullShare (attnTile i qk) ∗ owns (c : Thread nD τ) arg9 fullShare qk ∗ owns (c : Thread nD τ) arg10 fullShare vals ∗ owns (c : Thread nD τ) arg11 fullShare (mergedAfter i qk vals mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (fun y => ⟨_, List.mem_singleton_self _, View.mem_set_unit_zero zero3'' inb_S1x1024x768_S1x1024x768_0_0_0 y⟩), View.canon_unit_zero zero3'']
    sl_unfold_run_names
    unfold outBlock mergedAfter headCols qCols kCols vCols
    simp only [View.readAt_eq_ld, harg5.read_unread, harg6.read_unread, harg9.read_unread, harg10.read_unread, View.ld_unit_zero (S := S768x768) zero2'', View.ld_unit_zero (S := S768) zero1'']
    rw [read_writes_cons_put, View.writes_nil, harg11.read_unread, View.ld_unit_zero (S := S1024x768) zero2'']
  isplitl [H6]
  · iexists _; isplitr; swap; · iexact H6
    ipureintro
    rw [View.read_writes_eq_canon _ _ _ (fun y => ⟨_, List.mem_singleton_self _, View.mem_set_unit_zero zero4'' inb_S1x1x1024x1024_S1x1x1024x1024_0_0_0_0 y⟩), View.canon_unit_zero zero4'']
    unfold attnTile qCols kCols
    rw [View.readAt_eq_ld, View.readAt_eq_ld, harg9.read_unread]
  isplitl [HS0]
  · iexists _; isplitr; · ipureintro; exact harg9.read_unread _
    iexact HS0
  isplitl [HS1]
  · iexists _; isplitr; · ipureintro; exact harg10.read_unread _
    iexact HS1
  iexists _; isplitr; swap; · iexact HS2
  ipureintro
  sl_unfold_run_names
  rw [read_writes_cons_put, View.writes_nil, harg11.read_unread]
  unfold mergedAfter headCols qCols kCols vCols
  simp only [View.readAt_eq_ld, harg9.read_unread, harg10.read_unread]

end Cert.KernelIdeal.Body

end
-- ==== Proof.TermsAt.lean ====
import proofs.«178072_j6914897347234_2_alg».proof.Proof.BodyTerms
import Idealize.ShloMosaic.Lib.ValueIdx

/-
  The contents the attention body leaves in its buffers, read at an index.

  The head coordinate `h` of a grid point selects 64 columns: the body's offset words are `h · 64` (query and value
  columns, and the head's columns of the merged scratch) and `768 + h · 64` (key columns). A load through a
  unit-stride rectangle reads the buffer at the index plus the offsets; a store through one overwrites exactly the
  indices inside it; the two column halves of the projection scratch meet at column 768.
-/

set_option maxRecDepth 16384

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-! ## The offset words in closed form -/

/-- The head coordinate is below 12. -/
theorem head_lt (i : grid0.Coords) : (i 1).val < 12 := (i 1).isLt

/-- The query columns start at column `h · 64`, -/
theorem off1_eq : ∀ i : grid0.Coords, k0_off1 i = ![0, (i 1).val * 64] := by decide +kernel

/-- the key columns 768 columns further on, -/
theorem off2_eq : ∀ i : grid0.Coords, k0_off2 i = ![0, 768 + (i 1).val * 64] := by decide +kernel

/-- and the value columns, like the head's columns of the merged scratch, at column `h · 64`. -/
theorem off3_eq : ∀ i : grid0.Coords, k0_off3 i = ![0, (i 1).val * 64] := by decide +kernel

/-! ## The three column loads -/

/-- The head's query columns: lane `d` of token `l` is column `h · 64 + d` of the scratch. -/
theorem qCols_apply (i : grid0.Coords) (qk : Vec F S1024x1536 .f32) (l : Fin 1024) (d : Fin 64) :
    qCols i qk (ix2 l d)
      = qk (ix2 l (⟨(i 1).val * 64 + d.val, by have := head_lt i; have := d.isLt; omega⟩ : Fin 1536)) := by
  unfold qCols
  show qk ((Rect.unit (s := S1024x1536) (k0_off1 i) S1024x64.size (k0_off1_inb i)).idx (ix2 l d)) = _
  refine congrArg qk (funext fun a => Fin.ext ?_)
  have e := off1_eq i
  match a with
  | ⟨0, _⟩ =>
    show k0_off1 i 0 + 1 * l.val = l.val
    rw [e]
    show 0 + 1 * l.val = l.val
    omega
  | ⟨1, _⟩ =>
    show k0_off1 i 1 + 1 * d.val = (i 1).val * 64 + d.val
    rw [e]
    show (i 1).val * 64 + 1 * d.val = (i 1).val * 64 + d.val
    omega

/-- Its key columns: column `768 + h · 64 + d`. -/
theorem kCols_apply (i : grid0.Coords) (qk : Vec F S1024x1536 .f32) (l : Fin 1024) (d : Fin 64) :
    kCols i qk (ix2 l d)
      = qk (ix2 l (⟨768 + (i 1).val * 64 + d.val, by have := head_lt i; have := d.isLt; omega⟩ : Fin 1536)) := by
  unfold kCols
  show qk ((Rect.unit (s := S1024x1536) (k0_off2 i) S1024x64.size (k0_off2_inb i)).idx (ix2 l d)) = _
  refine congrArg qk (funext fun a => Fin.ext ?_)
  have e := off2_eq i
  match a with
  | ⟨0, _⟩ =>
    show k0_off2 i 0 + 1 * l.val = l.val
    rw [e]
    show 0 + 1 * l.val = l.val
    omega
  | ⟨1, _⟩ =>
    show k0_off2 i 1 + 1 * d.val = 768 + (i 1).val * 64 + d.val
    rw [e]
    show 768 + (i 1).val * 64 + 1 * d.val = 768 + (i 1).val * 64 + d.val
    omega

/-- Its value columns: column `h · 64 + d` of the value scratch. -/
theorem vCols_apply (i : grid0.Coords) (vals : Vec F S1024x768 .bf16) (l : Fin 1024) (d : Fin 64) :
    vCols i vals (ix2 l d)
      = vals (ix2 l (⟨(i 1).val * 64 + d.val, by have := head_lt i; have := d.isLt; omega⟩ : Fin 768)) := by
  unfold vCols
  show vals ((Rect.unit (s := S1024x768) (k0_off3 i) S1024x64.size (k0_off3_inb i)).idx (ix2 l d)) = _
  refine congrArg vals (funext fun a => Fin.ext ?_)
  have e := off3_eq i
  match a with
  | ⟨0, _⟩ =>
    show k0_off3 i 0 + 1 * l.val = l.val
    rw [e]
    show 0 + 1 * l.val = l.val
    omega
  | ⟨1, _⟩ =>
    show k0_off3 i 1 + 1 * d.val = (i 1).val * 64 + d.val
    rw [e]
    show (i 1).val * 64 + 1 * d.val = (i 1).val * 64 + d.val
    omega

/-! ## The projection scratch -/

/-- The left half of the fused weight: its column `j` is the weight's column `j`. -/
theorem ld_w_left (w : Vec F S768x1536 .f32) (r : Fin 768) (j : Fin 768) :
    View.ld w (Rect.unit (s := S768x1536) ![0, 0] S768x768.size inb_S768x1536_S768x768_0_0) (ix2 r j)
      = w (ix2 r (⟨j.val, by have := j.isLt; omega⟩ : Fin 1536)) := by
  show w ((Rect.unit (s := S768x1536) ![0, 0] S768x768.size inb_S768x1536_S768x768_0_0).idx (ix2 r j)) = _
  refine congrArg w (funext fun a => Fin.ext ?_)
  match a with
  | ⟨0, _⟩ =>
    show 0 + 1 * r.val = r.val
    omega
  | ⟨1, _⟩ =>
    show 0 + 1 * j.val = j.val
    omega

/-- The right half: its column `j` is the weight's column `768 + j`. -/
theorem ld_w_right (w : Vec F S768x1536 .f32) (r : Fin 768) (j : Fin 768) :
    View.ld w (Rect.unit (s := S768x1536) ![0, 768] S768x768.size inb_S768x1536_S768x768_0_768) (ix2 r j)
      = w (ix2 r (⟨768 + j.val, by have := j.isLt; omega⟩ : Fin 1536)) := by
  show w ((Rect.unit (s := S768x1536) ![0, 768] S768x768.size inb_S768x1536_S768x768_0_768).idx (ix2 r j)) = _
  refine congrArg w (funext fun a => Fin.ext ?_)
  match a with
  | ⟨0, _⟩ =>
    show 0 + 1 * r.val = r.val
    omega
  | ⟨1, _⟩ =>
    show 768 + 1 * j.val = 768 + j.val
    omega

/-- Of two stores, an index the older one's rectangle places and the newer one's does not hold reads the older
    payload. -/
theorem canon_two_old {S : Shape} {e : EltTy} {Val : EltTy → Type} [∀ e, Nonempty (Val e)] (r₁ r₀ : Rect S)
    (w₁ : r₁.shape.Idx → Val e) (w₀ : r₀.shape.Idx → Val e) (x : r₀.shape.Idx) (h : r₀.emb x ∉ r₁.set) :
    View.canon [(⟨r₁, w₁⟩ : View.Piece Val S e), ⟨r₀, w₀⟩] (r₀.emb x) = w₀ x :=
  (View.canon_cons_of_not_mem (⟨r₁, w₁⟩ : View.Piece Val S e) [⟨r₀, w₀⟩] h).trans (View.canon_cons_emb r₀ w₀ [] x)

/-- The projection scratch at token `l`, column `j`: the query half's value below column 768, the key half's value
    at column `j − 768` from there on. -/
theorem projected_apply (x : Vec F S1x1024x768 .f32) (w : Vec F S768x1536 .f32) (l : Fin 1024) (j : Fin 1536) :
    projected x w (ix2 l j)
      = if hj : j.val < 768 then
          k0_pay4 x (View.ld w (Rect.unit (s := S768x1536) ![0, 0] S768x768.size inb_S768x1536_S768x768_0_0))
            (ix2 l (⟨j.val, hj⟩ : Fin 768))
        else
          k0_pay5 x (View.ld w (Rect.unit (s := S768x1536) ![0, 768] S768x768.size inb_S768x1536_S768x768_0_768))
            (ix2 l (⟨j.val - 768, by have := j.isLt; omega⟩ : Fin 768)) := by
  unfold projected projPieces
  by_cases hj : j.val < 768
  · rw [dif_pos hj]
    have hy : (Rect.unit (s := S1024x1536) ![0, 0] S1024x768.size inb_S1024x1536_S1024x768_0_0).emb
        (ix2 l (⟨j.val, hj⟩ : Fin 768)) = ix2 l j := funext fun a => Fin.ext (by
      match a with
      | ⟨0, _⟩ =>
        show 0 + 1 * l.val = l.val
        omega
      | ⟨1, _⟩ =>
        show 0 + 1 * j.val = j.val
        omega)
    have hnot : (ix2 l j : S1024x1536.Idx)
        ∉ (Rect.unit (s := S1024x1536) ![0, 768] S1024x768.size inb_S1024x1536_S1024x768_0_768).set := by
      rw [Rect.mem_set_unit]
      intro hall
      have h1 : (768 : ℕ) ≤ j.val := (hall 1).1
      omega
    rw [← hy] at hnot ⊢
    exact canon_two_old _ _ _ _ _ hnot
  · rw [dif_neg hj]
    have hy : (Rect.unit (s := S1024x1536) ![0, 768] S1024x768.size inb_S1024x1536_S1024x768_0_768).emb
        (ix2 l (⟨j.val - 768, by have := j.isLt; omega⟩ : Fin 768)) = ix2 l j := funext fun a => Fin.ext (by
      match a with
      | ⟨0, _⟩ =>
        show 0 + 1 * l.val = l.val
        omega
      | ⟨1, _⟩ =>
        show 768 + 1 * (j.val - 768) = j.val
        omega)
    rw [← hy]
    exact View.canon_cons_emb _ _ _ _

/-! ## The merged scratch -/

/-- The merged scratch after the head's store, at token `l`, column `c`: inside the head's 64 columns the head's
    result at lane `c − h · 64`, elsewhere what was there. -/
theorem mergedAfter_apply (i : grid0.Coords) (qk : Vec F S1024x1536 .f32) (vals : Vec F S1024x768 .bf16)
    (mg : Vec F S1024x768 .bf16) (l : Fin 1024) (cc : Fin 768) :
    mergedAfter i qk vals mg (ix2 l cc)
      = if hc : (i 1).val * 64 ≤ cc.val ∧ cc.val < (i 1).val * 64 + 64 then
          headCols i qk vals (ix2 l (⟨cc.val - (i 1).val * 64, by omega⟩ : Fin 64))
        else mg (ix2 l cc) := by
  have e := off3_eq i
  unfold mergedAfter put
  by_cases hc : (i 1).val * 64 ≤ cc.val ∧ cc.val < (i 1).val * 64 + 64
  · have hall : ∀ a, k0_off3 i a ≤ ((ix2 l cc : S1024x768.Idx) a).val
        ∧ ((ix2 l cc : S1024x768.Idx) a).val < k0_off3 i a + S1024x64.size a := by
      rw [e]
      intro a
      match a with
      | ⟨0, _⟩ =>
        show 0 ≤ l.val ∧ l.val < 0 + 1024
        have := l.isLt
        omega
      | ⟨1, _⟩ =>
        show (i 1).val * 64 ≤ cc.val ∧ cc.val < (i 1).val * 64 + 64
        exact hc
    rw [dif_pos hall, dif_pos hc]
    refine congrArg (headCols i qk vals) (funext fun a => Fin.ext ?_)
    match a with
    | ⟨0, _⟩ =>
      show l.val - k0_off3 i 0 = l.val
      rw [e]
      show l.val - 0 = l.val
      omega
    | ⟨1, _⟩ =>
      show cc.val - k0_off3 i 1 = cc.val - (i 1).val * 64
      rw [e]
      rfl
  · have hnall : ¬ ∀ a, k0_off3 i a ≤ ((ix2 l cc : S1024x768.Idx) a).val
        ∧ ((ix2 l cc : S1024x768.Idx) a).val < k0_off3 i a + S1024x64.size a := by
      intro hall
      have h1 := hall 1
      rw [e] at h1
      exact hc h1
    rw [dif_neg hnall, dif_neg hc]

end Cert.KernelIdeal.Body

end
-- ==== Proof.MergedColumns.lean ====
import proofs.«178072_j6914897347234_2_alg».proof.Proof.TermsAt

/-
  The merged scratch over the heads of one batch.

  The twelve heads of a batch are twelve consecutive grid points; head `k` overwrites columns `[64 · k, 64 · k + 64)`
  of the merged scratch with its result and leaves the other columns alone. So after head `k` the columns below
  `64 · (k + 1)` hold the results of heads `0 … k`, whatever the scratch held before the batch, and after the last head
  every column does: column `c` is lane `c % 64` of head `c / 64`.
-/

set_option maxRecDepth 16384

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-! ## The grid's coordinates in closed form -/

/-- Point `t` of the 4 × 12 grid is batch `t / 12`, -/
theorem coords_batch : ∀ t : Fin cfg0.N, (grid0.coords t 0).val = t.val / 12 :=
  (by decide +kernel : ∀ t : Fin grid0.N, (grid0.coords t 0).val = t.val / 12)

/-- head `t % 12`. -/
theorem coords_head : ∀ t : Fin cfg0.N, (grid0.coords t 1).val = t.val % 12 :=
  (by decide +kernel : ∀ t : Fin grid0.N, (grid0.coords t 1).val = t.val % 12)

/-! ## The scratch a whole batch leaves, and agreement on the leading columns -/

/-- The grid point of the head that owns column `c`, counted from the batch's first point `base`, is a grid point. -/
theorem pt_lt {base c : ℕ} (hb : base + 11 < 48) (hc : c < 768) : base + c / 64 < grid0.N := by
  rw [N_0]
  omega

/-- The merged scratch after all twelve heads of the batch whose first grid point is `base`: column `c` is lane
    `c % 64` of the result of head `c / 64`, computed at grid point `base + c / 64`. -/
def fullMerged (base : ℕ) (hb : base + 11 < 48) (qk : Vec F S1024x1536 .f32) (vals : Vec F S1024x768 .bf16) :
    Vec F S1024x768 .bf16 :=
  fun y => headCols (grid0.coords ⟨base + (y 1).val / 64, pt_lt hb (y 1).isLt⟩) qk vals
    (ix2 (y 0) (⟨(y 1).val % 64, Nat.mod_lt _ (by norm_num)⟩ : Fin 64))

/-- Two contents of the merged scratch agree on the columns below `n`. -/
def AgreeBelow (n : ℕ) (M M' : Vec F S1024x768 .bf16) : Prop :=
  ∀ y : S1024x768.Idx, (y 1).val < n → M y = M' y

/-- The whole-batch scratch at token `l`, column `c`. -/
theorem fullMerged_at (base : ℕ) (hb : base + 11 < 48) (qk : Vec F S1024x1536 .f32) (vals : Vec F S1024x768 .bf16)
    (l : Fin 1024) (cc : Fin 768) :
    fullMerged base hb qk vals (ix2 l cc)
      = headCols (grid0.coords ⟨base + cc.val / 64, pt_lt hb cc.isLt⟩) qk vals
          (ix2 l (⟨cc.val % 64, Nat.mod_lt _ (by norm_num)⟩ : Fin 64)) := rfl

/-- Below column 0 there is nothing to agree on. -/
theorem agree_zero (M M' : Vec F S1024x768 .bf16) : AgreeBelow 0 M M' :=
  fun y hy => absurd hy (Nat.not_lt_zero _)

/-- Agreement below column 768 is equality: every column is below 768. -/
theorem agree_all (M M' : Vec F S1024x768 .bf16) (h : AgreeBelow 768 M M') : M = M' :=
  funext fun y => h y (y 1).isLt

/-! ## One head's store extends the agreement by its 64 columns -/

/-- If before the store of grid point `t` — head `t % 12` of the batch whose first point is `base` — the scratch
    agrees with the whole-batch scratch below column `64 · (t % 12)`, then after it the two agree below column
    `64 · (t % 12 + 1)`: the store puts that head's own result in its 64 columns and touches no other. -/
theorem agree_step (t : Fin cfg0.N) (base : ℕ) (hb : base + 11 < 48) (hbase : base = t.val - t.val % 12)
    (qk : Vec F S1024x1536 .f32) (vals : Vec F S1024x768 .bf16) (M : Vec F S1024x768 .bf16)
    (h : AgreeBelow (64 * (t.val % 12)) M (fullMerged base hb qk vals)) :
    AgreeBelow (64 * (t.val % 12 + 1)) (mergedAfter (grid0.coords t) qk vals M) (fullMerged base hb qk vals) := by
  intro y hy
  obtain ⟨l, c, rfl⟩ : ∃ l c, y = ix2 l c := ⟨y 0, y 1, eq_ix2 y⟩
  have hy' : c.val < 64 * (t.val % 12 + 1) := hy
  have hh : (grid0.coords t 1).val = t.val % 12 := coords_head t
  have hc768 : c.val < 768 := c.isLt
  rw [mergedAfter_apply]
  by_cases hc : (grid0.coords t 1).val * 64 ≤ c.val ∧ c.val < (grid0.coords t 1).val * 64 + 64
  · rw [dif_pos hc, fullMerged_at]
    have hc' := hc
    rw [hh] at hc'
    have ept : grid0.coords ⟨base + c.val / 64, pt_lt hb c.isLt⟩ = grid0.coords t :=
      congrArg grid0.coords (Fin.ext (by
        show base + c.val / 64 = t.val
        omega))
    rw [ept]
    refine congrArg (fun d => headCols (grid0.coords t) qk vals (ix2 l d)) (Fin.ext ?_)
    show c.val - (grid0.coords t 1).val * 64 = c.val % 64
    rw [hh]
    omega
  · rw [dif_neg hc]
    refine h (ix2 l c) ?_
    show c.val < 64 * (t.val % 12)
    rw [hh] at hc
    omega

end Cert.KernelIdeal.Body

end
-- ==== Proof.FrameData.lean ====
/-
  The proof data of the attention pipeline and its body obligation.

  The grid has 48 points, (batch, head) = (t / 12, t % 12), visited in order. Between points the kernel carries three
  scratch buffers. The two projection scratches are written whole at a batch's first head and only read until the
  batch ends, so what they hold after point t is defined by recursion on t (`projAt`). The third scratch is written 64
  columns per head and starts at unknown contents, so it is held at SOME contents whose columns below 64·(t % 12 + 1)
  agree with the closed form of the heads' results (`fullMerged`); at a batch's last head that pins all 768 columns.
  The attention output block is written at every point (the head's tile); the other output block is written at a
  batch's last head only (the projection of the full third scratch) and is idle at the other points, where the body
  hands it back untouched. The obligation is then the three runs of the body, chosen by t % 12.
-/
import proofs.«178072_j6914897347234_2_alg».proof.Proof.BodyFirst
import proofs.«178072_j6914897347234_2_alg».proof.Proof.BodyMiddle
import proofs.«178072_j6914897347234_2_alg».proof.Proof.BodyLast
import proofs.«178072_j6914897347234_2_alg».proof.Proof.MergedColumns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and that it is a whole buffer. -/
abbrev stg0 (t : Fin cfg0.N) : Memref sig .tc .vmem S1x1024x768 .f32 := win0_0.stage (cfg0.slots t 0)
abbrev stg0w (t : Fin cfg0.N) : (stg0 t).IsWhole := hstage0_0 ((cfg0.slots t 0).cast nbuf0_0)
abbrev stg1 (t : Fin cfg0.N) : Memref sig .tc .vmem S768x1536 .f32 := win0_1.stage (cfg0.slots t 1)
abbrev stg1w (t : Fin cfg0.N) : (stg1 t).IsWhole := hstage0_1 ((cfg0.slots t 1).cast nbuf0_1)
abbrev stg2 (t : Fin cfg0.N) : Memref sig .tc .vmem S768x768 .bf16 := win0_2.stage (cfg0.slots t 2)
abbrev stg2w (t : Fin cfg0.N) : (stg2 t).IsWhole := hstage0_2 ((cfg0.slots t 2).cast nbuf0_2)
abbrev stg3 (t : Fin cfg0.N) : Memref sig .tc .vmem S768x768 .bf16 := win0_3.stage (cfg0.slots t 3)
abbrev stg3w (t : Fin cfg0.N) : (stg3 t).IsWhole := hstage0_3 ((cfg0.slots t 3).cast nbuf0_3)
abbrev stg4 (t : Fin cfg0.N) : Memref sig .tc .vmem S768 .f32 := win0_4.stage (cfg0.slots t 4)
abbrev stg4w (t : Fin cfg0.N) : (stg4 t).IsWhole := hstage0_4 ((cfg0.slots t 4).cast nbuf0_4)
abbrev stg5 (t : Fin cfg0.N) : Memref sig .tc .vmem S1x1024x768 .f32 := win0_5.stage (cfg0.slots t 5)
abbrev stg5w (t : Fin cfg0.N) : (stg5 t).IsWhole := hstage0_5 ((cfg0.slots t 5).cast nbuf0_5)
abbrev stg6 (t : Fin cfg0.N) : Memref sig .tc .vmem S1x1x1024x1024 .f32 := win0_6.stage (cfg0.slots t 6)
abbrev stg6w (t : Fin cfg0.N) : (stg6 t).IsWhole := hstage0_6 ((cfg0.slots t 6).cast nbuf0_6)

/-- The three scratch buffers: the query/key projections, the value projection, the heads' results side by side. -/
abbrev scrQK : Memref sig .tc .vmem S1024x1536 .f32 := Memref.whole cc0_scratch0
abbrev scrV : Memref sig .tc .vmem S1024x768 .bf16 := Memref.whole cc0_scratch1
abbrev scrM : Memref sig .tc .vmem S1024x768 .bf16 := Memref.whole cc0_scratch2

/-- What the region hands the body before the first point and takes back after the last: each scratch at some
    contents, the generator register at some state. -/
theorem anyScratch_eq (c : Dev nD) :
    (Pipeline.ΦA spec0 c : sProp 𝕄)
      = iprop(iprop((∃ d, owns (c : Thread nD τ) scrQK fullShare d) ∗ (∃ d, owns (c : Thread nD τ) scrV fullShare d) ∗ (∃ d, owns (c : Thread nD τ) scrM fullShare d)) ∗ (∃ r, prngReg c r)) := by
  unfold Pipeline.ΦA; rw [scopedRest0_eq]; simp only [scrQK, scrV, scrM, owns_whole]; try rfl

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live6 : ∀ t : Fin cfg0.N, cfg0.idle 6 (grid0.coords t) = false := by decide +kernel
/-- The projected output block is idle except at a batch's last head, -/
theorem idle5_of : ∀ t : Fin cfg0.N, t.val % 12 ≠ 11 → cfg0.idle 5 (grid0.coords t) = true :=
  (by decide +kernel : ∀ t : Fin grid0.N, t.val % 12 ≠ 11 → cfg0.idle 5 (grid0.coords t) = true)
theorem live5_of : ∀ t : Fin cfg0.N, t.val % 12 = 11 → cfg0.idle 5 (grid0.coords t) = false :=
  (by decide +kernel : ∀ t : Fin grid0.N, t.val % 12 = 11 → cfg0.idle 5 (grid0.coords t) = false)
/-- and is written back exactly there. -/
theorem noflush5_of (t : Fin cfg0.N) (h : t.val % 12 ≠ 11) : (cfg0.win 5).flush t = false := by
  cases hf : (cfg0.win 5).flush t
  · rfl
  · exact absurd ((flush0_5 t).mp hf) h

/-! ## The projection scratches, point by point -/

/-- The two projection scratches after point `n`: at a batch's first head the projections of the batch's block, at a
    later head what the head before left. -/
def projAt (c : Dev nD) : (n : ℕ) → n < cfg0.N → Vec F S1024x1536 .f32 × Vec F S1024x768 .bf16
  | 0, hn => (projected (iblk m c 0 ⟨0, hn⟩) (iblk m c 1 ⟨0, hn⟩), values (iblk m c 0 ⟨0, hn⟩) (iblk m c 2 ⟨0, hn⟩))
  | n + 1, hn =>
    if (n + 1) % 12 = 0 then
      (projected (iblk m c 0 ⟨n + 1, hn⟩) (iblk m c 1 ⟨n + 1, hn⟩), values (iblk m c 0 ⟨n + 1, hn⟩) (iblk m c 2 ⟨n + 1, hn⟩))
    else projAt c n (Nat.lt_of_succ_lt hn)

theorem projAt_first (c : Dev nD) (t : Fin cfg0.N) (h0 : t.val % 12 = 0) :
    projAt m c t.val t.isLt = (projected (iblk m c 0 t) (iblk m c 1 t), values (iblk m c 0 t) (iblk m c 2 t)) := by
  obtain ⟨n, hn⟩ := t
  cases n with
  | zero => rfl
  | succ n => exact if_pos h0

theorem projAt_later (c : Dev nD) (t : Fin cfg0.N) (h0 : ¬t.val % 12 = 0) :
    projAt m c t.val t.isLt = projAt m c (t.val - 1) (Nat.lt_of_le_of_lt (Nat.sub_le _ _) t.isLt) := by
  obtain ⟨n, hn⟩ := t
  cases n with
  | zero => exact absurd (Nat.zero_mod _) h0
  | succ n => exact if_neg h0

/-- The first point of the batch of point `n`, and that the batch's twelve points are points of the grid. -/
theorem batch_bound (n : ℕ) (hn : n < cfg0.N) : n - n % 12 + 11 < 48 := by
  have hN : n < 48 := lt_of_lt_of_eq hn (show cfg0.N = 48 from N_0)
  omega

/-- The closed form of the third scratch for the batch of point `n`, over the projections point `n` finds. -/
def mergedAt (c : Dev nD) (n : ℕ) (hn : n < cfg0.N) : Vec F S1024x768 .bf16 :=
  fullMerged (n - n % 12) (batch_bound n hn) (projAt m c n hn).1 (projAt m c n hn).2

/-! ## The invariant -/

/-- Before point `n`: before the first point every scratch at anything; afterwards the projection scratches at what
    the point before left, the third scratch at some contents whose columns written so far in the batch agree with the
    closed form. The generator register at some state throughout. -/
def inv (c : Dev nD) : (n : ℕ) → n ≤ cfg0.N → sProp 𝕄
  | 0, _ => Pipeline.ΦA spec0 c
  | n + 1, hn => iprop(iprop(owns (c : Thread nD τ) scrQK fullShare (projAt m c n hn).1 ∗ owns (c : Thread nD τ) scrV fullShare (projAt m c n hn).2
      ∗ (∃ M, ⌜AgreeBelow (64 * (n % 12 + 1)) M (mergedAt m c n hn)⌝ ∗ owns (c : Thread nD τ) scrM fullShare M)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scrQK fullShare (projAt m c n hn).1 ∗ owns (c : Thread nD τ) scrV fullShare (projAt m c n hn).2
      ∗ (∃ M, ⌜AgreeBelow (64 * (n % 12 + 1)) M (mergedAt m c n hn)⌝ ∗ owns (c : Thread nD τ) scrM fullShare M)) ∗ (∃ r, prngReg c r)) := rfl

theorem inv_pos (c : Dev nD) (n : ℕ) (h : n ≤ cfg0.N) (hz : n ≠ 0) :
    inv m c n h = iprop(iprop(owns (c : Thread nD τ) scrQK fullShare (projAt m c (n - 1) (by omega)).1 ∗ owns (c : Thread nD τ) scrV fullShare (projAt m c (n - 1) (by omega)).2
      ∗ (∃ M, ⌜AgreeBelow (64 * ((n - 1) % 12 + 1)) M (mergedAt m c (n - 1) (by omega))⌝ ∗ owns (c : Thread nD τ) scrM fullShare M)) ∗ (∃ r, prngReg c r)) := by
  cases n with
  | zero => exact absurd rfl hz
  | succ n => rfl

/-- Whatever the point, the invariant holds each scratch at some contents. -/
theorem inv_any (c : Dev nD) (n : ℕ) (h : n ≤ cfg0.N) :
    inv m c n h ⊢ iprop(iprop((∃ d, owns (c : Thread nD τ) scrQK fullShare d) ∗ (∃ d, owns (c : Thread nD τ) scrV fullShare d) ∗ (∃ d, owns (c : Thread nD τ) scrM fullShare d)) ∗ (∃ r, prngReg c r)) := by
  by_cases hz : n = 0
  · rw [inv_zero m c n h hz, anyScratch_eq]
  · rw [inv_pos m c n h hz]
    iintro ⟨⟨HS0, HS1, ⟨%M, -, HS2⟩⟩, Hg⟩
    isplitl [HS0 HS1 HS2]
    · isplitl [HS0]
      · iexists _; iexact HS0
      isplitl [HS1]
      · iexists _; iexact HS1
      iexists _; iexact HS2
    iexact Hg

/-! ## The proof data -/

/-- The proof data of the one pipeline on core `c`: the arrays as the region finds them; after the body at point `t`
    each input's buffer at its block, the attention block at the head's tile over the projections the point leaves, the
    projected block at the projection of the batch's full third scratch; the invariant above; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (mergedAt m c t.val t.isLt) (iblk m c 3 t) (iblk m c 4 t)
    | ⟨6, _⟩ => attnTile (grid0.coords t) (projAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (mergedAt m c t.val t.isLt) (iblk m c 3 t) (iblk m c 4 t) := by dsimp only [dats]
theorem after6 (c : Dev nD) (t : Fin cfg0.N) :
    (dats m 0 c).after 6 t = attnTile (grid0.coords t) (projAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Agreement with a closed form is agreement with an equal one. -/
theorem agree_cast {n n' : ℕ} {M A B : Vec F S1024x768 .bf16} (hn : n = n') (hAB : A = B) (h : AgreeBelow n M A) :
    AgreeBelow n' M B := by subst hn hAB; exact h

/-- Within a batch the closed form does not move: at a later head it is the one of the head before. -/
theorem mergedAt_later (c : Dev nD) (t : Fin cfg0.N) (h0 : ¬t.val % 12 = 0) :
    mergedAt m c (t.val - 1) (Nat.lt_of_le_of_lt (Nat.sub_le _ _) t.isLt) = mergedAt m c t.val t.isLt := by
  unfold mergedAt
  have hN : t.val < 48 := lt_of_lt_of_eq t.isLt (show cfg0.N = 48 from N_0)
  have hb : t.val - 1 - (t.val - 1) % 12 = t.val - t.val % 12 := by omega
  rw [← projAt_later m c t h0]
  congr 1

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (iblk m c 4 t) := by
  unfold Dat.leavesExact; rw [live4 t, after4]
theorem leaves6 (c : Dev nD) (t : Fin cfg0.N) : (dats m 0 c).leavesExact 6 t = owns (c : Thread nD τ) (stg6 t) fullShare (attnTile (grid0.coords t) (projAt m c t.val t.isLt).1) := by
  unfold Dat.leavesExact; rw [live6 t, after6]
theorem leaves5_idle (c : Dev nD) (t : Fin cfg0.N) (h : t.val % 12 ≠ 11) :
    (dats m 0 c).leavesExact 5 t = iprop(∃ d, owns (c : Thread nD τ) (stg5 t) fullShare ((dats m 0 c).before 5 t d)) :=
  (dats m 0 c).leavesExact_idle 5 t (idle5_of t h) (noflush5_of t h)
theorem leaves5_last (c : Dev nD) (t : Fin cfg0.N) (h : t.val % 12 = 11) :
    (dats m 0 c).leavesExact 5 t = owns (c : Thread nD τ) (stg5 t) fullShare (outBlock (mergedAt m c t.val t.isLt) (iblk m c 3 t) (iblk m c 4 t)) := by
  unfold Dat.leavesExact; rw [live5_of t h, after5]

set_option maxHeartbeats 4000000 in
/-- The body at any point: the point's residue mod 12 says which run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rewrite [show (dats m 0 c).owesAt () t.succ = (dats m 0 c).owesAt () t.castSucc from rfl]
  rewrite [show (dats m 0 c).Φ t.succ = inv m c (t.val + 1) t.isLt from rfl, inv_succ]
  rewrite [leaves0, leaves1, leaves2, leaves3, leaves4, leaves6]
  rewrite [inv_castSucc m c t]
  have hN : t.val < 48 := lt_of_lt_of_eq t.isLt (show cfg0.N = 48 from N_0)
  by_cases h0 : t.val % 12 = 0
  · have h1 : ¬t.val % 12 = 11 := by omega
    rewrite [leaves5_idle m c t h1, projAt_first m c t h0]
    refine (sep_mono (inv_any m c t.val _) .rfl).trans ?_
    iintro ⟨⟨⟨⟨%d9, HS0⟩, ⟨%d10, HS1⟩, ⟨%mg, HS2⟩⟩, Hg⟩, Ho, ⟨%d0, H0⟩, ⟨%d1, H1⟩, ⟨%d2, H2⟩, ⟨%d3, H3⟩, ⟨%d4, H4⟩, ⟨%d5, H5⟩, ⟨%d6, H6⟩⟩
    iapply (firstHead c (grid0.coords t) _ _ _ _ _ _ _ _ _ _ _ _ _ _ _ _ _ _ _ _ ((isFirstHead_iff t).mpr h0) (fun h => h1 ((isLastHead_iff t).mp h)) (iblk m c 0 t) (iblk m c 1 t) (iblk m c 2 t) (iblk m c 3 t) (iblk m c 4 t) _ _ d9 d10 mg Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexists _; isplitr; swap; · iexact HS2
        ipureintro
        unfold mergedAt
        rw [projAt_first m c t h0]
        exact agree_step t _ (batch_bound t.val t.isLt) rfl _ _ mg (agree_cast (by omega) rfl (agree_zero mg _))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · have hz : t.val ≠ 0 := fun h => h0 (by rw [h])
    rewrite [inv_pos m c _ _ hz, projAt_later m c t h0]
    by_cases h1 : t.val % 12 = 11
    · rewrite [leaves5_last m c t h1]
      iintro ⟨⟨⟨HS0, HS1, ⟨%M, %hM, HS2⟩⟩, Hg⟩, Ho, ⟨%d0, H0⟩, ⟨%d1, H1⟩, ⟨%d2, H2⟩, ⟨%d3, H3⟩, ⟨%d4, H4⟩, ⟨%d5, H5⟩, ⟨%d6, H6⟩⟩
      have hstep : AgreeBelow (64 * (t.val % 12 + 1)) (mergedAfter (grid0.coords t) (projAt m c (t.val - 1) (Nat.lt_of_le_of_lt (Nat.sub_le _ _) t.isLt)).1 (projAt m c (t.val - 1) (Nat.lt_of_le_of_lt (Nat.sub_le _ _) t.isLt)).2 M) (mergedAt m c t.val t.isLt) := by
        have hM' : AgreeBelow (64 * (t.val % 12)) M (mergedAt m c t.val t.isLt) :=
          agree_cast (by omega) (mergedAt_later m c t h0) hM
        rw [← projAt_later m c t h0]
        exact agree_step t _ (batch_bound t.val t.isLt) rfl _ _ M hM'
      have hfull : mergedAfter (grid0.coords t) (projAt m c (t.val - 1) (Nat.lt_of_le_of_lt (Nat.sub_le _ _) t.isLt)).1 (projAt m c (t.val - 1) (Nat.lt_of_le_of_lt (Nat.sub_le _ _) t.isLt)).2 M = mergedAt m c t.val t.isLt :=
        agree_all _ _ (agree_cast (by omega) rfl hstep)
      iapply (lastHead c (grid0.coords t) _ _ _ _ _ _ _ _ _ _ _ _ _ _ _ _ _ _ _ _ (fun h => h0 ((isFirstHead_iff t).mp h)) ((isLastHead_iff t).mpr h1) (iblk m c 0 t) (iblk m c 1 t) (iblk m c 2 t) (iblk m c 3 t) (iblk m c 4 t) _ _ _ _ M Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      rw [hfull]
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rewrite [leaves5_idle m c t h1]
      iintro ⟨⟨⟨HS0, HS1, ⟨%M, %hM, HS2⟩⟩, Hg⟩, Ho, ⟨%d0, H0⟩, ⟨%d1, H1⟩, ⟨%d2, H2⟩, ⟨%d3, H3⟩, ⟨%d4, H4⟩, ⟨%d5, H5⟩, ⟨%d6, H6⟩⟩
      have hstep : AgreeBelow (64 * (t.val % 12 + 1)) (mergedAfter (grid0.coords t) (projAt m c (t.val - 1) (Nat.lt_of_le_of_lt (Nat.sub_le _ _) t.isLt)).1 (projAt m c (t.val - 1) (Nat.lt_of_le_of_lt (Nat.sub_le _ _) t.isLt)).2 M) (mergedAt m c t.val t.isLt) := by
        have hM' : AgreeBelow (64 * (t.val % 12)) M (mergedAt m c t.val t.isLt) :=
          agree_cast (by omega) (mergedAt_later m c t h0) hM
        rw [← projAt_later m c t h0]
        exact agree_step t _ (batch_bound t.val t.isLt) rfl _ _ M hM'
      iapply (middleHead c (grid0.coords t) _ _ _ _ _ _ _ _ _ _ _ _ _ _ _ _ _ _ _ _ (fun h => h0 ((isFirstHead_iff t).mp h)) (fun h => h1 ((isLastHead_iff t).mp h)) (iblk m c 0 t) (iblk m c 1 t) (iblk m c 2 t) (iblk m c 3 t) (iblk m c 4 t) _ _ _ _ M Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, anyScratch_eq]
  exact inv_any m c _ _

/-! ## The run and the frame -/

set_option backward.isDefEq.respectTransparency.types false in
/-- Every weakly fair execution of @main terminates, with every array of the pipeline at what the proof data computes
    and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.BodyTermsBits.lean ====
/-
  The contents the attention body leaves in each buffer, as pure functions of what it found there.

  A grid point is a pair (batch, head). At the first head of a batch the body projects the batch's tokens once: the
  query and key features into one [1024, 1536] scratch (two column halves, one store each), the value features into a
  [1024, 768] scratch. At every head it reads that head's 64 query columns, 64 key columns and 64 value columns out of
  the two scratches, writes the head's [1024, 1024] attention tile to its output block, and writes the head's
  [1024, 64] result into that head's 64 columns of a third [1024, 768] scratch, the other columns kept. At the last
  head it reads the third scratch whole and writes the projected block with its bias to the other output block.
  The arithmetic is kept behind the body's named values; this module only says which value lands where.
-/
import proofs.«178072_j6914897347234_2_alg».proof.Proof.Gen.Kernel.Frame
import proofs.«178072_j6914897347234_2_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe

variable {F : FTy → Type} [FloatOps F]

/-! ## The two tests on the head coordinate -/

/-- The body's first test: the head coordinate is 0 (the scalar chain the body computes). -/
abbrev isFirstHead (i : grid0.Coords) : Prop :=
  (Scalar.cmpi .ne (Scalar.extui (Scalar.cmpi .eq (BitVec.ofNat 32 (i 1).val) 0#32)) 0#32) = 1#1

/-- The body's second test: the head coordinate is 11. -/
abbrev isLastHead (i : grid0.Coords) : Prop := k0_cond2 i = 1#1

/-- Point `t` is (t / 12, t % 12): the first test holds exactly at the points ≡ 0 (mod 12), -/
theorem isFirstHead_iff : ∀ t : Fin cfg0.N, isFirstHead (grid0.coords t) ↔ t.val % 12 = 0 :=
  (by decide +kernel : ∀ t : Fin grid0.N, isFirstHead (grid0.coords t) ↔ t.val % 12 = 0)

/-- and the second exactly at the points ≡ 11 (mod 12). -/
theorem isLastHead_iff : ∀ t : Fin cfg0.N, isLastHead (grid0.coords t) ↔ t.val % 12 = 11 :=
  (by decide +kernel : ∀ t : Fin grid0.N, isLastHead (grid0.coords t) ↔ t.val % 12 = 11)

/-! ## One store through a unit-stride rectangle, as a function -/

/-- `X` with the rectangle of sizes `size` at offsets `off` overwritten by `w`: inside the rectangle `w` at the index
    minus the offsets, outside it `X`. -/
def put {S : Shape} {α : Type} (X : S.Idx → α) (off size : Fin S.rank → ℕ) (inb : ∀ a, off a + size a ≤ S.size a)
    (w : (Rect.unit off size inb).shape.Idx → α) : S.Idx → α :=
  fun y => if h : ∀ a, off a ≤ (y a).val ∧ (y a).val < off a + size a then
      w (Rect.unitLocal (s := S) (off := off) (size := size) y h)
    else X y

/-- Reading a buffer after a list of stores whose newest goes through a unit-stride rectangle: the older stores' result
    with that rectangle overwritten. -/
theorem read_writes_cons_put {sig : RefSig} {κ : Kind} {sp : Space} {S : Shape} {e : EltTy} {Val : EltTy → Type}
    (v : View sig κ sp S e) (f : v.ty.Contents Val) {off size : Fin S.rank → ℕ} (inb : ∀ a, off a + size a ≤ S.size a)
    (w : (Rect.unit off size inb).shape.Idx → Val e) (L : List (View.Piece Val S e)) :
    v.read Val (v.writes Val f ((⟨Rect.unit off size inb, w⟩ : View.Piece Val S e) :: L))
      = put (v.read Val (v.writes Val f L)) off size inb w :=
  funext fun y => View.read_writes_cons_unit v f inb w L y rfl

/-! ## What the body reads and writes, named -/

/-- The 64 query columns of the head at point `i`, out of the [1024, 1536] scratch. -/
def qCols (i : grid0.Coords) (qk : Vec F S1024x1536 .f32) : Vec F S1024x64 .f32 :=
  View.ld qk (Rect.unit (s := S1024x1536) (k0_off1 i) S1024x64.size (k0_off1_inb i))

/-- Its 64 key columns, 768 columns further on. -/
def kCols (i : grid0.Coords) (qk : Vec F S1024x1536 .f32) : Vec F S1024x64 .f32 :=
  View.ld qk (Rect.unit (s := S1024x1536) (k0_off2 i) S1024x64.size (k0_off2_inb i))

/-- Its 64 value columns, out of the [1024, 768] value scratch. -/
def vCols (i : grid0.Coords) (vals : Vec F S1024x768 .bf16) : Vec F S1024x64 .bf16 :=
  View.ld vals (Rect.unit (s := S1024x768) (k0_off3 i) S1024x64.size (k0_off3_inb i))

/-- The head's attention tile, as stored to the attention output block. -/
def attnTile (i : grid0.Coords) (qk : Vec F S1024x1536 .f32) : Vec F S1x1x1024x1024 .f32 :=
  k0_pay9 (qCols i qk) (kCols i qk)

/-- The head's [1024, 64] result. -/
def headCols (i : grid0.Coords) (qk : Vec F S1024x1536 .f32) (vals : Vec F S1024x768 .bf16) : FVec F S1024x64 .bf16 :=
  k0_pay1 (vCols i vals) (k0_pay10 (qCols i qk) (kCols i qk)) (constant S1024x64 .f32 0x00000000#32)

/-- The third scratch after the head's store: the head's 64 columns overwritten, the others as found. -/
def mergedAfter (i : grid0.Coords) (qk : Vec F S1024x1536 .f32) (vals : Vec F S1024x768 .bf16) (mg : Vec F S1024x768 .bf16) :
    Vec F S1024x768 .bf16 :=
  put mg (k0_off3 i) S1024x64.size (k0_off3_inb i) (headCols i qk vals)

/-- The two stores of the projection into the [1024, 1536] scratch, newest first: the key half, then the query half. -/
def projPieces (x : Vec F S1x1024x768 .f32) (w : Vec F S768x1536 .f32) : List (View.Piece (Elt F) S1024x1536 .f32) :=
  [⟨Rect.unit (s := S1024x1536) ![0, 768] S1024x768.size inb_S1024x1536_S1024x768_0_768,
      k0_pay5 x (View.ld w (Rect.unit (s := S768x1536) ![0, 768] S768x768.size inb_S768x1536_S768x768_0_768))⟩,
   ⟨Rect.unit (s := S1024x1536) ![0, 0] S1024x768.size inb_S1024x1536_S1024x768_0_0,
      k0_pay4 x (View.ld w (Rect.unit (s := S768x1536) ![0, 0] S768x768.size inb_S768x1536_S768x768_0_0))⟩]

/-- The two halves tile the scratch: every index lies under one of them. -/
theorem projPieces_cover (x : Vec F S1x1024x768 .f32) (w : Vec F S768x1536 .f32) (y : S1024x1536.Idx) :
    ∃ pc ∈ projPieces x w, y ∈ pc.1.set :=
  View.cover_of_tiledL (projPieces x w) S1024x768.size (by sl_kernel_rfl) y

/-- The [1024, 1536] scratch after the projection at a batch's first head. -/
def projected (x : Vec F S1x1024x768 .f32) (w : Vec F S768x1536 .f32) : Vec F S1024x1536 .f32 :=
  View.canon (projPieces x w)

/-- The value scratch after the projection: one store of the whole block. -/
def values (x : Vec F S1x1024x768 .f32) (wv : Vec F S768x768 .bf16) : Vec F S1024x768 .bf16 :=
  k0_pay7 (k0_pay6 x) wv

/-- The projected output block, as stored at a batch's last head. -/
def outBlock (mg : Vec F S1024x768 .bf16) (wp : Vec F S768x768 .bf16) (bias : Vec F S768 .f32) : Vec F S1x1024x768 .f32 :=
  k0_pay2 mg wp bias

end Cert.Kernel.Body

end
-- ==== Proof.BodyFirstBits.lean ====
/-
  The attention body at the first head of a batch. The batch's tokens are projected once: the query half and the key
  half of the [1024, 1536] scratch are stored (together they tile it, so what it held before does not matter), and the
  value scratch is stored whole. Then the head proceeds as every head does, reading its columns out of the scratches
  just written: its attention tile goes to the attention block, its result into its 64 columns of the third scratch.
  The other output block is not touched.
-/
import proofs.«178072_j6914897347234_2_alg».proof.Proof.BodyTermsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, spelt as functions. -/
theorem zero4' : (![0, 0, 0, 0] : Fin 4 → Nat) = fun _ => 0 := funext fun a => by fin_cases a <;> rfl
theorem zero3' : (![0, 0, 0] : Fin 3 → Nat) = fun _ => 0 := funext fun a => by fin_cases a <;> rfl
theorem zero2' : (![0, 0] : Fin 2 → Nat) = fun _ => 0 := funext fun a => by fin_cases a <;> rfl

set_option maxHeartbeats 2000000 in
/-- At a batch's first head: from the inputs at their contents and every other buffer at any contents, the body runs to
    the continuation with the two projection scratches at the batch's projections, the attention block at the head's
    tile, and the third scratch with the head's columns overwritten. -/
theorem firstHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : isFirstHead i) (hc1 : ¬isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (d9 : Vec F S1024x1536 .f32) (d10 : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (attnTile i (projected x0 x1)) ∗ owns (c : Thread nD τ) arg9 fullShare (projected x0 x1) ∗ owns (c : Thread nD τ) arg10 fullShare (values x0 x2) ∗ owns (c : Thread nD τ) arg11 fullShare (mergedAfter i (projected x0 x1) (values x0 x2) mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  have eP : arg9.view.read (Elt F) (arg9.view.writes (Elt F) arg9.view.junk (projPieces x0 x1)) = projected x0 x1 :=
    View.read_writes_eq_canon _ _ _ (projPieces_cover x0 x1)
  unfold projPieces at eP
  have eV : arg10.view.read (Elt F) (arg10.view.writes (Elt F) arg10.view.junk
      [⟨Rect.unit (s := S1024x768) ![0, 0] S1024x768.size inb_S1024x768_S1024x768_0_0, k0_pay7 (k0_pay6 x0) x2⟩]) = values x0 x2 :=
    (View.read_writes_eq_canon _ _ _ (fun y => ⟨_, List.mem_singleton_self _, View.mem_set_unit_zero zero2' inb_S1024x768_S1024x768_0_0 y⟩)).trans
      (View.canon_unit_zero zero2' _ _)
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero4' inb_S1x1x1024x1024_S1x1x1024x1024_0_0_0_0 y⟩), View.canon_unit_zero zero4']
    sl_unfold_run_names
    unfold attnTile qCols kCols
    simp only [View.readAt_eq_ld, harg2.read_unread, harg3.read_unread, View.ld_unit_zero (S := S1x1024x768) zero3', eP]
  isplitl [HS0]
  · iexists _; isplitr; swap; · iexact HS0
    ipureintro
    sl_unfold_run_names
    simp only [View.readAt_eq_ld, harg2.read_unread, harg3.read_unread, View.ld_unit_zero (S := S1x1024x768) zero3', eP]
  isplitl [HS1]
  · iexists _; isplitr; swap; · iexact HS1
    ipureintro
    sl_unfold_run_names
    simp only [View.readAt_eq_ld, harg2.read_unread, harg4.read_unread, View.ld_unit_zero (S := S1x1024x768) zero3', View.ld_unit_zero (S := S768x768) zero2', eV]
  iexists _; isplitr; swap; · iexact HS2
  ipureintro
  sl_unfold_run_names
  rw [read_writes_cons_put, View.writes_nil, harg11.read_unread]
  unfold mergedAfter headCols qCols kCols vCols
  simp only [View.readAt_eq_ld, harg2.read_unread, harg3.read_unread, harg4.read_unread, View.ld_unit_zero (S := S1x1024x768) zero3', View.ld_unit_zero (S := S768x768) zero2', eP, eV]

end Cert.Kernel.Body

end
-- ==== Proof.BodyMiddleBits.lean ====
/-
  The attention body at a middle head of a batch (neither the first nor the last): nothing is projected and no output
  block is finished. The head's query, key and value columns are read out of the two projection scratches as the
  earlier head left them; the head's attention tile goes to its output block; the head's result goes into its 64
  columns of the third scratch. Everything else is handed back as found.
-/
import proofs.«178072_j6914897347234_2_alg».proof.Proof.BodyTermsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 4-axis zero offsets, spelt as a function. -/
theorem zero4 : (![0, 0, 0, 0] : Fin 4 → Nat) = fun _ => 0 := funext fun a => by fin_cases a <;> rfl

set_option maxHeartbeats 1000000 in
/-- At a middle head: from every buffer at known contents, the body runs to the continuation with the attention block at
    the head's tile, the third scratch with the head's columns overwritten, and every other buffer as it was. -/
theorem middleHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : ¬isFirstHead i) (hc1 : ¬isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (qk : Vec F S1024x1536 .f32) (vals : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare qk ∗ owns (c : Thread nD τ) arg10 fullShare vals ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare (attnTile i qk) ∗ owns (c : Thread nD τ) arg9 fullShare qk ∗ owns (c : Thread nD τ) arg10 fullShare vals ∗ owns (c : Thread nD τ) arg11 fullShare (mergedAfter i qk vals mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.read_writes_eq_canon _ _ _ (fun y => ⟨_, List.mem_singleton_self _, View.mem_set_unit_zero zero4 inb_S1x1x1024x1024_S1x1x1024x1024_0_0_0_0 y⟩), View.canon_unit_zero zero4]
    unfold attnTile qCols kCols
    rw [View.readAt_eq_ld, View.readAt_eq_ld, harg9.read_unread]
  isplitl [HS0]
  · iexists _; isplitr; · ipureintro; exact harg9.read_unread _
    iexact HS0
  isplitl [HS1]
  · iexists _; isplitr; · ipureintro; exact harg10.read_unread _
    iexact HS1
  iexists _; isplitr; swap; · iexact HS2
  ipureintro
  sl_unfold_run_names
  rw [read_writes_cons_put, View.writes_nil, harg11.read_unread]
  unfold mergedAfter headCols qCols kCols vCols
  simp only [View.readAt_eq_ld, harg9.read_unread, harg10.read_unread]

end Cert.Kernel.Body

end
-- ==== Proof.BodyLastBits.lean ====
/-
  The attention body at the last head of a batch. Nothing is projected. The head proceeds as every head does — its
  attention tile to the attention block, its result into its 64 columns of the third scratch — and then the third
  scratch, now holding every head's columns, is read whole and the projected block with its bias is stored to the
  other output block.
-/
import proofs.«178072_j6914897347234_2_alg».proof.Proof.BodyTermsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets, spelt as functions. -/
theorem zero4'' : (![0, 0, 0, 0] : Fin 4 → Nat) = fun _ => 0 := funext fun a => by fin_cases a <;> rfl
theorem zero3'' : (![0, 0, 0] : Fin 3 → Nat) = fun _ => 0 := funext fun a => by fin_cases a <;> rfl
theorem zero2'' : (![0, 0] : Fin 2 → Nat) = fun _ => 0 := funext fun a => by fin_cases a <;> rfl
theorem zero1'' : (![0] : Fin 1 → Nat) = fun _ => 0 := funext fun a => by fin_cases a; rfl

set_option maxHeartbeats 2000000 in
/-- At a batch's last head: from every buffer at known contents, the body runs to the continuation with the attention
    block at the head's tile, the third scratch with the head's columns overwritten, and the other output block at the
    projection of that scratch with the bias. -/
theorem lastHead (c : Dev nD) (i : grid0.Coords) (arg2 : Memref sig .tc .vmem S1x1024x768 .f32) (harg2 : arg2.IsWhole) (arg3 : Memref sig .tc .vmem S768x1536 .f32) (harg3 : arg3.IsWhole) (arg4 : Memref sig .tc .vmem S768x768 .bf16) (harg4 : arg4.IsWhole) (arg5 : Memref sig .tc .vmem S768x768 .bf16) (harg5 : arg5.IsWhole) (arg6 : Memref sig .tc .vmem S768 .f32) (harg6 : arg6.IsWhole) (arg7 : Memref sig .tc .vmem S1x1024x768 .f32) (harg7 : arg7.IsWhole) (arg8 : Memref sig .tc .vmem S1x1x1024x1024 .f32) (harg8 : arg8.IsWhole) (arg9 : Memref sig .tc .vmem S1024x1536 .f32) (harg9 : arg9.IsWhole) (arg10 : Memref sig .tc .vmem S1024x768 .bf16) (harg10 : arg10.IsWhole) (arg11 : Memref sig .tc .vmem S1024x768 .bf16) (harg11 : arg11.IsWhole) (hc0 : ¬isFirstHead i) (hc1 : isLastHead i)
    (x0 : Vec F S1x1024x768 .f32) (x1 : Vec F S768x1536 .f32) (x2 : Vec F S768x768 .bf16) (x3 : Vec F S768x768 .bf16) (x4 : Vec F S768 .f32)
    (d7 : Vec F S1x1024x768 .f32) (d8 : Vec F S1x1x1024x1024 .f32)
    (qk : Vec F S1024x1536 .f32) (vals : Vec F S1024x768 .bf16) (mg : Vec F S1024x768 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8 ∗ owns (c : Thread nD τ) arg9 fullShare qk ∗ owns (c : Thread nD τ) arg10 fullShare vals ∗ owns (c : Thread nD τ) arg11 fullShare mg
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlock (mergedAfter i qk vals mg) x3 x4) ∗ owns (c : Thread nD τ) arg8 fullShare (attnTile i qk) ∗ owns (c : Thread nD τ) arg9 fullShare qk ∗ owns (c : Thread nD τ) arg10 fullShare vals ∗ owns (c : Thread nD τ) arg11 fullShare (mergedAfter i qk vals mg)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11) K := by
  simp only [cc0__attn_kernel_eq_skeleton]; unfold cc0__attn_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_eq_canon _ _ _ (fun y => ⟨_, List.mem_singleton_self _, View.mem_set_unit_zero zero3'' inb_S1x1024x768_S1x1024x768_0_0_0 y⟩), View.canon_unit_zero zero3'']
    sl_unfold_run_names
    unfold outBlock mergedAfter headCols qCols kCols vCols
    simp only [View.readAt_eq_ld, harg5.read_unread, harg6.read_unread, harg9.read_unread, harg10.read_unread, View.ld_unit_zero (S := S768x768) zero2'', View.ld_unit_zero (S := S768) zero1'']
    rw [read_writes_cons_put, View.writes_nil, harg11.read_unread, View.ld_unit_zero (S := S1024x768) zero2'']
  isplitl [H6]
  · iexists _; isplitr; swap; · iexact H6
    ipureintro
    rw [View.read_writes_eq_canon _ _ _ (fun y => ⟨_, List.mem_singleton_self _, View.mem_set_unit_zero zero4'' inb_S1x1x1024x1024_S1x1x1024x1024_0_0_0_0 y⟩), View.canon_unit_zero zero4'']
    unfold attnTile qCols kCols
    rw [View.readAt_eq_ld, View.readAt_eq_ld, harg9.read_unread]
  isplitl [HS0]
  · iexists _; isplitr; · ipureintro; exact harg9.read_unread _
    iexact HS0
  isplitl [HS1]
  · iexists _; isplitr; · ipureintro; exact harg10.read_unread _
    iexact HS1
  iexists _; isplitr; swap; · iexact HS2
  ipureintro
  sl_unfold_run_names
  rw [read_writes_cons_put, View.writes_nil, harg11.read_unread]
  unfold mergedAfter headCols qCols kCols vCols
  simp only [View.readAt_eq_ld, harg9.read_unread, harg10.read_unread]

end Cert.Kernel.Body

end
-- ==== Proof.TermsAtBits.lean ====
import proofs.«178072_j6914897347234_2_alg».proof.Proof.BodyTermsBits
import Idealize.ShloMosaic.Lib.ValueIdx

/-
  The contents the attention body leaves in its buffers, read at an index.

  The head coordinate `h` of a grid point selects 64 columns: the body's offset words are `h · 64` (query and value
  columns, and the head's columns of the merged scratch) and `768 + h · 64` (key columns). A load through a
  unit-stride rectangle reads the buffer at the index plus the offsets; a store through one overwrites exactly the
  indices inside it; the two column halves of the projection scratch meet at column 768.
-/

set_option maxRecDepth 16384

noncomputable section

namespace Cert.Kernel.Body

open Cert.Kernel Cert.Kernel.Gen
open Idealize.ShloMosaic Idealize.ShloMosaic.TcCoe Idealize.ShloMosaic.ValueIdx

variable {F : FTy → Type} [FloatOps F]

/-! ## The offset words in closed form -/

/-- The head coordinate is below 12. -/
theorem head_lt (i : grid0.Coords) : (i 1).val < 12 := (i 1).isLt

/-- The query columns start at column `h · 64`, -/
theorem off1_eq : ∀ i : grid0.Coords, k0_off1 i = ![0, (i 1).val * 64] := by decide +kernel

/-- the key columns 768 columns further on, -/
theorem off2_eq : ∀ i : grid0.Coords, k0_off2 i = ![0, 768 + (i 1).val * 64] := by decide +kernel

/-- and the value columns, like the head's columns of the merged scratch, at column `h · 64`. -/
theorem off3_eq : ∀ i : grid0.Coords, k0_off3 i = ![0, (i 1).val * 64] := by decide +kernel

/-! ## The three column loads -/

/-- The head's query columns: lane `d` of token `l` is column `h · 64 + d` of the scratch. -/
theorem qCols_apply (i : grid0.Coords) (qk : Vec F S1024x1536 .f32) (l : Fin 1024) (d : Fin 64) :
    qCols i qk (ix2 l d)
      = qk (ix2 l (⟨(i 1).val * 64 + d.val, by have := head_lt i; have := d.isLt; omega⟩ : Fin 1536)) := by
  unfold qCols
  show qk ((Rect.unit (s := S1024x1536) (k0_off1 i) S1024x64.size (k0_off1_inb i)).idx (ix2 l d)) = _
  refine congrArg qk (funext fun a => Fin.ext ?_)
  have e := off1_eq i
  match a with
  | ⟨0, _⟩ =>
    show k0_off1 i 0 + 1 * l.val = l.val
    rw [e]
    show 0 + 1 * l.val = l.val
    omega
  | ⟨1, _⟩ =>
    show k0_off1 i 1 + 1 * d.val = (i 1).val * 64 + d.val
    rw [e]
    show (i 1).val * 64 + 1 * d.val = (i 1).val * 64 + d.val
    omega

/-- Its key columns: column `768 + h · 64 + d`. -/
theorem kCols_apply (i : grid0.Coords) (qk : Vec F S1024x1536 .f32) (l : Fin 1024) (d : Fin 64) :
    kCols i qk (ix2 l d)
      = qk (ix2 l (⟨768 + (i 1).val * 64 + d.val, by have := head_lt i; have := d.isLt; omega⟩ : Fin 1536)) := by
  unfold kCols
  show qk ((Rect.unit (s := S1024x1536) (k0_off2 i) S1024x64.size (k0_off2_inb i)).idx (ix2 l d)) = _
  refine congrArg qk (funext fun a => Fin.ext ?_)
  have e := off2_eq i
  match a with
  | ⟨0, _⟩ =>
    show k0_off2 i 0 + 1 * l.val = l.val
    rw [e]
    show 0 + 1 * l.val = l.val
    omega
  | ⟨1, _⟩ =>
    show k0_off2 i 1 + 1 * d.val = 768 + (i 1).val * 64 + d.val
    rw [e]
    show 768 + (i 1).val * 64 + 1 * d.val = 768 + (i 1).val * 64 + d.val
    omega

/-- Its value columns: column `h · 64 + d` of the value scratch. -/
theorem vCols_apply (i : grid0.Coords) (vals : Vec F S1024x768 .bf16) (l : Fin 1024) (d : Fin 64) :
    vCols i vals (ix2 l d)
      = vals (ix2 l (⟨(i 1).val * 64 + d.val, by have := head_lt i; have := d.isLt; omega⟩ : Fin 768)) := by
  unfold vCols
  show vals ((Rect.unit (s := S1024x768) (k0_off3 i) S1024x64.size (k0_off3_inb i)).idx (ix2 l d)) = _
  refine congrArg vals (funext fun a => Fin.ext ?_)
  have e := off3_eq i
  match a with
  | ⟨0, _⟩ =>
    show k0_off3 i 0 + 1 * l.val = l.val
    rw [e]
    show 0 + 1 * l.val = l.val
    omega
  | ⟨1, _⟩ =>
    show k0_off3 i 1 + 1 * d.val = (i 1).val * 64 + d.val
    rw [e]
    show (i 1).val * 64 + 1 * d.val = (i 1).val * 64 + d.val
    omega

/-! ## The projection scratch -/

/-- The left half of the fused weight: its column `j` is the weight's column `j`. -/
theorem ld_w_left (w : Vec F S768x1536 .f32) (r : Fin 768) (j : Fin 768) :
    View.ld w (Rect.unit (s := S768x1536) ![0, 0] S768x768.size inb_S768x1536_S768x768_0_0) (ix2 r j)
      = w (ix2 r (⟨j.val, by have := j.isLt; omega⟩ : Fin 1536)) := by
  show w ((Rect.unit (s := S768x1536) ![0, 0] S768x768.size inb_S768x1536_S768x768_0_0).idx (ix2 r j)) = _
  refine congrArg w (funext fun a => Fin.ext ?_)
  match a with
  | ⟨0, _⟩ =>
    show 0 + 1 * r.val = r.val
    omega
  | ⟨1, _⟩ =>
    show 0 + 1 * j.val = j.val
    omega

/-- The right half: its column `j` is the weight's column `768 + j`. -/
theorem ld_w_right (w : Vec F S768x1536 .f32) (r : Fin 768) (j : Fin 768) :
    View.ld w (Rect.unit (s := S768x1536) ![0, 768] S768x768.size inb_S768x1536_S768x768_0_768) (ix2 r j)
      = w (ix2 r (⟨768 + j.val, by have := j.isLt; omega⟩ : Fin 1536)) := by
  show w ((Rect.unit (s := S768x1536) ![0, 768] S768x768.size inb_S768x1536_S768x768_0_768).idx (ix2 r j)) = _
  refine congrArg w (funext fun a => Fin.ext ?_)
  match a with
  | ⟨0, _⟩ =>
    show 0 + 1 * r.val = r.val
    omega
  | ⟨1, _⟩ =>
    show 768 + 1 * j.val = 768 + j.val
    omega

/-- Of two stores, an index the older one's rectangle places and the newer one's does not hold reads the older
    payload. -/
theorem canon_two_old {S : Shape} {e : EltTy} {Val : EltTy → Type} [∀ e, Nonempty (Val e)] (r₁ r₀ : Rect S)
    (w₁ : r₁.shape.Idx → Val e) (w₀ : r₀.shape.Idx → Val e) (x : r₀.shape.Idx) (h : r₀.emb x ∉ r₁.set) :
    View.canon [(⟨r₁, w₁⟩ : View.Piece Val S e), ⟨r₀, w₀⟩] (r₀.emb x) = w₀ x :=
  (View.canon_cons_of_not_mem (⟨r₁, w₁⟩ : View.Piece Val S e) [⟨r₀, w₀⟩] h).trans (View.canon_cons_emb r₀ w₀ [] x)

/-- The projection scratch at token `l`, column `j`: the query half's value below column 768, the key half's value
    at column `j − 768` from there on. -/
theorem projected_apply (x : Vec F S1x1024x768 .f32) (w : Vec F S768x1536 .f32) (l : Fin 1024) (j : Fin 1536) :
    projected x w (ix2 l j)
      = if hj : j.val < 768 then
          k0_pay4 x (View.ld w (Rect.unit (s := S768x1536) ![0, 0] S768x768.size inb_S768x1536_S768x768_0_0))
            (ix2 l (⟨j.val, hj⟩ : Fin 768))
        else
          k0_pay5 x (View.ld w (Rect.unit (s := S768x1536) ![0, 768] S768x768.size inb_S768x1536_S768x768_0_768))
            (ix2 l (⟨j.val - 768, by have := j.isLt; omega⟩ : Fin 768)) := by
  unfold projected projPieces
  by_cases hj : j.val < 768
  · rw [dif_pos hj]
    have hy : (Rect.unit (s := S1024x1536) ![0, 0] S1024x768.size inb_S1024x1536_S1024x768_0_0).emb
        (ix2 l (⟨j.val, hj⟩ : Fin 768)) = ix2 l j := funext fun a => Fin.ext (by
      match a with
      | ⟨0, _⟩ =>
        show 0 + 1 * l.val = l.val
        omega
      | ⟨1, _⟩ =>
        show 0 + 1 * j.val = j.val
        omega)
    have hnot : (ix2 l j : S1024x1536.Idx)
        ∉ (Rect.unit (s := S1024x1536) ![0, 768] S1024x768.size inb_S1024x1536_S1024x768_0_768).set := by
      rw [Rect.mem_set_unit]
      intro hall
      have h1 : (768 : ℕ) ≤ j.val := (hall 1).1
      omega
    rw [← hy] at hnot ⊢
    exact canon_two_old _ _ _ _ _ hnot
  · rw [dif_neg hj]
    have hy : (Rect.unit (s := S1024x1536) ![0, 768] S1024x768.size inb_S1024x1536_S1024x768_0_768).emb
        (ix2 l (⟨j.val - 768, by have := j.isLt; omega⟩ : Fin 768)) = ix2 l j := funext fun a => Fin.ext (by
      match a with
      | ⟨0, _⟩ =>
        show 0 + 1 * l.val = l.val
        omega
      | ⟨1, _⟩ =>
        show 768 + 1 * (j.val - 768) = j.val
        omega)
    rw [← hy]
    exact View.canon_cons_emb _ _ _ _

/-! ## The merged scratch -/

/-- The merged scratch after the head's store, at token `l`, column `c`: inside the head's 64 columns the head's
    result at lane `c − h · 64`, elsewhere what was there. -/
theorem mergedAfter_apply (i : grid0.Coords) (qk : Vec F S1024x1536 .f32) (vals : Vec F S1024x768 .bf16)
    (mg : Vec F S1024x768 .bf16) (l : Fin 1024) (cc : Fin 768) :
    mergedAfter i qk vals mg (ix2 l cc)
      = if hc : (i 1).val * 64 ≤ cc.val ∧ cc.val < (i 1).val * 64 + 64 then
          headCols i qk vals (ix2 l (⟨cc.val - (i 1).val * 64, by omega⟩ : Fin 64))
        else mg (ix2 l cc) := by
  have e := off3_eq i
  unfold mergedAfter put
  by_cases hc : (i 1).val * 64 ≤ cc.val ∧ cc.val < (i 1).val * 64 + 64
  · have hall : ∀ a, k0_off3 i a ≤ ((ix2 l cc : S1024x768.Idx) a).val
        ∧ ((ix2 l cc : S1024x768.Idx) a).val < k0_off3 i a + S1024x64.size a := by
      rw [e]
      intro a
      match a with
      | ⟨0, _⟩ =>
        show 0 ≤ l.val ∧ l.val < 0 + 1024
        have := l.isLt
        omega
      | ⟨1, _⟩ =>
        show (i 1).val * 64 ≤ cc.val ∧ cc.val < (i 1).val * 64 + 64
        exact hc
    rw [dif_pos hall, dif_pos hc]
    refine congrArg (headCols i qk vals) (funext fun a => Fin.ext ?_)
    match a with
    | ⟨0, _⟩ =>
      show l.val - k0_off3 i 0 = l.val
      rw [e]
      show l.val - 0 = l.val
      omega
    | ⟨1, _⟩ =>
      show cc.val - k0_off3 i 1 = cc.val - (i 1).val * 64
      rw [e]
      rfl
  · have hnall : ¬ ∀ a, k0_off3 i a ≤ ((ix2 l cc : S1024x768.Idx) a).val
        ∧ ((ix2 l cc : S1024x768.Idx) a).val < k0_off3 i a + S1024x64.size a := by
      intro hall
      have h1 := hall 1
      rw [e] at h1
      exact hc h1
    rw [dif_neg hnall, dif_neg hc]

end Cert.Kernel.Body

end
-- ==== Proof.MergedColumnsBits.lean ====
import proofs.«178072_j6914897347234_2_alg».proof.Proof.TermsAtBits

/-
  The merged scratch over the heads of one batch.

  The twelve heads of a batch are twelve consecutive grid points; head `k` overwrites columns `[64 · k, 64 · k + 64)`
  of the merged scratch with its result and leaves the other columns alone. So after head `k` the columns below
  `64 · (k + 1)` hold the results of heads `0 … k`, whatever the scratch held before the batch, and after the last head
  every column does: column `c` is lane `c % 64` of head `c / 64`.
-/

set_option maxRecDepth 16384

noncomputable section

namespace Cert.Kernel.Body

open Cert.Kernel Cert.Kernel.Gen
open Idealize.ShloMosaic Idealize.ShloMosaic.TcCoe Idealize.ShloMosaic.ValueIdx

variable {F : FTy → Type} [FloatOps F]

/-! ## The grid's coordinates in closed form -/

/-- Point `t` of the 4 × 12 grid is batch `t / 12`, -/
theorem coords_batch : ∀ t : Fin cfg0.N, (grid0.coords t 0).val = t.val / 12 :=
  (by decide +kernel : ∀ t : Fin grid0.N, (grid0.coords t 0).val = t.val / 12)

/-- head `t % 12`. -/
theorem coords_head : ∀ t : Fin cfg0.N, (grid0.coords t 1).val = t.val % 12 :=
  (by decide +kernel : ∀ t : Fin grid0.N, (grid0.coords t 1).val = t.val % 12)

/-! ## The scratch a whole batch leaves, and agreement on the leading columns -/

/-- The grid point of the head that owns column `c`, counted from the batch's first point `base`, is a grid point. -/
theorem pt_lt {base c : ℕ} (hb : base + 11 < 48) (hc : c < 768) : base + c / 64 < grid0.N := by
  rw [N_0]
  omega

/-- The merged scratch after all twelve heads of the batch whose first grid point is `base`: column `c` is lane
    `c % 64` of the result of head `c / 64`, computed at grid point `base + c / 64`. -/
def fullMerged (base : ℕ) (hb : base + 11 < 48) (qk : Vec F S1024x1536 .f32) (vals : Vec F S1024x768 .bf16) :
    Vec F S1024x768 .bf16 :=
  fun y => headCols (grid0.coords ⟨base + (y 1).val / 64, pt_lt hb (y 1).isLt⟩) qk vals
    (ix2 (y 0) (⟨(y 1).val % 64, Nat.mod_lt _ (by norm_num)⟩ : Fin 64))

/-- Two contents of the merged scratch agree on the columns below `n`. -/
def AgreeBelow (n : ℕ) (M M' : Vec F S1024x768 .bf16) : Prop :=
  ∀ y : S1024x768.Idx, (y 1).val < n → M y = M' y

/-- The whole-batch scratch at token `l`, column `c`. -/
theorem fullMerged_at (base : ℕ) (hb : base + 11 < 48) (qk : Vec F S1024x1536 .f32) (vals : Vec F S1024x768 .bf16)
    (l : Fin 1024) (cc : Fin 768) :
    fullMerged base hb qk vals (ix2 l cc)
      = headCols (grid0.coords ⟨base + cc.val / 64, pt_lt hb cc.isLt⟩) qk vals
          (ix2 l (⟨cc.val % 64, Nat.mod_lt _ (by norm_num)⟩ : Fin 64)) := rfl

/-- Below column 0 there is nothing to agree on. -/
theorem agree_zero (M M' : Vec F S1024x768 .bf16) : AgreeBelow 0 M M' :=
  fun y hy => absurd hy (Nat.not_lt_zero _)

/-- Agreement below column 768 is equality: every column is below 768. -/
theorem agree_all (M M' : Vec F S1024x768 .bf16) (h : AgreeBelow 768 M M') : M = M' :=
  funext fun y => h y (y 1).isLt

/-! ## One head's store extends the agreement by its 64 columns -/

/-- If before the store of grid point `t` — head `t % 12` of the batch whose first point is `base` — the scratch
    agrees with the whole-batch scratch below column `64 · (t % 12)`, then after it the two agree below column
    `64 · (t % 12 + 1)`: the store puts that head's own result in its 64 columns and touches no other. -/
theorem agree_step (t : Fin cfg0.N) (base : ℕ) (hb : base + 11 < 48) (hbase : base = t.val - t.val % 12)
    (qk : Vec F S1024x1536 .f32) (vals : Vec F S1024x768 .bf16) (M : Vec F S1024x768 .bf16)
    (h : AgreeBelow (64 * (t.val % 12)) M (fullMerged base hb qk vals)) :
    AgreeBelow (64 * (t.val % 12 + 1)) (mergedAfter (grid0.coords t) qk vals M) (fullMerged base hb qk vals) := by
  intro y hy
  obtain ⟨l, c, rfl⟩ : ∃ l c, y = ix2 l c := ⟨y 0, y 1, eq_ix2 y⟩
  have hy' : c.val < 64 * (t.val % 12 + 1) := hy
  have hh : (grid0.coords t 1).val = t.val % 12 := coords_head t
  have hc768 : c.val < 768 := c.isLt
  rw [mergedAfter_apply]
  by_cases hc : (grid0.coords t 1).val * 64 ≤ c.val ∧ c.val < (grid0.coords t 1).val * 64 + 64
  · rw [dif_pos hc, fullMerged_at]
    have hc' := hc
    rw [hh] at hc'
    have ept : grid0.coords ⟨base + c.val / 64, pt_lt hb c.isLt⟩ = grid0.coords t :=
      congrArg grid0.coords (Fin.ext (by
        show base + c.val / 64 = t.val
        omega))
    rw [ept]
    refine congrArg (fun d => headCols (grid0.coords t) qk vals (ix2 l d)) (Fin.ext ?_)
    show c.val - (grid0.coords t 1).val * 64 = c.val % 64
    rw [hh]
    omega
  · rw [dif_neg hc]
    refine h (ix2 l c) ?_
    show c.val < 64 * (t.val % 12)
    rw [hh] at hc
    omega

end Cert.Kernel.Body

end
-- ==== Proof.FrameDataBits.lean ====
/-
  The proof data of the attention pipeline and its body obligation.

  The grid has 48 points, (batch, head) = (t / 12, t % 12), visited in order. Between points the kernel carries three
  scratch buffers. The two projection scratches are written whole at a batch's first head and only read until the
  batch ends, so what they hold after point t is defined by recursion on t (`projAt`). The third scratch is written 64
  columns per head and starts at unknown contents, so it is held at SOME contents whose columns below 64·(t % 12 + 1)
  agree with the closed form of the heads' results (`fullMerged`); at a batch's last head that pins all 768 columns.
  The attention output block is written at every point (the head's tile); the other output block is written at a
  batch's last head only (the projection of the full third scratch) and is idle at the other points, where the body
  hands it back untouched. The obligation is then the three runs of the body, chosen by t % 12.
-/
import proofs.«178072_j6914897347234_2_alg».proof.Proof.BodyFirstBits
import proofs.«178072_j6914897347234_2_alg».proof.Proof.BodyMiddleBits
import proofs.«178072_j6914897347234_2_alg».proof.Proof.BodyLastBits
import proofs.«178072_j6914897347234_2_alg».proof.Proof.MergedColumnsBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and that it is a whole buffer. -/
abbrev stg0 (t : Fin cfg0.N) : Memref sig .tc .vmem S1x1024x768 .f32 := win0_0.stage (cfg0.slots t 0)
abbrev stg0w (t : Fin cfg0.N) : (stg0 t).IsWhole := hstage0_0 ((cfg0.slots t 0).cast nbuf0_0)
abbrev stg1 (t : Fin cfg0.N) : Memref sig .tc .vmem S768x1536 .f32 := win0_1.stage (cfg0.slots t 1)
abbrev stg1w (t : Fin cfg0.N) : (stg1 t).IsWhole := hstage0_1 ((cfg0.slots t 1).cast nbuf0_1)
abbrev stg2 (t : Fin cfg0.N) : Memref sig .tc .vmem S768x768 .bf16 := win0_2.stage (cfg0.slots t 2)
abbrev stg2w (t : Fin cfg0.N) : (stg2 t).IsWhole := hstage0_2 ((cfg0.slots t 2).cast nbuf0_2)
abbrev stg3 (t : Fin cfg0.N) : Memref sig .tc .vmem S768x768 .bf16 := win0_3.stage (cfg0.slots t 3)
abbrev stg3w (t : Fin cfg0.N) : (stg3 t).IsWhole := hstage0_3 ((cfg0.slots t 3).cast nbuf0_3)
abbrev stg4 (t : Fin cfg0.N) : Memref sig .tc .vmem S768 .f32 := win0_4.stage (cfg0.slots t 4)
abbrev stg4w (t : Fin cfg0.N) : (stg4 t).IsWhole := hstage0_4 ((cfg0.slots t 4).cast nbuf0_4)
abbrev stg5 (t : Fin cfg0.N) : Memref sig .tc .vmem S1x1024x768 .f32 := win0_5.stage (cfg0.slots t 5)
abbrev stg5w (t : Fin cfg0.N) : (stg5 t).IsWhole := hstage0_5 ((cfg0.slots t 5).cast nbuf0_5)
abbrev stg6 (t : Fin cfg0.N) : Memref sig .tc .vmem S1x1x1024x1024 .f32 := win0_6.stage (cfg0.slots t 6)
abbrev stg6w (t : Fin cfg0.N) : (stg6 t).IsWhole := hstage0_6 ((cfg0.slots t 6).cast nbuf0_6)

/-- The three scratch buffers: the query/key projections, the value projection, the heads' results side by side. -/
abbrev scrQK : Memref sig .tc .vmem S1024x1536 .f32 := Memref.whole cc0_scratch0
abbrev scrV : Memref sig .tc .vmem S1024x768 .bf16 := Memref.whole cc0_scratch1
abbrev scrM : Memref sig .tc .vmem S1024x768 .bf16 := Memref.whole cc0_scratch2

/-- What the region hands the body before the first point and takes back after the last: each scratch at some
    contents, the generator register at some state. -/
theorem anyScratch_eq (c : Dev nD) :
    (Pipeline.ΦA spec0 c : sProp 𝕄)
      = iprop(iprop((∃ d, owns (c : Thread nD τ) scrQK fullShare d) ∗ (∃ d, owns (c : Thread nD τ) scrV fullShare d) ∗ (∃ d, owns (c : Thread nD τ) scrM fullShare d)) ∗ (∃ r, prngReg c r)) := by
  unfold Pipeline.ΦA; rw [scopedRest0_eq]; simp only [scrQK, scrV, scrM, owns_whole]; try rfl

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live6 : ∀ t : Fin cfg0.N, cfg0.idle 6 (grid0.coords t) = false := by decide +kernel
/-- The projected output block is idle except at a batch's last head, -/
theorem idle5_of : ∀ t : Fin cfg0.N, t.val % 12 ≠ 11 → cfg0.idle 5 (grid0.coords t) = true :=
  (by decide +kernel : ∀ t : Fin grid0.N, t.val % 12 ≠ 11 → cfg0.idle 5 (grid0.coords t) = true)
theorem live5_of : ∀ t : Fin cfg0.N, t.val % 12 = 11 → cfg0.idle 5 (grid0.coords t) = false :=
  (by decide +kernel : ∀ t : Fin grid0.N, t.val % 12 = 11 → cfg0.idle 5 (grid0.coords t) = false)
/-- and is written back exactly there. -/
theorem noflush5_of (t : Fin cfg0.N) (h : t.val % 12 ≠ 11) : (cfg0.win 5).flush t = false := by
  cases hf : (cfg0.win 5).flush t
  · rfl
  · exact absurd ((flush0_5 t).mp hf) h

/-! ## The projection scratches, point by point -/

/-- The two projection scratches after point `n`: at a batch's first head the projections of the batch's block, at a
    later head what the head before left. -/
def projAt (c : Dev nD) : (n : ℕ) → n < cfg0.N → Vec F S1024x1536 .f32 × Vec F S1024x768 .bf16
  | 0, hn => (projected (iblk m c 0 ⟨0, hn⟩) (iblk m c 1 ⟨0, hn⟩), values (iblk m c 0 ⟨0, hn⟩) (iblk m c 2 ⟨0, hn⟩))
  | n + 1, hn =>
    if (n + 1) % 12 = 0 then
      (projected (iblk m c 0 ⟨n + 1, hn⟩) (iblk m c 1 ⟨n + 1, hn⟩), values (iblk m c 0 ⟨n + 1, hn⟩) (iblk m c 2 ⟨n + 1, hn⟩))
    else projAt c n (Nat.lt_of_succ_lt hn)

theorem projAt_first (c : Dev nD) (t : Fin cfg0.N) (h0 : t.val % 12 = 0) :
    projAt m c t.val t.isLt = (projected (iblk m c 0 t) (iblk m c 1 t), values (iblk m c 0 t) (iblk m c 2 t)) := by
  obtain ⟨n, hn⟩ := t
  cases n with
  | zero => rfl
  | succ n => exact if_pos h0

theorem projAt_later (c : Dev nD) (t : Fin cfg0.N) (h0 : ¬t.val % 12 = 0) :
    projAt m c t.val t.isLt = projAt m c (t.val - 1) (Nat.lt_of_le_of_lt (Nat.sub_le _ _) t.isLt) := by
  obtain ⟨n, hn⟩ := t
  cases n with
  | zero => exact absurd (Nat.zero_mod _) h0
  | succ n => exact if_neg h0

/-- The first point of the batch of point `n`, and that the batch's twelve points are points of the grid. -/
theorem batch_bound (n : ℕ) (hn : n < cfg0.N) : n - n % 12 + 11 < 48 := by
  have hN : n < 48 := lt_of_lt_of_eq hn (show cfg0.N = 48 from N_0)
  omega

/-- The closed form of the third scratch for the batch of point `n`, over the projections point `n` finds. -/
def mergedAt (c : Dev nD) (n : ℕ) (hn : n < cfg0.N) : Vec F S1024x768 .bf16 :=
  fullMerged (n - n % 12) (batch_bound n hn) (projAt m c n hn).1 (projAt m c n hn).2

/-! ## The invariant -/

/-- Before point `n`: before the first point every scratch at anything; afterwards the projection scratches at what
    the point before left, the third scratch at some contents whose columns written so far in the batch agree with the
    closed form. The generator register at some state throughout. -/
def inv (c : Dev nD) : (n : ℕ) → n ≤ cfg0.N → sProp 𝕄
  | 0, _ => Pipeline.ΦA spec0 c
  | n + 1, hn => iprop(iprop(owns (c : Thread nD τ) scrQK fullShare (projAt m c n hn).1 ∗ owns (c : Thread nD τ) scrV fullShare (projAt m c n hn).2
      ∗ (∃ M, ⌜AgreeBelow (64 * (n % 12 + 1)) M (mergedAt m c n hn)⌝ ∗ owns (c : Thread nD τ) scrM fullShare M)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) scrQK fullShare (projAt m c n hn).1 ∗ owns (c : Thread nD τ) scrV fullShare (projAt m c n hn).2
      ∗ (∃ M, ⌜AgreeBelow (64 * (n % 12 + 1)) M (mergedAt m c n hn)⌝ ∗ owns (c : Thread nD τ) scrM fullShare M)) ∗ (∃ r, prngReg c r)) := rfl

theorem inv_pos (c : Dev nD) (n : ℕ) (h : n ≤ cfg0.N) (hz : n ≠ 0) :
    inv m c n h = iprop(iprop(owns (c : Thread nD τ) scrQK fullShare (projAt m c (n - 1) (by omega)).1 ∗ owns (c : Thread nD τ) scrV fullShare (projAt m c (n - 1) (by omega)).2
      ∗ (∃ M, ⌜AgreeBelow (64 * ((n - 1) % 12 + 1)) M (mergedAt m c (n - 1) (by omega))⌝ ∗ owns (c : Thread nD τ) scrM fullShare M)) ∗ (∃ r, prngReg c r)) := by
  cases n with
  | zero => exact absurd rfl hz
  | succ n => rfl

/-- Whatever the point, the invariant holds each scratch at some contents. -/
theorem inv_any (c : Dev nD) (n : ℕ) (h : n ≤ cfg0.N) :
    inv m c n h ⊢ iprop(iprop((∃ d, owns (c : Thread nD τ) scrQK fullShare d) ∗ (∃ d, owns (c : Thread nD τ) scrV fullShare d) ∗ (∃ d, owns (c : Thread nD τ) scrM fullShare d)) ∗ (∃ r, prngReg c r)) := by
  by_cases hz : n = 0
  · rw [inv_zero m c n h hz, anyScratch_eq]
  · rw [inv_pos m c n h hz]
    iintro ⟨⟨HS0, HS1, ⟨%M, -, HS2⟩⟩, Hg⟩
    isplitl [HS0 HS1 HS2]
    · isplitl [HS0]
      · iexists _; iexact HS0
      isplitl [HS1]
      · iexists _; iexact HS1
      iexists _; iexact HS2
    iexact Hg

/-! ## The proof data -/

/-- The proof data of the one pipeline on core `c`: the arrays as the region finds them; after the body at point `t`
    each input's buffer at its block, the attention block at the head's tile over the projections the point leaves, the
    projected block at the projection of the batch's full third scratch; the invariant above; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (mergedAt m c t.val t.isLt) (iblk m c 3 t) (iblk m c 4 t)
    | ⟨6, _⟩ => attnTile (grid0.coords t) (projAt m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (mergedAt m c t.val t.isLt) (iblk m c 3 t) (iblk m c 4 t) := by dsimp only [dats]
theorem after6 (c : Dev nD) (t : Fin cfg0.N) :
    (dats m 0 c).after 6 t = attnTile (grid0.coords t) (projAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- Agreement with a closed form is agreement with an equal one. -/
theorem agree_cast {n n' : ℕ} {M A B : Vec F S1024x768 .bf16} (hn : n = n') (hAB : A = B) (h : AgreeBelow n M A) :
    AgreeBelow n' M B := by subst hn hAB; exact h

/-- Within a batch the closed form does not move: at a later head it is the one of the head before. -/
theorem mergedAt_later (c : Dev nD) (t : Fin cfg0.N) (h0 : ¬t.val % 12 = 0) :
    mergedAt m c (t.val - 1) (Nat.lt_of_le_of_lt (Nat.sub_le _ _) t.isLt) = mergedAt m c t.val t.isLt := by
  unfold mergedAt
  have hN : t.val < 48 := lt_of_lt_of_eq t.isLt (show cfg0.N = 48 from N_0)
  have hb : t.val - 1 - (t.val - 1) % 12 = t.val - t.val % 12 := by omega
  rw [← projAt_later m c t h0]
  congr 1

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (stg0 t) fullShare (iblk m c 0 t) := by
  unfold Dat.leavesExact; rw [live0 t, after0]
theorem leaves1 (c : Dev nD) (t : Fin cfg0.N) : (dats m 0 c).leavesExact 1 t = owns (c : Thread nD τ) (stg1 t) fullShare (iblk m c 1 t) := by
  unfold Dat.leavesExact; rw [live1 t, after1]
theorem leaves2 (c : Dev nD) (t : Fin cfg0.N) : (dats m 0 c).leavesExact 2 t = owns (c : Thread nD τ) (stg2 t) fullShare (iblk m c 2 t) := by
  unfold Dat.leavesExact; rw [live2 t, after2]
theorem leaves3 (c : Dev nD) (t : Fin cfg0.N) : (dats m 0 c).leavesExact 3 t = owns (c : Thread nD τ) (stg3 t) fullShare (iblk m c 3 t) := by
  unfold Dat.leavesExact; rw [live3 t, after3]
theorem leaves4 (c : Dev nD) (t : Fin cfg0.N) : (dats m 0 c).leavesExact 4 t = owns (c : Thread nD τ) (stg4 t) fullShare (iblk m c 4 t) := by
  unfold Dat.leavesExact; rw [live4 t, after4]
theorem leaves6 (c : Dev nD) (t : Fin cfg0.N) : (dats m 0 c).leavesExact 6 t = owns (c : Thread nD τ) (stg6 t) fullShare (attnTile (grid0.coords t) (projAt m c t.val t.isLt).1) := by
  unfold Dat.leavesExact; rw [live6 t, after6]
theorem leaves5_idle (c : Dev nD) (t : Fin cfg0.N) (h : t.val % 12 ≠ 11) :
    (dats m 0 c).leavesExact 5 t = iprop(∃ d, owns (c : Thread nD τ) (stg5 t) fullShare ((dats m 0 c).before 5 t d)) :=
  (dats m 0 c).leavesExact_idle 5 t (idle5_of t h) (noflush5_of t h)
theorem leaves5_last (c : Dev nD) (t : Fin cfg0.N) (h : t.val % 12 = 11) :
    (dats m 0 c).leavesExact 5 t = owns (c : Thread nD τ) (stg5 t) fullShare (outBlock (mergedAt m c t.val t.isLt) (iblk m c 3 t) (iblk m c 4 t)) := by
  unfold Dat.leavesExact; rw [live5_of t h, after5]

set_option maxHeartbeats 4000000 in
/-- The body at any point: the point's residue mod 12 says which run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rewrite [show (dats m 0 c).owesAt () t.succ = (dats m 0 c).owesAt () t.castSucc from rfl]
  rewrite [show (dats m 0 c).Φ t.succ = inv m c (t.val + 1) t.isLt from rfl, inv_succ]
  rewrite [leaves0, leaves1, leaves2, leaves3, leaves4, leaves6]
  rewrite [inv_castSucc m c t]
  have hN : t.val < 48 := lt_of_lt_of_eq t.isLt (show cfg0.N = 48 from N_0)
  by_cases h0 : t.val % 12 = 0
  · have h1 : ¬t.val % 12 = 11 := by omega
    rewrite [leaves5_idle m c t h1, projAt_first m c t h0]
    refine (sep_mono (inv_any m c t.val _) .rfl).trans ?_
    iintro ⟨⟨⟨⟨%d9, HS0⟩, ⟨%d10, HS1⟩, ⟨%mg, HS2⟩⟩, Hg⟩, Ho, ⟨%d0, H0⟩, ⟨%d1, H1⟩, ⟨%d2, H2⟩, ⟨%d3, H3⟩, ⟨%d4, H4⟩, ⟨%d5, H5⟩, ⟨%d6, H6⟩⟩
    iapply (firstHead c (grid0.coords t) _ _ _ _ _ _ _ _ _ _ _ _ _ _ _ _ _ _ _ _ ((isFirstHead_iff t).mpr h0) (fun h => h1 ((isLastHead_iff t).mp h)) (iblk m c 0 t) (iblk m c 1 t) (iblk m c 2 t) (iblk m c 3 t) (iblk m c 4 t) _ _ d9 d10 mg Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexists _; isplitr; swap; · iexact HS2
        ipureintro
        unfold mergedAt
        rw [projAt_first m c t h0]
        exact agree_step t _ (batch_bound t.val t.isLt) rfl _ _ mg (agree_cast (by omega) rfl (agree_zero mg _))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexact H6
  · have hz : t.val ≠ 0 := fun h => h0 (by rw [h])
    rewrite [inv_pos m c _ _ hz, projAt_later m c t h0]
    by_cases h1 : t.val % 12 = 11
    · rewrite [leaves5_last m c t h1]
      iintro ⟨⟨⟨HS0, HS1, ⟨%M, %hM, HS2⟩⟩, Hg⟩, Ho, ⟨%d0, H0⟩, ⟨%d1, H1⟩, ⟨%d2, H2⟩, ⟨%d3, H3⟩, ⟨%d4, H4⟩, ⟨%d5, H5⟩, ⟨%d6, H6⟩⟩
      have hstep : AgreeBelow (64 * (t.val % 12 + 1)) (mergedAfter (grid0.coords t) (projAt m c (t.val - 1) (Nat.lt_of_le_of_lt (Nat.sub_le _ _) t.isLt)).1 (projAt m c (t.val - 1) (Nat.lt_of_le_of_lt (Nat.sub_le _ _) t.isLt)).2 M) (mergedAt m c t.val t.isLt) := by
        have hM' : AgreeBelow (64 * (t.val % 12)) M (mergedAt m c t.val t.isLt) :=
          agree_cast (by omega) (mergedAt_later m c t h0) hM
        rw [← projAt_later m c t h0]
        exact agree_step t _ (batch_bound t.val t.isLt) rfl _ _ M hM'
      have hfull : mergedAfter (grid0.coords t) (projAt m c (t.val - 1) (Nat.lt_of_le_of_lt (Nat.sub_le _ _) t.isLt)).1 (projAt m c (t.val - 1) (Nat.lt_of_le_of_lt (Nat.sub_le _ _) t.isLt)).2 M = mergedAt m c t.val t.isLt :=
        agree_all _ _ (agree_cast (by omega) rfl hstep)
      iapply (lastHead c (grid0.coords t) _ _ _ _ _ _ _ _ _ _ _ _ _ _ _ _ _ _ _ _ (fun h => h0 ((isFirstHead_iff t).mp h)) ((isLastHead_iff t).mpr h1) (iblk m c 0 t) (iblk m c 1 t) (iblk m c 2 t) (iblk m c 3 t) (iblk m c 4 t) _ _ _ _ M Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      rw [hfull]
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rewrite [leaves5_idle m c t h1]
      iintro ⟨⟨⟨HS0, HS1, ⟨%M, %hM, HS2⟩⟩, Hg⟩, Ho, ⟨%d0, H0⟩, ⟨%d1, H1⟩, ⟨%d2, H2⟩, ⟨%d3, H3⟩, ⟨%d4, H4⟩, ⟨%d5, H5⟩, ⟨%d6, H6⟩⟩
      have hstep : AgreeBelow (64 * (t.val % 12 + 1)) (mergedAfter (grid0.coords t) (projAt m c (t.val - 1) (Nat.lt_of_le_of_lt (Nat.sub_le _ _) t.isLt)).1 (projAt m c (t.val - 1) (Nat.lt_of_le_of_lt (Nat.sub_le _ _) t.isLt)).2 M) (mergedAt m c t.val t.isLt) := by
        have hM' : AgreeBelow (64 * (t.val % 12)) M (mergedAt m c t.val t.isLt) :=
          agree_cast (by omega) (mergedAt_later m c t h0) hM
        rw [← projAt_later m c t h0]
        exact agree_step t _ (batch_bound t.val t.isLt) rfl _ _ M hM'
      iapply (middleHead c (grid0.coords t) _ _ _ _ _ _ _ _ _ _ _ _ _ _ _ _ _ _ _ _ (fun h => h0 ((isFirstHead_iff t).mp h)) (fun h => h1 ((isLastHead_iff t).mp h)) (iblk m c 0 t) (iblk m c 1 t) (iblk m c 2 t) (iblk m c 3 t) (iblk m c 4 t) _ _ _ _ M Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexists _; isplitr; swap; · iexact HS2
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch buffers back, their contents forgotten. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, anyScratch_eq]
  exact inv_any m c _ _

/-! ## The run and the frame -/

set_option backward.isDefEq.respectTransparency.types false in
/-- Every weakly fair execution of @main terminates, with every array of the pipeline at what the proof data computes
    and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c w => by unfold Dat.share; split <;> rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.LibLaneMax.lean ====
/-
  A row maximum read by coordinates.

  A lane maximum of an `[a, b]` array of extended reals, started from the pattern of −∞, is at row `p` the fold of
  `max` from `⊥` over the lane coordinate `k` of the entry `(p, k)`: `max` commutes and associates, so the order the
  reduction visits the lanes in does not matter, and the pattern it starts from denotes the bottom element. Stated for
  any extents; the companion of the lane sum.
-/
import Idealize.ShloMosaic.Lib.Pipeline.Value
import Idealize.ShloMosaic.Lib.ValueIdx
import Idealize.ShloMosaic.PureOps.Ideal.Laws

namespace Cert.LibLaneMax

open Idealize.ShloMosaic Idealize.ShloMosaic.ValueIdx

/-- The f32 pattern of −∞ denotes the bottom extended real. -/
theorem ofBits_neg_inf : FloatOps.ofBits (F := Ideal) .f32 0xFF800000#32 = (⊥ : EReal) := by
  simp [Ideal.ofBits, Ideal.ieee]

/-- A float lane maximum of an `[a, b]` array from the −∞ pattern, read at row `p`, is the fold of `max` from `⊥`
    over the lane coordinate `k` of the entry `(p, k)`. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  have hf : (src ∘ h.lift (ix1 p)) = fun k => src (ix2 p k) := funext fun k => congrArg src (by
    funext d
    apply Fin.ext
    match d with
    | ⟨0, _⟩ => rfl
    | ⟨1, _⟩ => rfl)
  exact congrArg₂ (fun i f => (Finset.univ : Finset (Fin b)).fold max i f) ofBits_neg_inf hf

end Cert.LibLaneMax
-- ==== Proof.PayloadValue.lean ====
/-
  The kernel body's arithmetic, read at an index, on the extended reals.

  Each pure value the body stores is read at one index as the formula of its entries: a projection block is a sum of
  products over the 768 input features; the score block is the dot product of a query row and a key row over the 64
  lanes; the attention block is the softmax of a score row; a head's output is the attention-weighted sum of value
  rows; the output block is the merged heads times the output weight plus the bias. Format changes are the identity on
  extended reals. Where the body forms a product in three passes, a·b + a·(b − b) + (a − a)·b, the operands are
  finite, so b − b and a − a vanish and the three passes are the plain product (on the extended reals ⊤ − ⊤ is not
  zero, which is why finiteness is assumed there). The file ends with the law that moves a scalar factor out of a dot
  product of finite sums, and the value of the scale pattern.
-/
import proofs.«178072_j6914897347234_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«178072_j6914897347234_2_alg».proof.Proof.LibPlainDot
import proofs.«178072_j6914897347234_2_alg».proof.Proof.LibKeepdims
import proofs.«178072_j6914897347234_2_alg».proof.Proof.LibLaneMax

noncomputable section

namespace Cert.KernelIdeal.PayloadValue

open Cert.KernelIdeal Cert.KernelIdeal.Gen Idealize.ShloMosaic Idealize.ShloMosaic.ValueIdx

/-! ## Sums and products of finite extended reals -/

/-- A finite sum of coerced reals is the coerced sum. -/
theorem coe_sum {ι : Type*} (s : Finset ι) (f : ι → ℝ) :
    ((∑ c ∈ s, f c : ℝ) : EReal) = ∑ c ∈ s, (f c : EReal) := by
  classical
  refine Finset.induction_on s (by simp) ?_
  intro a s ha ih
  rw [Finset.sum_insert ha, Finset.sum_insert ha, EReal.coe_add, ih]

/-- A finite extended real minus itself is zero (this fails at the infinities). -/
theorem sub_self_of_finite {a : EReal} (h : ∃ r : ℝ, a = (r : EReal)) : a - a = 0 := by
  obtain ⟨r, rfl⟩ := h
  rw [← EReal.coe_sub, sub_self, EReal.coe_zero]

/-- A finite sum of products of finite extended reals is finite. -/
theorem finite_sum_mul {ι : Type*} [Fintype ι] (a b : ι → EReal)
    (ha : ∀ c, ∃ r : ℝ, a c = (r : EReal)) (hb : ∀ c, ∃ r : ℝ, b c = (r : EReal)) :
    ∃ r : ℝ, ∑ c, a c * b c = (r : EReal) := by
  choose fa hfa using ha
  choose fb hfb using hb
  refine ⟨∑ c, fa c * fb c, ?_⟩
  rw [coe_sum]
  exact Finset.sum_congr rfl fun c _ => by rw [hfa c, hfb c, EReal.coe_mul]

/-- The three-pass product a·b + a·(b − b) + (a − a)·b of finite factors is the plain product a·b: on the reals
    b − b and a − a vanish, and a sum of products with a zero factor is zero. -/
theorem threePass_sum {ι : Type*} [Fintype ι] (a b : ι → EReal)
    (ha : ∀ c, ∃ r : ℝ, a c = (r : EReal)) (hb : ∀ c, ∃ r : ℝ, b c = (r : EReal)) :
    (∑ c, a c * b c) + (∑ c, a c * (b c - b c)) + (∑ c, (a c - a c) * b c) = ∑ c, a c * b c := by
  have h1 : ∑ c, a c * (b c - b c) = 0 :=
    Finset.sum_eq_zero fun c _ => by rw [sub_self_of_finite (hb c), mul_zero]
  have h2 : ∑ c, (a c - a c) * b c = 0 :=
    Finset.sum_eq_zero fun c _ => by rw [sub_self_of_finite (ha c), zero_mul]
  rw [h1, h2, add_zero, add_zero]

/-- The scale leaves the score: a factor multiplying every query weight multiplies the whole dot product. -/
theorem scale_out {ι κ : Type*} [Fintype ι] [Fintype κ] (X X' : ι → ℝ) (Wq Wk : κ → ι → ℝ) (s : ℝ) :
    ∑ d : κ, (∑ c, (X c : EReal) * ((Wq d c : EReal) * (s : EReal))) * (∑ c, (X' c : EReal) * (Wk d c : EReal))
      = (∑ d : κ, (∑ c, (X c : EReal) * (Wq d c : EReal)) * (∑ c, (X' c : EReal) * (Wk d c : EReal))) * (s : EReal) := by
  have hq : ∀ d, (∑ c, (X c : EReal) * ((Wq d c : EReal) * (s : EReal))) = ((∑ c, X c * (Wq d c * s) : ℝ) : EReal) :=
    fun d => by
      rw [coe_sum]
      exact Finset.sum_congr rfl fun c _ => by rw [EReal.coe_mul, EReal.coe_mul]
  have hq' : ∀ d, (∑ c, (X c : EReal) * (Wq d c : EReal)) = ((∑ c, X c * Wq d c : ℝ) : EReal) :=
    fun d => by
      rw [coe_sum]
      exact Finset.sum_congr rfl fun c _ => by rw [EReal.coe_mul]
  have hk : ∀ d, (∑ c, (X' c : EReal) * (Wk d c : EReal)) = ((∑ c, X' c * Wk d c : ℝ) : EReal) :=
    fun d => by
      rw [coe_sum]
      exact Finset.sum_congr rfl fun c _ => by rw [EReal.coe_mul]
  have hL : ∑ d : κ, (∑ c, (X c : EReal) * ((Wq d c : EReal) * (s : EReal))) * (∑ c, (X' c : EReal) * (Wk d c : EReal))
      = ((∑ d : κ, (∑ c, X c * (Wq d c * s)) * (∑ c, X' c * Wk d c) : ℝ) : EReal) := by
    rw [coe_sum]
    exact Finset.sum_congr rfl fun d _ => by rw [hq d, hk d, EReal.coe_mul]
  have hR : ∑ d : κ, (∑ c, (X c : EReal) * (Wq d c : EReal)) * (∑ c, (X' c : EReal) * (Wk d c : EReal))
      = ((∑ d : κ, (∑ c, X c * Wq d c) * (∑ c, X' c * Wk d c) : ℝ) : EReal) := by
    rw [coe_sum]
    exact Finset.sum_congr rfl fun d _ => by rw [hq' d, hk d, EReal.coe_mul]
  rw [hL, hR, ← EReal.coe_mul]
  congr 1
  rw [Finset.sum_mul]
  refine Finset.sum_congr rfl fun d _ => ?_
  have e : ∑ c, X c * (Wq d c * s) = (∑ c, X c * Wq d c) * s := by
    rw [Finset.sum_mul]
    exact Finset.sum_congr rfl fun c _ => by ring
  rw [e]
  ring

/-- The f32 pattern 0x3E000000 denotes 1/8. -/
theorem ofBits_eighth : Ideal.ofBits .f32 0x3E000000#32 = ((1 / 8 : ℝ) : EReal) := by
  simp [Ideal.ofBits, Ideal.ieee, -EReal.coe_mul]; norm_num

/-! ## The plain matrix products -/

/-- The three dimension records of the program are plain matrix products. -/
theorem dotA_eq : dot_S1024x768_S768x768_S1024x768_1_0_0_1_n_n = DotDims.plain 1024 768 768 := rfl
theorem dotB_eq : dot_S1024x64_S64x1024_S1024x1024_1_0_0_1_n_n = DotDims.plain 1024 64 1024 := rfl
theorem dotC_eq : dot_S1024x1024_S1024x64_S1024x64_1_0_0_1_n_n = DotDims.plain 1024 1024 64 := rfl

/-- The head's output block: the attention weights times the value features, row by column. -/
theorem pay1_apply (v : Vec Ideal S1024x64 .bf16) (p : FVec Ideal S1024x1024 .bf16) (l : Fin 1024) (d : Fin 64) :
    k0_pay1 (F := Ideal) v p (constant S1024x64 .f32 0x00000000#32) (ix2 l d)
      = ∑ m : Fin 1024, p (ix2 l m) * v (ix2 m d) := by
  unfold k0_pay1
  rw [shapeCast_self]
  refine (truncf_apply (φ := .f32) (ψ := .bf16) _ bitsLt_bf16_f32 _).trans ?_
  exact Cert.LibPlainDot.matmul_zero_apply 1024 1024 64 (φ₁ := .bf16) (φ₂ := .bf16) none p v (ix2 l d)

/-- The output projection with its bias: the merged heads times the output weight, plus the bias of the column. -/
theorem pay2_apply (o : Vec Ideal S1024x768 .bf16) (wp : Vec Ideal S768x768 .bf16) (bias : Vec Ideal S768 .f32)
    (l : Fin 1024) (f : Fin 768) :
    k0_pay2 (F := Ideal) o wp bias (ix3 0 l f)
      = (∑ c : Fin 768, o (ix2 l c) * wp (ix2 c f)) + bias (ix1 f) := by
  unfold k0_pay2
  refine (shapeCast_ab_1ab_apply _ shapeCasts_S1024x768_S1x1024x768 0 l f).trans ?_
  rw [shapeCast_self]
  refine (addf_apply _ _ (ix2 l f)).trans ?_
  refine congrArg₂ (· + ·)
    (Cert.LibPlainDot.matmul_zero_apply 1024 768 768 (φ₁ := .bf16) (φ₂ := .bf16) none o wp (ix2 l f)) ?_
  refine (broadcastTo_1b_ab_apply _ broadcasts_S1x768_S1024x768 l f).trans ?_
  exact shapeCast_a_1a_apply bias shapeCasts_S768_S1x768 0 f

/-- The [1, 1024, 768] token block viewed as [1024, 768]: entry (l, c) is the block's entry (0, l, c). -/
theorem pay3_apply (x0 : Vec Ideal S1x1024x768 .f32) (l : Fin 1024) (c : Fin 768) :
    k0_pay3 (F := Ideal) x0 (ix2 l c) = x0 (ix3 0 l c) := by
  unfold k0_pay3
  exact shapeCast_1ab_ab_apply x0 shapeCasts_S1x1024x768_S1024x768 l c

/-- The narrowed token block is the token block: a format change is the identity on extended reals. -/
theorem pay6_apply (x0 : Vec Ideal S1x1024x768 .f32) (l : Fin 1024) (c : Fin 768) :
    k0_pay6 (F := Ideal) x0 (ix2 l c) = x0 (ix3 0 l c) := by
  unfold k0_pay6
  exact (truncf_apply (φ := .f32) (ψ := .bf16) _ bitsLt_bf16_f32 _).trans (pay3_apply x0 l c)

/-- The value projection: the tokens times the value weight, row by column. -/
theorem pay7_apply (x0 : Vec Ideal S1x1024x768 .f32) (wv : Vec Ideal S768x768 .bf16) (l : Fin 1024) (j : Fin 768) :
    k0_pay7 (F := Ideal) (k0_pay6 x0) wv (ix2 l j) = ∑ c : Fin 768, x0 (ix3 0 l c) * wv (ix2 c j) := by
  unfold k0_pay7
  rw [shapeCast_self, shapeCast_self]
  refine (truncf_apply (φ := .f32) (ψ := .bf16) _ bitsLt_bf16_f32 _).trans ?_
  refine (Cert.LibPlainDot.matmul_zero_apply 1024 768 768 (φ₁ := .bf16) (φ₂ := .bf16) none (k0_pay6 x0) wv (ix2 l j)).trans ?_
  exact Finset.sum_congr rfl fun c _ => congrArg (· * wv (ix2 c j)) (pay6_apply x0 l c)

/-! ## The three-pass products -/

/-- The three-pass matrix product of finite operands, at an index, is the plain sum of products: the two correction
    passes multiply by b − b and a − a, which vanish on finite entries. -/
theorem threePass_apply (M K N : Nat) (a : FVec Ideal ⟨2, ![M, K]⟩ .f32) (b : FVec Ideal ⟨2, ![K, N]⟩ .f32)
    (ha : ∀ i, ∃ r : ℝ, a i = (r : EReal)) (hb : ∀ i, ∃ r : ℝ, b i = (r : EReal))
    (h : FTy.bits .bf16 < FTy.bits .f32) (j : (⟨2, ![M, N]⟩ : Shape).Idx) :
    addf (addf
        (FloatOps.matmul (DotDims.plain M K N) none (truncf .bf16 a h) (truncf .bf16 b h)
          (constant ⟨2, ![M, N]⟩ .f32 0x00000000#32))
        (FloatOps.matmul (DotDims.plain M K N) none (truncf .bf16 a h) (truncf .bf16 (subf b b) h)
          (constant ⟨2, ![M, N]⟩ .f32 0x00000000#32)))
      (FloatOps.matmul (DotDims.plain M K N) none (truncf .bf16 (subf a a) h) (truncf .bf16 b h)
        (constant ⟨2, ![M, N]⟩ .f32 0x00000000#32)) j
      = ∑ k : Fin K, a (ix2 (j 0) k) * b (ix2 k (j 1)) := by
  refine (congrArg₂ (· + ·) (congrArg₂ (· + ·)
      (Cert.LibPlainDot.matmul_zero_apply M K N (φ₁ := .bf16) (φ₂ := .bf16) none
        (truncf .bf16 a h) (truncf .bf16 b h) j)
      (Cert.LibPlainDot.matmul_zero_apply M K N (φ₁ := .bf16) (φ₂ := .bf16) none
        (truncf .bf16 a h) (truncf .bf16 (subf b b) h) j))
      (Cert.LibPlainDot.matmul_zero_apply M K N (φ₁ := .bf16) (φ₂ := .bf16) none
        (truncf .bf16 (subf a a) h) (truncf .bf16 b h) j)).trans ?_
  exact threePass_sum (fun k => a (ix2 (j 0) k)) (fun k => b (ix2 k (j 1))) (fun k => ha _) (fun k => hb _)

/-- The token block viewed as [1024, 768] is finite where the block is. -/
theorem pay3_finite (x0 : Vec Ideal S1x1024x768 .f32) (hx : ∀ i, ∃ r : ℝ, x0 i = (r : EReal)) :
    ∀ i, ∃ r : ℝ, k0_pay3 (F := Ideal) x0 i = (r : EReal) := fun i => by
  obtain ⟨l, c, rfl⟩ : ∃ l c, i = ix2 l c := ⟨i 0, i 1, eq_ix2 i⟩
  obtain ⟨r, hr⟩ := hx (ix3 0 l c)
  exact ⟨r, (pay3_apply x0 l c).trans hr⟩

/-- The query projection: the tokens times the query weight, row by column. -/
theorem pay4_apply (x0 : Vec Ideal S1x1024x768 .f32) (w0 : Vec Ideal S768x768 .f32)
    (hx : ∀ i, ∃ r : ℝ, x0 i = (r : EReal)) (hw : ∀ i, ∃ r : ℝ, w0 i = (r : EReal))
    (l : Fin 1024) (j : Fin 768) :
    k0_pay4 (F := Ideal) x0 w0 (ix2 l j) = ∑ c : Fin 768, x0 (ix3 0 l c) * w0 (ix2 c j) := by
  unfold k0_pay4
  rw [shapeCast_self, shapeCast_self]
  refine (threePass_apply 1024 768 768 (k0_pay3 x0) w0 (pay3_finite x0 hx) hw bitsLt_bf16_f32 (ix2 l j)).trans ?_
  exact Finset.sum_congr rfl fun c _ => congrArg (· * w0 (ix2 c j)) (pay3_apply x0 l c)

/-- The key projection: the tokens times the key weight, row by column. -/
theorem pay5_apply (x0 : Vec Ideal S1x1024x768 .f32) (w0 : Vec Ideal S768x768 .f32)
    (hx : ∀ i, ∃ r : ℝ, x0 i = (r : EReal)) (hw : ∀ i, ∃ r : ℝ, w0 i = (r : EReal))
    (l : Fin 1024) (j : Fin 768) :
    k0_pay5 (F := Ideal) x0 w0 (ix2 l j) = ∑ c : Fin 768, x0 (ix3 0 l c) * w0 (ix2 c j) := by
  unfold k0_pay5
  rw [shapeCast_self, shapeCast_self]
  refine (threePass_apply 1024 768 768 (k0_pay3 x0) w0 (pay3_finite x0 hx) hw bitsLt_bf16_f32 (ix2 l j)).trans ?_
  exact Finset.sum_congr rfl fun c _ => congrArg (· * w0 (ix2 c j)) (pay3_apply x0 l c)

/-- The query projection block is finite where the tokens and the weight are: a finite sum of finite products. -/
theorem pay4_finite (x0 : Vec Ideal S1x1024x768 .f32) (w0 : Vec Ideal S768x768 .f32)
    (hx : ∀ i, ∃ r : ℝ, x0 i = (r : EReal)) (hw : ∀ i, ∃ r : ℝ, w0 i = (r : EReal)) :
    ∀ i, ∃ r : ℝ, k0_pay4 (F := Ideal) x0 w0 i = (r : EReal) := fun i => by
  obtain ⟨l, j, rfl⟩ : ∃ l j, i = ix2 l j := ⟨i 0, i 1, eq_ix2 i⟩
  rw [pay4_apply x0 w0 hx hw l j]
  exact finite_sum_mul (fun c => x0 (ix3 0 l c)) (fun c => w0 (ix2 c j)) (fun c => hx _) (fun c => hw _)

/-- The key projection block is finite where the tokens and the weight are. -/
theorem pay5_finite (x0 : Vec Ideal S1x1024x768 .f32) (w0 : Vec Ideal S768x768 .f32)
    (hx : ∀ i, ∃ r : ℝ, x0 i = (r : EReal)) (hw : ∀ i, ∃ r : ℝ, w0 i = (r : EReal)) :
    ∀ i, ∃ r : ℝ, k0_pay5 (F := Ideal) x0 w0 i = (r : EReal) := fun i => by
  obtain ⟨l, j, rfl⟩ : ∃ l j, i = ix2 l j := ⟨i 0, i 1, eq_ix2 i⟩
  rw [pay5_apply x0 w0 hx hw l j]
  exact finite_sum_mul (fun c => x0 (ix3 0 l c)) (fun c => w0 (ix2 c j)) (fun c => hx _) (fun c => hw _)

/-! ## The softmax of the score rows -/

/-- The exponential of a vector reads, at an index, the exponential of the entry. -/
theorem exp_apply {s : Shape} {φ : FTy} (x : FVec Ideal s φ) (i : s.Idx) : exp x i = Ideal.exp (x i) := rfl

/-- The score of query row `l` against key row `m`: their dot product over the 64 lanes. -/
def sc (q k : Vec Ideal S1024x64 .f32) (l m : Fin 1024) : EReal := ∑ d : Fin 64, q (ix2 l d) * k (ix2 m d)

/-- The largest score of query row `l` over the key rows. -/
def mx (q k : Vec Ideal S1024x64 .f32) (l : Fin 1024) : EReal :=
  (Finset.univ : Finset (Fin 1024)).fold max ⊥ (fun m' => sc q k l m')

/-- The row maxima of a [1024, 1024] array, kept as a column and broadcast back over the rows. -/
abbrev rowMaxB (z : FVec Ideal S1024x1024 .f32) : FVec Ideal S1024x1024 .f32 :=
  broadcastTo S1024x1024
    (shapeCast S1024x1 (multiReduction .maximumf [1] S1024 z 0xFF800000#32 reduces_S1024x1024_S1024 (.inl rfl) rfl)
      shapeCasts_S1024_S1024x1) broadcasts_S1024x1_S1024x1024

/-- The row sums of a [1024, 1024] array, kept as a column and broadcast back over the rows. -/
abbrev rowSumB (e : FVec Ideal S1024x1024 .f32) : FVec Ideal S1024x1024 .f32 :=
  broadcastTo S1024x1024
    (shapeCast S1024x1 (multiReduction .add [1] S1024 e 0x00000000#32 reduces_S1024x1024_S1024 (.inl rfl) rfl)
      shapeCasts_S1024_S1024x1) broadcasts_S1024x1_S1024x1024

/-- Entry (l, m) of the broadcast row maxima is the fold of `max` from ⊥ over row `l`. -/
theorem rowMaxB_apply (z : FVec Ideal S1024x1024 .f32) (l m : Fin 1024) :
    rowMaxB z (ix2 l m) = (Finset.univ : Finset (Fin 1024)).fold max ⊥ (fun m' => z (ix2 l m')) := by
  refine (Cert.Keepdims.broadcastTo_a1_ab_apply _ broadcasts_S1024x1_S1024x1024 l m).trans ?_
  refine (Cert.Keepdims.shapeCast_a_a1_apply _ shapeCasts_S1024_S1024x1 l 0).trans ?_
  exact Cert.LibLaneMax.laneMax_apply z reduces_S1024x1024_S1024 (.inl rfl) rfl l

/-- Entry (l, m) of the broadcast row sums is the sum over row `l`. -/
theorem rowSumB_apply (e : FVec Ideal S1024x1024 .f32) (l m : Fin 1024) :
    rowSumB e (ix2 l m) = ∑ m' : Fin 1024, e (ix2 l m') := by
  refine (Cert.Keepdims.broadcastTo_a1_ab_apply _ broadcasts_S1024x1_S1024x1024 l m).trans ?_
  refine (Cert.Keepdims.shapeCast_a_a1_apply _ shapeCasts_S1024_S1024x1 l 0).trans ?_
  exact Cert.Keepdims.laneSum_apply e reduces_S1024x1024_S1024 (.inl rfl) rfl l

/-- The softmax of the rows of a [1024, 1024] array, at (l, m), in terms of row `l` read as a function `f`:
    exp (f m − max f) over the sum of exp (f m' − max f). -/
theorem softmaxRows_apply (z : FVec Ideal S1024x1024 .f32) (f : Fin 1024 → EReal) (l : Fin 1024)
    (hz : ∀ m', z (ix2 l m') = f m') (m : Fin 1024) :
    divf (exp (subf z (rowMaxB z))) (rowSumB (exp (subf z (rowMaxB z)))) (ix2 l m)
      = Ideal.div (Ideal.exp (f m - (Finset.univ : Finset (Fin 1024)).fold max ⊥ f))
          (∑ m' : Fin 1024, Ideal.exp (f m' - (Finset.univ : Finset (Fin 1024)).fold max ⊥ f)) := by
  have hmax : ∀ m', rowMaxB z (ix2 l m') = (Finset.univ : Finset (Fin 1024)).fold max ⊥ f := fun m' =>
    (rowMaxB_apply z l m').trans (congrArg (fun g => (Finset.univ : Finset (Fin 1024)).fold max ⊥ g) (funext hz))
  have he : ∀ m', exp (subf z (rowMaxB z)) (ix2 l m')
      = Ideal.exp (f m' - (Finset.univ : Finset (Fin 1024)).fold max ⊥ f) := fun m' => by
    show Ideal.exp (z (ix2 l m') - rowMaxB z (ix2 l m')) = _
    rw [hz m', hmax m']
  refine (divf_apply _ _ _).trans ?_
  refine congrArg₂ Ideal.div (he m) ?_
  refine (rowSumB_apply _ l m).trans ?_
  exact Finset.sum_congr rfl fun m' _ => he m'

/-- The key block transposed is finite where the key block is. -/
theorem transpose_finite (k : Vec Ideal S1024x64 .f32) (hk : ∀ i, ∃ r : ℝ, k i = (r : EReal)) :
    ∀ i, ∃ r : ℝ, transpose S64x1024 [1, 0] k transposes_S1024x64_p1_0_S64x1024 i = (r : EReal) := fun i => by
  obtain ⟨d, m, rfl⟩ : ∃ d m, i = ix2 d m := ⟨i 0, i 1, eq_ix2 i⟩
  obtain ⟨r, hr⟩ := hk (ix2 m d)
  exact ⟨r, (transpose_ix2_apply k transposes_S1024x64_p1_0_S64x1024 d m).trans hr⟩

/-- The attention block: the softmax, over the key rows, of the scores of a query row. -/
theorem pay8_apply (q k : Vec Ideal S1024x64 .f32)
    (hq : ∀ i, ∃ r : ℝ, q i = (r : EReal)) (hk : ∀ i, ∃ r : ℝ, k i = (r : EReal)) (l m : Fin 1024) :
    k0_pay8 (F := Ideal) q k (ix2 l m)
      = Ideal.div (Ideal.exp (sc q k l m - mx q k l)) (∑ m' : Fin 1024, Ideal.exp (sc q k l m' - mx q k l)) := by
  have hz := fun m' : Fin 1024 =>
    (threePass_apply 1024 64 1024 q (transpose S64x1024 [1, 0] k transposes_S1024x64_p1_0_S64x1024)
      hq (transpose_finite k hk) bitsLt_bf16_f32 (ix2 l m')).trans
    (Finset.sum_congr rfl fun d _ =>
      congrArg (q (ix2 l d) * ·) (transpose_ix2_apply k transposes_S1024x64_p1_0_S64x1024 d m'))
  unfold k0_pay8
  exact softmaxRows_apply _ (fun m' => sc q k l m') l hz m

/-- The attention block stored as [1, 1, 1024, 1024]: entry (0, 0, l, m) is entry (l, m). -/
theorem pay9_apply (q k : Vec Ideal S1024x64 .f32) (l m : Fin 1024) :
    k0_pay9 (F := Ideal) q k (ix4 0 0 l m) = k0_pay8 (F := Ideal) q k (ix2 l m) := by
  unfold k0_pay9
  exact shapeCast_apply _ shapeCasts_S1024x1024_S1x1x1024x1024 _ _ (by
    rw [Shape.rowMajor_val_two, Shape.rowMajor_val_four]
    show l.val * 1024 + m.val = ((0 * 1 + 0) * 1024 + l.val) * 1024 + m.val
    omega)

/-- The narrowed attention block is the attention block. -/
theorem pay10_apply (q k : Vec Ideal S1024x64 .f32) (l m : Fin 1024) :
    k0_pay10 (F := Ideal) q k (ix2 l m) = k0_pay8 (F := Ideal) q k (ix2 l m) := by
  unfold k0_pay10
  exact truncf_apply (φ := .f32) (ψ := .bf16) _ bitsLt_bf16_f32 _

end Cert.KernelIdeal.PayloadValue

end
-- ==== Proof.AttentionSpec.lean ====
/-
  Multi-head self-attention over extended reals, index by index.

  From a token array `x` of shape [4, 1024, 768], a fused projection weight `w` of shape [2304, 768] (its rows are the
  query features, then the key features, then the value features, each 12 heads of 64 lanes), an output weight `wp` of
  shape [768, 768] and a bias of length 768:

    proj b l f      = Σ_c x[b,l,c] · w[f,c]                                     (one projected feature of one token)
    score b h l m   = (Σ_d proj b l (query h d) · proj b m (key h d)) · 1/8        (the scaled dot product, 1/8 = 64^(-1/2))
    attn b h l m    = exp (score b h l m − max_m' score b h l m') / Σ_m' exp (score b h l m' − max_m'' score b h l m'')
    head b h l d    = Σ_m attn b h l m · proj b m (value h d)
    out b l f       = Σ_c head b (c / 64) l (c % 64) · wp[f,c] + bias[f]

  The two results are `attn` (shape [4, 12, 1024, 1024]) and `out` (shape [4, 1024, 768]). Nothing here depends on a
  program; the operations are those of the extended reals (`Ideal.exp`, `Ideal.div`), and the scale is kept as the
  binary pattern of 1/8.
-/
import Idealize.ShloMosaic.PureOps.Ideal
import Idealize.ShloMosaic.Lib.ValueIdx

noncomputable section

namespace Cert.AttentionSpec

open Idealize.ShloMosaic Idealize.ShloMosaic.ValueIdx

/-- The shapes of the arguments and of the results. -/
abbrev ShX : Shape := ⟨3, ![4, 1024, 768]⟩
abbrev ShW : Shape := ⟨2, ![2304, 768]⟩
abbrev ShP : Shape := ⟨2, ![768, 768]⟩
abbrev ShB : Shape := ⟨1, ![768]⟩
abbrev ShAttn : Shape := ⟨4, ![4, 12, 1024, 1024]⟩

variable (x : ShX.Idx → EReal) (w : ShW.Idx → EReal) (wp : ShP.Idx → EReal) (bias : ShB.Idx → EReal)

/-- The scale 64^(-1/2) = 1/8, as the f32 pattern both programs carry. -/
def scale : EReal := Ideal.ofBits .f32 0x3E000000#32

/-- Row `part · 768 + h · 64 + d` of the fused weight: lane `d` of head `h` of the queries (`part = 0`), the keys
    (`part = 1`) or the values (`part = 2`). -/
def feat (part : Fin 3) (h : Fin 12) (d : Fin 64) : Fin 2304 :=
  ⟨part.val * 768 + h.val * 64 + d.val, by have := part.isLt; have := h.isLt; have := d.isLt; omega⟩

/-- One projected feature of token `l` of batch `b`. -/
def proj (b : Fin 4) (l : Fin 1024) (f : Fin 2304) : EReal :=
  ∑ c : Fin 768, x (ix3 b l c) * w (ix2 f c)

/-- The scaled dot product of query token `l` and key token `m` in head `h`. -/
def score (b : Fin 4) (h : Fin 12) (l m : Fin 1024) : EReal :=
  (∑ d : Fin 64, proj x w b l (feat 0 h d) * proj x w b m (feat 1 h d)) * scale

/-- The largest score of query token `l` over the key tokens. -/
def rowMax (b : Fin 4) (h : Fin 12) (l : Fin 1024) : EReal :=
  (Finset.univ : Finset (Fin 1024)).fold max ⊥ (fun m => score x w b h l m)

/-- The shifted exponential of a score. -/
def expo (b : Fin 4) (h : Fin 12) (l m : Fin 1024) : EReal :=
  Ideal.exp (score x w b h l m - rowMax x w b h l)

/-- The normalizer of query token `l`. -/
def denom (b : Fin 4) (h : Fin 12) (l : Fin 1024) : EReal :=
  ∑ m : Fin 1024, expo x w b h l m

/-- The attention weight of key token `m` for query token `l`: the softmax of the scores over `m`. -/
def attn (b : Fin 4) (h : Fin 12) (l m : Fin 1024) : EReal :=
  Ideal.div (expo x w b h l m) (denom x w b h l)

/-- Lane `d` of head `h`'s output for token `l`: the attention-weighted sum of the value features. -/
def head (b : Fin 4) (h : Fin 12) (l : Fin 1024) (d : Fin 64) : EReal :=
  ∑ m : Fin 1024, attn x w b h l m * proj x w b m (feat 2 h d)

/-- The heads laid side by side: column `c` is lane `c % 64` of head `c / 64`. -/
def merged (b : Fin 4) (l : Fin 1024) (c : Fin 768) : EReal :=
  head x w b ⟨c.val / 64, by have := c.isLt; omega⟩ l ⟨c.val % 64, Nat.mod_lt _ (by norm_num)⟩

/-- The output projection with its bias. -/
def out (b : Fin 4) (l : Fin 1024) (f : Fin 768) : EReal :=
  (∑ c : Fin 768, merged x w b l c * wp (ix2 f c)) + bias (ix1 f)

/-- The first result, as an array. -/
def outArr : ShX.Idx → EReal := fun j => out x w wp bias (j 0) (j 1) (j 2)

/-- The second result, as an array. -/
def attnArr : ShAttn.Idx → EReal := fun j => attn x w (j 0) (j 1) (j 2) (j 3)

end Cert.AttentionSpec

end
-- ==== Proof.BridgeValue.lean ====
/-
  From the body's buffer contents to the attention formulas.

  The body's inputs are read as the specification's arrays: the token block is the batch's tokens; the fused
  query/key weight is the transposed weight rows, the query half scaled by 1/8; the value weight is the transposed
  value rows; the output weight is transposed. Under these readings, and with every input finite, the projection
  scratch holds the projected features (the query ones scaled), the value scratch the value features, a head's
  attention tile the softmax of its scaled scores, a head's result the attention-weighted value features, and the
  output block the output projection with its bias. The scale sits on every query feature in the body and on the whole
  dot product in the formulas; on finite values a common factor of a finite sum is a factor of the sum.
-/
import proofs.«178072_j6914897347234_2_alg».proof.Proof.PayloadValue
import proofs.«178072_j6914897347234_2_alg».proof.Proof.BodyTerms
import proofs.«178072_j6914897347234_2_alg».proof.Proof.AttentionSpec
import proofs.«178072_j6914897347234_2_alg».proof.Proof.TermsAt

noncomputable section

namespace Cert.KernelIdeal.Bridge

open Cert.KernelIdeal Cert.KernelIdeal.Gen Cert.KernelIdeal.Body Cert.KernelIdeal.PayloadValue
open Idealize.ShloMosaic Idealize.ShloMosaic.ValueIdx

/-! ## Finite extended reals under products and common factors -/

/-- A product of finite extended reals is finite. -/
theorem finite_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A real factor common to the terms of a finite sum of finite extended reals is a factor of the sum. -/
theorem sum_mul_coe {ι : Type*} [Fintype ι] (p : ι → EReal) (hp : ∀ c, ∃ r : ℝ, p c = (r : EReal)) (s : ℝ) :
    ∑ c, p c * (s : EReal) = (∑ c, p c) * (s : EReal) := by
  choose f hf using hp
  have h1 : ∑ c, p c * (s : EReal) = ((∑ c, f c * s : ℝ) : EReal) := by
    rw [coe_sum]
    exact Finset.sum_congr rfl fun c _ => by rw [hf c, EReal.coe_mul]
  have h2 : ∑ c, p c = ((∑ c, f c : ℝ) : EReal) := by
    rw [coe_sum]
    exact Finset.sum_congr rfl fun c _ => hf c
  rw [h1, h2, ← EReal.coe_mul, Finset.sum_mul]

/-- A real factor on every right factor of a sum of products of finite extended reals leaves the sum. -/
theorem sum_mul_right_scale {ι : Type*} [Fintype ι] (a b : ι → EReal)
    (ha : ∀ c, ∃ r : ℝ, a c = (r : EReal)) (hb : ∀ c, ∃ r : ℝ, b c = (r : EReal)) (s : ℝ) :
    ∑ c, a c * (b c * (s : EReal)) = (∑ c, a c * b c) * (s : EReal) := by
  rw [← sum_mul_coe (fun c => a c * b c) (fun c => finite_mul (ha c) (hb c)) s]
  exact Finset.sum_congr rfl fun c _ => (mul_assoc _ _ _).symm

/-- A real factor on every left factor of a sum of products of finite extended reals leaves the sum. -/
theorem sum_mul_left_scale {ι : Type*} [Fintype ι] (a b : ι → EReal)
    (ha : ∀ c, ∃ r : ℝ, a c = (r : EReal)) (hb : ∀ c, ∃ r : ℝ, b c = (r : EReal)) (s : ℝ) :
    ∑ c, (a c * (s : EReal)) * b c = (∑ c, a c * b c) * (s : EReal) := by
  rw [← sum_mul_coe (fun c => a c * b c) (fun c => finite_mul (ha c) (hb c)) s]
  exact Finset.sum_congr rfl fun c _ => mul_right_comm _ _ _

/-- The scale of the formulas is the real 1/8. -/
theorem scale_eq : AttentionSpec.scale = ((1 / 8 : ℝ) : EReal) := ofBits_eighth

/-- A projected feature of finite tokens and weights is finite. -/
theorem proj_finite {X : AttentionSpec.ShX.Idx → EReal} {W : AttentionSpec.ShW.Idx → EReal}
    (hX : ∀ i, ∃ r : ℝ, X i = (r : EReal)) (hW : ∀ i, ∃ r : ℝ, W i = (r : EReal))
    (b : Fin 4) (l : Fin 1024) (f : Fin 2304) : ∃ r : ℝ, AttentionSpec.proj X W b l f = (r : EReal) :=
  finite_sum_mul (fun c => X (ix3 b l c)) (fun c => W (ix2 f c)) (fun c => hX _) (fun c => hW _)

/-! ## The value scratch and the output block -/

section
variable {X : AttentionSpec.ShX.Idx → EReal} {W : AttentionSpec.ShW.Idx → EReal}
  {Wp : AttentionSpec.ShP.Idx → EReal} {Bi : AttentionSpec.ShB.Idx → EReal} {b : Fin 4}
  {xb : Vec Ideal S1x1024x768 .f32} {wv : Vec Ideal S768x768 .bf16} {wpT : Vec Ideal S768x768 .bf16}

/-- The value scratch holds the value features: column `j` of token `l` is feature `1536 + j`. -/
theorem values_at (hxb : ∀ y, xb y = X (ix3 b (y 1) (y 2)))
    (hwv : ∀ r j : Fin 768, wv (ix2 r j) = W (ix2 (⟨1536 + j.val, by have := j.isLt; omega⟩ : Fin 2304) r))
    (l : Fin 1024) (j : Fin 768) :
    values (F := Ideal) xb wv (ix2 l j)
      = AttentionSpec.proj X W b l (⟨1536 + j.val, by have := j.isLt; omega⟩ : Fin 2304) := by
  unfold values
  refine (pay7_apply xb wv l j).trans ?_
  unfold AttentionSpec.proj
  exact Finset.sum_congr rfl fun c _ => congrArg₂ (· * ·) (hxb (ix3 0 l c)) (hwv c j)

/-- The output block holds the output projection with its bias, given the merged heads. -/
theorem outBlock_at (hwp : ∀ r f : Fin 768, wpT (ix2 r f) = Wp (ix2 f r))
    (Bi' : Vec Ideal S768 .f32) (hBi : ∀ k : Fin 768, Bi' (ix1 k) = Bi (ix1 k))
    (M : Vec Ideal S1024x768 .bf16)
    (hM : ∀ (l : Fin 1024) (cc : Fin 768), M (ix2 l cc) = AttentionSpec.merged X W b l cc)
    (l : Fin 1024) (f : Fin 768) :
    outBlock (F := Ideal) M wpT Bi' (ix3 0 l f) = AttentionSpec.out X W Wp Bi b l f := by
  unfold outBlock
  refine (pay2_apply M wpT Bi' l f).trans ?_
  unfold AttentionSpec.out
  exact congrArg₂ (· + ·) (Finset.sum_congr rfl fun c _ => congrArg₂ (· * ·) (hM l c) (hwp c f)) (hBi f)

end

/-! ## The projection scratch -/

section
variable {X : AttentionSpec.ShX.Idx → EReal} {W : AttentionSpec.ShW.Idx → EReal} {b : Fin 4}
  {xb : Vec Ideal S1x1024x768 .f32} {wqk : Vec Ideal S768x1536 .f32}

/-- The token block is finite where the tokens are. -/
theorem xb_finite (hX : ∀ i, ∃ r : ℝ, X i = (r : EReal)) (hxb : ∀ y, xb y = X (ix3 b (y 1) (y 2))) :
    ∀ y, ∃ r : ℝ, xb y = (r : EReal) := fun y => by
  rw [hxb y]
  exact hX _

/-- The fused query/key weight is finite where the weight is: its entries are weight entries, the query half's
    times 1/8. -/
theorem wqk_finite (hW : ∀ i, ∃ r : ℝ, W i = (r : EReal))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r)) :
    ∀ y, ∃ r : ℝ, wqk y = (r : EReal) := fun y => by
  obtain ⟨r, j, rfl⟩ : ∃ r j, y = ix2 r j := ⟨y 0, y 1, eq_ix2 y⟩
  rw [hwqk r j]
  split
  · exact finite_mul (hW _) ⟨1 / 8, ofBits_eighth⟩
  · exact hW _

/-- The projection scratch holds the query and key features: column `j` of token `l` is feature `j`, the query
    ones (below column 768) scaled by 1/8. -/
theorem projected_at (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r))
    (l : Fin 1024) (j : Fin 1536) :
    projected (F := Ideal) xb wqk (ix2 l j)
      = if j.val < 768 then
          AttentionSpec.proj X W b l (⟨j.val, by have := j.isLt; omega⟩ : Fin 2304) * AttentionSpec.scale
        else AttentionSpec.proj X W b l (⟨j.val, by have := j.isLt; omega⟩ : Fin 2304) := by
  rw [projected_apply]
  by_cases hj : j.val < 768
  · rw [dif_pos hj, if_pos hj]
    refine (pay4_apply xb _ (xb_finite hX hxb) (fun y => wqk_finite hW hwqk _) l ⟨j.val, hj⟩).trans ?_
    unfold AttentionSpec.proj
    rw [scale_eq]
    refine Eq.trans ?_ (sum_mul_right_scale (fun c => X (ix3 b l c))
      (fun c => W (ix2 (⟨j.val, by have := j.isLt; omega⟩ : Fin 2304) c)) (fun c => hX _) (fun c => hW _) (1 / 8))
    refine Finset.sum_congr rfl fun c _ => congrArg₂ (· * ·) (hxb (ix3 0 l c)) ?_
    refine (ld_w_left wqk c ⟨j.val, hj⟩).trans ?_
    refine (hwqk c _).trans ?_
    refine (if_pos hj).trans ?_
    rw [ofBits_eighth]
  · rw [dif_neg hj, if_neg hj]
    refine (pay5_apply xb _ (xb_finite hX hxb) (fun y => wqk_finite hW hwqk _) l
      ⟨j.val - 768, by have := j.isLt; omega⟩).trans ?_
    unfold AttentionSpec.proj
    refine Finset.sum_congr rfl fun c _ => congrArg₂ (· * ·) (hxb (ix3 0 l c)) ?_
    refine (ld_w_right wqk c ⟨j.val - 768, by have := j.isLt; omega⟩).trans ?_
    refine (hwqk c _).trans ?_
    refine (if_neg (by show ¬ (768 + (j.val - 768) < 768); omega)).trans ?_
    exact congrArg (fun t => W (ix2 t c)) (Fin.ext (show 768 + (j.val - 768) = j.val by omega))

/-- The projection scratch is finite where the tokens and the weight are. -/
theorem projected_finite (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r)) :
    ∀ y, ∃ r : ℝ, projected (F := Ideal) xb wqk y = (r : EReal) := fun y => by
  obtain ⟨l, j, rfl⟩ : ∃ l j, y = ix2 l j := ⟨y 0, y 1, eq_ix2 y⟩
  rw [projected_at hX hW hxb hwqk l j]
  split
  · exact finite_mul (proj_finite hX hW b l _) ⟨1 / 8, scale_eq⟩
  · exact proj_finite hX hW b l _

end

/-! ## A head's attention tile and result -/

/-- The head of a grid point: its second coordinate. -/
abbrev hd (i : grid0.Coords) : Fin 12 := ⟨(i 1).val, head_lt i⟩

section
variable {X : AttentionSpec.ShX.Idx → EReal} {W : AttentionSpec.ShW.Idx → EReal} {b : Fin 4}
  {xb : Vec Ideal S1x1024x768 .f32} {wqk : Vec Ideal S768x1536 .f32} {wv : Vec Ideal S768x768 .bf16}

/-- The head's query columns are finite where the scratch is. -/
theorem qCols_finite (i : grid0.Coords) (qk : Vec Ideal S1024x1536 .f32) (h : ∀ y, ∃ r : ℝ, qk y = (r : EReal)) :
    ∀ y, ∃ r : ℝ, qCols (F := Ideal) i qk y = (r : EReal) := fun y => by
  obtain ⟨l, d, rfl⟩ : ∃ l d, y = ix2 l d := ⟨y 0, y 1, eq_ix2 y⟩
  rw [qCols_apply]
  exact h _

/-- The head's key columns are finite where the scratch is. -/
theorem kCols_finite (i : grid0.Coords) (qk : Vec Ideal S1024x1536 .f32) (h : ∀ y, ∃ r : ℝ, qk y = (r : EReal)) :
    ∀ y, ∃ r : ℝ, kCols (F := Ideal) i qk y = (r : EReal) := fun y => by
  obtain ⟨l, d, rfl⟩ : ∃ l d, y = ix2 l d := ⟨y 0, y 1, eq_ix2 y⟩
  rw [kCols_apply]
  exact h _

/-- The dot product of the head's query columns of token `l` and key columns of token `m` is the scaled score: the
    1/8 on every query feature is a factor of the dot product. -/
theorem sc_at (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r))
    (i : grid0.Coords) (l m : Fin 1024) :
    sc (qCols (F := Ideal) i (projected xb wqk)) (kCols i (projected xb wqk)) l m
      = AttentionSpec.score X W b (hd i) l m := by
  unfold sc AttentionSpec.score
  rw [scale_eq]
  refine Eq.trans ?_ (sum_mul_left_scale (fun d => AttentionSpec.proj X W b l (AttentionSpec.feat 0 (hd i) d))
    (fun d => AttentionSpec.proj X W b m (AttentionSpec.feat 1 (hd i) d))
    (fun d => proj_finite hX hW b l _) (fun d => proj_finite hX hW b m _) (1 / 8))
  have hh := head_lt i
  refine Finset.sum_congr rfl fun d _ => congrArg₂ (· * ·) ?_ ?_
  · have hd' := d.isLt
    refine (qCols_apply i _ l d).trans ?_
    refine (projected_at hX hW hxb hwqk l _).trans ?_
    refine (if_pos (by show (i 1).val * 64 + d.val < 768; omega)).trans ?_
    rw [scale_eq]
    exact congrArg (fun t => AttentionSpec.proj X W b l t * ((1 / 8 : ℝ) : EReal))
      (Fin.ext (show (i 1).val * 64 + d.val = 0 * 768 + (i 1).val * 64 + d.val by omega))
  · have hd' := d.isLt
    refine (kCols_apply i _ m d).trans ?_
    refine (projected_at hX hW hxb hwqk m _).trans ?_
    refine (if_neg (by show ¬ (768 + (i 1).val * 64 + d.val < 768); omega)).trans ?_
    exact congrArg (fun t => AttentionSpec.proj X W b m t)
      (Fin.ext (show 768 + (i 1).val * 64 + d.val = 1 * 768 + (i 1).val * 64 + d.val by omega))

/-- The body's attention block of a head, at (l, m), is the attention weight of key token `m` for query token `l`. -/
theorem pay8_at (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r))
    (i : grid0.Coords) (l m : Fin 1024) :
    k0_pay8 (F := Ideal) (qCols i (projected xb wqk)) (kCols i (projected xb wqk)) (ix2 l m)
      = AttentionSpec.attn X W b (hd i) l m := by
  have hP := projected_finite hX hW hxb hwqk
  refine (pay8_apply _ _ (qCols_finite i _ hP) (kCols_finite i _ hP) l m).trans ?_
  have hs : ∀ m', sc (qCols (F := Ideal) i (projected xb wqk)) (kCols i (projected xb wqk)) l m'
      = AttentionSpec.score X W b (hd i) l m' := fun m' => sc_at hX hW hxb hwqk i l m'
  have hmx : mx (qCols (F := Ideal) i (projected xb wqk)) (kCols i (projected xb wqk)) l
      = AttentionSpec.rowMax X W b (hd i) l := by
    unfold mx AttentionSpec.rowMax
    exact congrArg (fun g => (Finset.univ : Finset (Fin 1024)).fold max ⊥ g) (funext hs)
  have he : ∀ m', Ideal.exp (sc (qCols (F := Ideal) i (projected xb wqk)) (kCols i (projected xb wqk)) l m'
        - mx (qCols (F := Ideal) i (projected xb wqk)) (kCols i (projected xb wqk)) l)
      = AttentionSpec.expo X W b (hd i) l m' := fun m' => by
    unfold AttentionSpec.expo
    rw [hs m', hmx]
  unfold AttentionSpec.attn AttentionSpec.denom
  exact congrArg₂ Ideal.div (he m) (Finset.sum_congr rfl fun m' _ => he m')

/-- The head's attention tile, as stored: entry (0, 0, l, m) is the attention weight of key token `m` for query
    token `l`. -/
theorem attnTile_at (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r))
    (i : grid0.Coords) (l m : Fin 1024) :
    attnTile (F := Ideal) i (projected xb wqk) (ix4 0 0 l m) = AttentionSpec.attn X W b (hd i) l m := by
  unfold attnTile
  exact (pay9_apply _ _ l m).trans (pay8_at hX hW hxb hwqk i l m)

/-- The head's result: lane `d` of token `l` is the attention-weighted sum of the head's value features. -/
theorem headCols_at (hX : ∀ i, ∃ r : ℝ, X i = (r : EReal)) (hW : ∀ i, ∃ r : ℝ, W i = (r : EReal))
    (hxb : ∀ y, xb y = X (ix3 b (y 1) (y 2)))
    (hwqk : ∀ (r : Fin 768) (j : Fin 1536), wqk (ix2 r j)
      = if j.val < 768 then W (ix2 (⟨j.val, by have := j.isLt; omega⟩ : Fin 2304) r) * Ideal.ofBits .f32 0x3E000000#32
        else W (ix2 (⟨j.val, by have := j.isLt; omega⟩ : Fin 2304) r))
    (hwv : ∀ r j : Fin 768, wv (ix2 r j) = W (ix2 (⟨1536 + j.val, by have := j.isLt; omega⟩ : Fin 2304) r))
    (i : grid0.Coords) (l : Fin 1024) (d : Fin 64) :
    headCols (F := Ideal) i (projected xb wqk) (values xb wv) (ix2 l d) = AttentionSpec.head X W b (hd i) l d := by
  unfold headCols
  refine (pay1_apply _ _ l d).trans ?_
  unfold AttentionSpec.head
  have hh := head_lt i
  have hd' := d.isLt
  refine Finset.sum_congr rfl fun m _ => congrArg₂ (· * ·) ?_ ?_
  · exact (pay10_apply _ _ l m).trans (pay8_at hX hW hxb hwqk i l m)
  · refine (vCols_apply i _ m d).trans ?_
    refine (values_at hxb hwv m _).trans ?_
    exact congrArg (fun t => AttentionSpec.proj X W b m t)
      (Fin.ext (show 1536 + ((i 1).val * 64 + d.val) = 2 * 768 + (i 1).val * 64 + d.val by omega))

end

end Cert.KernelIdeal.Bridge

end
-- ==== Proof.EntryValue.lean ====
/-
  What the attention region finds when it is entered, at the extended reals.

  Before the region the host cuts the fused projection weight `w` (shape [2304, 768]) into its query, key and value
  thirds, transposes each, scales the query third by 1/8, lays the query and key thirds side by side as one
  [768, 1536] array, and transposes the output weight. Here each of those arrays is read entry by entry as an entry
  of an argument:

    wqk[r, j] = w[j, r] · 1/8   (j < 768),      wqk[r, j] = w[j, r]   (768 ≤ j < 1536),
    wv[r, j]  = w[1536 + j, r],                 wpT[r, f] = wp[f, r].

  The grid is 4 × 12 (batch × head), row-major: point `t` is batch `t / 12`, head `t % 12`. The token block at point
  `t` is batch `t / 12` of the token array; the weights and the bias are staged whole. The first result's block at
  point `t` is batch `t / 12` of its array and is written back at the last head of the batch; the second result's
  block is (batch `t / 12`, head `t % 12`) of its array and is written back at every point.
-/
import proofs.«178072_j6914897347234_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

noncomputable section

namespace Cert.KernelIdeal.EntryValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The four arguments, as arrays of extended reals -/

/-- The token array `x`, of shape [4, 1024, 768]. -/
abbrev argX : S4x1024x768.Idx → EReal := m ((c : Thread nD τ).loc main_arg0)
/-- The fused projection weight, of shape [2304, 768]. -/
abbrev argW : S2304x768.Idx → EReal := m ((c : Thread nD τ).loc main_arg1)
/-- The output weight, of shape [768, 768]. -/
abbrev argWp : S768x768.Idx → EReal := m ((c : Thread nD τ).loc main_arg2)
/-- The bias, of length 768. -/
abbrev argB : S768.Idx → EReal := m ((c : Thread nD τ).loc main_arg3)

/-! ## The arrays the host operations write before the region -/

/-- The fused query/key weight as the host operations build it: the first 768 rows of the weight, transposed and
    scaled, beside the next 768 rows, transposed. -/
theorem V_v6_term : (V m c main_v6 : S768x1536.Idx → EReal)
    = concatenate S768x1536 1
        [⟨S768x768, mulf (transpose S768x768 [1, 0] (extractStridedSlice S768x768 ![0, 0] (argW m c) Facts₀.slices_S2304x768_S768x768_0_0) Facts₀.transposes_S768x768_S768x768_1_0)
            (broadcastInDim S768x768 ![] Facts₀.bcast_S_S768x768 (constant (F := Ideal) S_ .f32 0x3E000000#32))⟩,
         ⟨S768x768, transpose S768x768 [1, 0] (extractStridedSlice S768x768 ![768, 0] (argW m c) Facts₀.slices_S2304x768_S768x768_768_0) Facts₀.transposes_S768x768_S768x768_1_0⟩]
        Facts₀.concatenates_S768x768_S768x768_S768x1536_d1 := by
  dsimp only [Gen.V, Gen.hostOps0]
  after_results

/-- Entry `(r, j)` of the fused query/key weight is entry `(j, r)` of the argument weight, scaled by 1/8 in the
    first 768 columns (the query features). -/
theorem V_wqk (r : Fin 768) (j : Fin 1536) :
    (V m c main_v6 : S768x1536.Idx → EReal) (ix2 r j)
      = if j.val < 768 then argW m c (ix2 (⟨j.val, by have := j.isLt; omega⟩ : Fin 2304) r) * Ideal.ofBits .f32 0x3E000000#32
        else argW m c (ix2 (⟨j.val, by have := j.isLt; omega⟩ : Fin 2304) r) := by
  rw [V_v6_term]
  by_cases hj : j.val < 768
  · rw [if_pos hj]
    refine (concatenate_pair_apply_left (t := S768x1536) (s₁ := S768x768) (s₂ := S768x768) (1 : Fin 2) _ _ _ (ix2 r j) rfl (ix2 r (⟨j.val, hj⟩ : Fin 768)) (fun b => by
      match b with
      | ⟨0, _⟩ => rfl
      | ⟨1, _⟩ => rfl)).trans ?_
    rw [mulf_apply, transpose_ix2_apply, broadcastInDim_scalar_apply, constant_apply]
    rw [slice2_axis0_apply 0 _ _ _ _ (⟨j.val, by have := j.isLt; omega⟩ : Fin 2304) (by simp)]
  · rw [if_neg hj]
    have hj2 : j.val - 768 < 768 := by have := j.isLt; omega
    refine (concatenate_pair_apply_right (t := S768x1536) (s₁ := S768x768) (s₂ := S768x768) (1 : Fin 2) _ _ _ (ix2 r j) rfl rfl (ix2 r (⟨j.val - 768, hj2⟩ : Fin 768))
      (fun b hb => by
        match b with
        | ⟨0, _⟩ => rfl
        | ⟨1, _⟩ => exact absurd rfl hb)
      (by show j.val - 768 + 768 = j.val; omega)).trans ?_
    rw [transpose_ix2_apply]
    rw [slice2_axis0_apply 768 _ _ _ _ (⟨j.val, by have := j.isLt; omega⟩ : Fin 2304) (by show j.val = 768 + (j.val - 768); omega)]

/-- The query third: column `j < 768` of the fused query/key weight carries the scale. -/
theorem V_wq (r j : Fin 768) :
    (V m c main_v6 : S768x1536.Idx → EReal) (ix2 r (⟨j.val, by have := j.isLt; omega⟩ : Fin 1536))
      = argW m c (ix2 (⟨j.val, by have := j.isLt; omega⟩ : Fin 2304) r) * Ideal.ofBits .f32 0x3E000000#32 :=
  (V_wqk m c r ⟨j.val, by have := j.isLt; omega⟩).trans (if_pos j.isLt)

/-- The key third: column `768 + j` of the fused query/key weight is row `768 + j` of the argument weight, unscaled. -/
theorem V_wk (r j : Fin 768) :
    (V m c main_v6 : S768x1536.Idx → EReal) (ix2 r (⟨768 + j.val, by have := j.isLt; omega⟩ : Fin 1536))
      = argW m c (ix2 (⟨768 + j.val, by have := j.isLt; omega⟩ : Fin 2304) r) :=
  (V_wqk m c r ⟨768 + j.val, by have := j.isLt; omega⟩).trans (if_neg (by show ¬ (768 + j.val < 768); omega))

/-- The value weight as the host operations build it: the last 768 rows of the weight, transposed (the change of
    format is the identity on extended reals). -/
theorem V_v9_term : (V m c main_v9 : S768x768.Idx → EReal)
    = truncf (F := Ideal) .bf16 (transpose S768x768 [1, 0] (extractStridedSlice S768x768 ![1536, 0] (argW m c) Facts₀.slices_S2304x768_S768x768_1536_0) Facts₀.transposes_S768x768_S768x768_1_0) Facts₀.bitsLt_bf16_f32 := by
  dsimp only [Gen.V, Gen.hostOps0]
  after_results

/-- Entry `(r, j)` of the value weight is entry `(1536 + j, r)` of the argument weight. -/
theorem V_wv (r j : Fin 768) :
    (V m c main_v9 : S768x768.Idx → EReal) (ix2 r j) = argW m c (ix2 (⟨1536 + j.val, by have := j.isLt; omega⟩ : Fin 2304) r) := by
  rw [V_v9_term, truncf_apply, transpose_ix2_apply]
  exact slice2_axis0_apply 1536 _ _ _ _ (⟨1536 + j.val, by have := j.isLt; omega⟩ : Fin 2304) rfl

/-- The output weight as the host operations build it: the argument transposed. -/
theorem V_v11_term : (V m c main_v11 : S768x768.Idx → EReal)
    = truncf (F := Ideal) .bf16 (transpose S768x768 [1, 0] (argWp m c) Facts₀.transposes_S768x768_S768x768_1_0) Facts₀.bitsLt_bf16_f32 := by
  dsimp only [Gen.V, Gen.hostOps0]
  after_results

/-- Entry `(r, f)` of the transposed output weight is entry `(f, r)` of the argument. -/
theorem V_wp (r f : Fin 768) :
    (V m c main_v11 : S768x768.Idx → EReal) (ix2 r f) = argWp m c (ix2 f r) := by
  rw [V_v11_term, truncf_apply, transpose_ix2_apply]

/-! ## The windows' blocks

The grid is 4 × 12, row-major: point `t` is batch `t / 12`, head `t % 12`. A block's coordinate in its array is its
block index times the block size plus the coordinate inside the block. -/

theorem t_lt (t : Fin cfg0.N) : t.val < 48 := lt_of_lt_of_eq t.isLt Gen.N_0

/-- The index maps of the seven windows in closed form, decided over the grid. -/
theorem idx_facts : ∀ t : Fin cfg0.N,
    (win0_0.index t (0 : Fin 3) = t.val / 12 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 1) = 0)
    ∧ (win0_5.index t (0 : Fin 3) = t.val / 12 ∧ win0_5.index t (1 : Fin 3) = 0 ∧ win0_5.index t (2 : Fin 3) = 0)
    ∧ (win0_6.index t (0 : Fin 4) = t.val / 12 ∧ win0_6.index t (1 : Fin 4) = t.val % 12 ∧ win0_6.index t (2 : Fin 4) = 0 ∧ win0_6.index t (3 : Fin 4) = 0) :=
  (by decide +kernel : ∀ t : Fin grid0.N, _)

/-- The token block at point `t` is batch `t / 12` of the token array. -/
theorem iblk0_apply (t : Fin cfg0.N) (y : S1x1024x768.Idx) :
    iblk m c 0 t y = argX m c (ix3 (⟨t.val / 12, by have := t_lt t; omega⟩ : Fin 4) (y 1) (y 2)) := by
  show V m c main_arg0 (((cfg0.win 0).blk t).view.emb y) = _
  rw [V_main_arg0]
  obtain ⟨⟨e0, e1, e2⟩, -⟩ := idx_facts t
  refine congrArg _ (funext fun a => Fin.ext ?_)
  match a with
  | ⟨0, _⟩ => show win0_0.index t (0 : Fin 3) * 1 + 1 * (y 0).val = t.val / 12; have hy : (y 0).val < 1 := (y 0).isLt; omega
  | ⟨1, _⟩ => show win0_0.index t (1 : Fin 3) * 1024 + 1 * (y 1).val = (y 1).val; omega
  | ⟨2, _⟩ => show win0_0.index t (2 : Fin 3) * 768 + 1 * (y 2).val = (y 2).val; omega

/-- The fused query/key weight is staged whole: its one block is the whole array. -/
theorem iblk1_eq (t : Fin cfg0.N) : (iblk m c 1 t : S768x1536.Idx → EReal) = V m c main_v6 := by
  obtain ⟨-, ⟨e0, e1⟩, -⟩ := idx_facts t
  funext y
  show V m c main_v6 (((cfg0.win 1).blk t).view.emb y) = V m c main_v6 y
  refine congrArg _ (funext fun a => Fin.ext ?_)
  match a with
  | ⟨0, _⟩ => show win0_1.index t (0 : Fin 2) * 768 + 1 * (y 0).val = (y 0).val; omega
  | ⟨1, _⟩ => show win0_1.index t (1 : Fin 2) * 1536 + 1 * (y 1).val = (y 1).val; omega

/-- The value weight is staged whole. -/
theorem iblk2_eq (t : Fin cfg0.N) : (iblk m c 2 t : S768x768.Idx → EReal) = V m c main_v9 := by
  obtain ⟨-, -, ⟨e0, e1⟩, -⟩ := idx_facts t
  funext y
  show V m c main_v9 (((cfg0.win 2).blk t).view.emb y) = V m c main_v9 y
  refine congrArg _ (funext fun a => Fin.ext ?_)
  match a with
  | ⟨0, _⟩ => show win0_2.index t (0 : Fin 2) * 768 + 1 * (y 0).val = (y 0).val; omega
  | ⟨1, _⟩ => show win0_2.index t (1 : Fin 2) * 768 + 1 * (y 1).val = (y 1).val; omega

/-- The transposed output weight is staged whole. -/
theorem iblk3_eq (t : Fin cfg0.N) : (iblk m c 3 t : S768x768.Idx → EReal) = V m c main_v11 := by
  obtain ⟨-, -, -, ⟨e0, e1⟩, -⟩ := idx_facts t
  funext y
  show V m c main_v11 (((cfg0.win 3).blk t).view.emb y) = V m c main_v11 y
  refine congrArg _ (funext fun a => Fin.ext ?_)
  match a with
  | ⟨0, _⟩ => show win0_3.index t (0 : Fin 2) * 768 + 1 * (y 0).val = (y 0).val; omega
  | ⟨1, _⟩ => show win0_3.index t (1 : Fin 2) * 768 + 1 * (y 1).val = (y 1).val; omega

/-- The bias is staged whole, and no host operation wrote it: its block is the argument. -/
theorem iblk4_eq (t : Fin cfg0.N) : (iblk m c 4 t : S768.Idx → EReal) = argB m c := by
  obtain ⟨-, -, -, -, e0, -⟩ := idx_facts t
  funext y
  show V m c main_arg3 (((cfg0.win 4).blk t).view.emb y) = _
  rw [V_main_arg3]
  refine congrArg _ (funext fun a => Fin.ext ?_)
  match a with
  | ⟨0, _⟩ => show win0_4.index t (0 : Fin 1) * 768 + 1 * (y 0).val = (y 0).val; omega

/-! ## The output windows' geometry -/

/-- The first result's block at point `t` lies at batch `t / 12` of its array. -/
theorem emb5 (t : Fin cfg0.N) (y : S1x1024x768.Idx) :
    (((cfg0.win 5).blk t).view.emb y : S4x1024x768.Idx) = ix3 (⟨t.val / 12, by have := t_lt t; omega⟩ : Fin 4) (y 1) (y 2) := by
  obtain ⟨-, -, -, -, -, ⟨e0, e1, e2⟩, -⟩ := idx_facts t
  refine funext fun a => Fin.ext ?_
  match a with
  | ⟨0, _⟩ => show win0_5.index t (0 : Fin 3) * 1 + 1 * (y 0).val = t.val / 12; have hy : (y 0).val < 1 := (y 0).isLt; omega
  | ⟨1, _⟩ => show win0_5.index t (1 : Fin 3) * 1024 + 1 * (y 1).val = (y 1).val; omega
  | ⟨2, _⟩ => show win0_5.index t (2 : Fin 3) * 768 + 1 * (y 2).val = (y 2).val; omega

/-- The second result's block at point `t` lies at batch `t / 12`, head `t % 12` of its array. -/
theorem emb6 (t : Fin cfg0.N) (y : S1x1x1024x1024.Idx) :
    (((cfg0.win 6).blk t).view.emb y : S4x12x1024x1024.Idx)
      = ix4 (⟨t.val / 12, by have := t_lt t; omega⟩ : Fin 4) (⟨t.val % 12, Nat.mod_lt _ (by norm_num)⟩ : Fin 12) (y 2) (y 3) := by
  obtain ⟨-, -, -, -, -, -, ⟨e0, e1, e2, e3⟩⟩ := idx_facts t
  refine funext fun a => Fin.ext ?_
  match a with
  | ⟨0, _⟩ => show win0_6.index t (0 : Fin 4) * 1 + 1 * (y 0).val = t.val / 12; have hy : (y 0).val < 1 := (y 0).isLt; omega
  | ⟨1, _⟩ => show win0_6.index t (1 : Fin 4) * 1 + 1 * (y 1).val = t.val % 12; have hy : (y 1).val < 1 := (y 1).isLt; omega
  | ⟨2, _⟩ => show win0_6.index t (2 : Fin 4) * 1024 + 1 * (y 2).val = (y 2).val; omega
  | ⟨3, _⟩ => show win0_6.index t (3 : Fin 4) * 1024 + 1 * (y 3).val = (y 3).val; omega

/-- The first result is written back at the last head of each batch. -/
theorem flush5_iff (t : Fin cfg0.N) : (cfg0.win 5).flush t = true ↔ t.val % 12 = 11 := Gen.flush0_5 t

/-- The second result is written back at every point. -/
theorem flush6 (t : Fin cfg0.N) : (cfg0.win 6).flush t = true := Gen.flush0_6 t

end Cert.KernelIdeal.EntryValue

end
-- ==== Proof.FinalArrays.lean ====
/-
  The two result arrays after the region, from what each grid point writes back.

  The grid is 4 × 12 (batch × head), row-major. The second result (shape [4, 12, 1024, 1024]) is written back at every
  point: entry (b, h, l, m) lies in the block of point b · 12 + h. The first result (shape [4, 1024, 768]) is written
  back at the last head of each batch: entry (b, l, f) lies in the block of point b · 12 + 11. So if what every point
  writes back is its block of ONE whole-array function, the array ends holding that function.
-/
import proofs.«178072_j6914897347234_2_alg».proof.Proof.EntryValue
import Idealize.ShloMosaic.Lib.Pipeline.Value

noncomputable section

namespace Cert.KernelIdeal.FinalArrays

open Cert.KernelIdeal Cert.KernelIdeal.Gen Cert.KernelIdeal.EntryValue Idealize.ShloMosaic Idealize.ShloMosaic.TcCoe Idealize.ShloMosaic.ValueIdx Idealize.SL.Sem

variable {F : FTy → Type} [FloatOps F] (c : Dev nD) (dat : Pipeline.Dat τ (Elt F) Unit ℕ (UR sig nD τ) ℕ cfg0 c)

/-! ## A block of a whole-array function, read as a function of the block's index -/

/-- Block `t` of a function on the second result's index space: batch `t / 12`, head `t % 12`. -/
theorem blk6_read (t : Fin cfg0.N) (G : S4x12x1024x1024.Idx → Elt F .f32) :
    ((cfg0.win 6).blk t).view.read (Elt F) G
      = fun y : S1x1x1024x1024.Idx => G (ix4 (⟨t.val / 12, by have := t_lt t; omega⟩ : Fin 4) (⟨t.val % 12, Nat.mod_lt _ (by norm_num)⟩ : Fin 12) (y 2) (y 3)) := by
  funext y
  rw [View.read_apply]
  exact congrArg G (emb6 t y)

/-- Block `t` of a function on the first result's index space: batch `t / 12`. -/
theorem blk5_read (t : Fin cfg0.N) (G : S4x1024x768.Idx → Elt F .f32) :
    ((cfg0.win 5).blk t).view.read (Elt F) G
      = fun y : S1x1024x768.Idx => G (ix3 (⟨t.val / 12, by have := t_lt t; omega⟩ : Fin 4) (y 1) (y 2)) := by
  funext y
  rw [View.read_apply]
  exact congrArg G (emb5 t y)

/-! ## The blocks cover the arrays -/

/-- An array index that is the image of a block index lies under the block. -/
theorem mem_set_of_emb_eq {sig : RefSig} {κ : Kind} {sp : Space} {s : Shape} {e : EltTy} (v : View sig κ sp s e) (y : s.Idx) (i : v.ty.Idx)
    (h : v.emb y = i) : i ∈ v.set := h ▸ v.emb_mem_set y

/-- The grid point of batch `b`, head `h`. -/
def pt (b : Fin 4) (h : Fin 12) : Fin cfg0.N :=
  ⟨b.val * 12 + h.val, by show _ < grid0.N; rw [Gen.N_0]; have := b.isLt; have := h.isLt; omega⟩

theorem pt_val (b : Fin 4) (h : Fin 12) : (pt b h).val = b.val * 12 + h.val := rfl

/-- Entry `(b, h, l, m)` of the second result lies in the block of the point of batch `b`, head `h`. -/
theorem mem_blk6 (i : S4x12x1024x1024.Idx) : i ∈ ((cfg0.win 6).blk (pt (i 0) (i 1))).view.set := by
  have h0 : (i 0).val < 4 := (i 0).isLt
  have h1 : (i 1).val < 12 := (i 1).isLt
  have key : ((cfg0.win 6).blk (pt (i 0) (i 1))).view.emb (ix4 (0 : Fin 1) (0 : Fin 1) (i 2) (i 3)) = i :=
    (emb6 (pt (i 0) (i 1)) (ix4 (0 : Fin 1) (0 : Fin 1) (i 2) (i 3))).trans (funext fun a => Fin.ext (by
      match a with
      | ⟨0, _⟩ => show ((i 0).val * 12 + (i 1).val) / 12 = (i 0).val; omega
      | ⟨1, _⟩ => show ((i 0).val * 12 + (i 1).val) % 12 = (i 1).val; omega
      | ⟨2, _⟩ => rfl
      | ⟨3, _⟩ => rfl))
  exact mem_set_of_emb_eq ((cfg0.win 6).blk (pt (i 0) (i 1))).view (ix4 (0 : Fin 1) (0 : Fin 1) (i 2) (i 3)) i key

/-- Entry `(b, l, f)` of the first result lies in the block of the point of batch `b`, head 11. -/
theorem mem_blk5 (i : S4x1024x768.Idx) : i ∈ ((cfg0.win 5).blk (pt (i 0) (11 : Fin 12))).view.set := by
  have h0 : (i 0).val < 4 := (i 0).isLt
  have key : ((cfg0.win 5).blk (pt (i 0) (11 : Fin 12))).view.emb (ix3 (0 : Fin 1) (i 1) (i 2)) = i :=
    (emb5 (pt (i 0) (11 : Fin 12)) (ix3 (0 : Fin 1) (i 1) (i 2))).trans (funext fun a => Fin.ext (by
      match a with
      | ⟨0, _⟩ => show ((i 0).val * 12 + 11) / 12 = (i 0).val; omega
      | ⟨1, _⟩ => rfl
      | ⟨2, _⟩ => rfl))
  exact mem_set_of_emb_eq ((cfg0.win 5).blk (pt (i 0) (11 : Fin 12))).view (ix3 (0 : Fin 1) (i 1) (i 2)) i key

/-! ## The arrays after the region -/

/-- If every point writes back its block of `G`, the second result ends holding `G`. -/
theorem final6_of (G : S4x12x1024x1024.Idx → Elt F .f32)
    (hG : ∀ t : Fin cfg0.N, dat.flushed 6 t = ((cfg0.win 6).blk t).view.read (Elt F) G) :
    dat.arrAt 6 cfg0.N = G :=
  dat.arrAt_eq_of_cover 6 G (fun t _ => hG t) (fun i => ⟨pt (i 0) (i 1), flush6 _, mem_blk6 i⟩)

/-- If every point at the last head of its batch writes back its block of `G`, the first result ends holding `G`. -/
theorem final5_of (G : S4x1024x768.Idx → Elt F .f32)
    (hG : ∀ t : Fin cfg0.N, t.val % 12 = 11 → dat.flushed 5 t = ((cfg0.win 5).blk t).view.read (Elt F) G) :
    dat.arrAt 5 cfg0.N = G :=
  dat.arrAt_eq_of_cover 5 G (fun t hf => hG t ((flush5_iff t).1 hf))
    (fun i => ⟨pt (i 0) (11 : Fin 12), (flush5_iff _).2 (by show ((i 0).val * 12 + 11) % 12 = 11; omega), mem_blk5 i⟩)

end Cert.KernelIdeal.FinalArrays

end
-- ==== Proof.KernelValue.lean ====
/-
  The value of the attention kernel at the extended reals.

  The grid has 48 points, (batch, head) = (t / 12, t % 12). The two projection scratches a point finds were written at
  the first head of its batch, from that batch's token block and the staged weights; so at every point of a batch they
  hold the batch's projected features (the query ones scaled by 1/8) and value features. The attention tile a point
  writes back is then the softmax of its head's scaled scores: its block of the attention array of the formulas. At a
  batch's last head the third scratch holds all twelve heads' results side by side, and the block written back is the
  output projection with its bias: its block of the output array of the formulas. Every entry of either result lies in
  a block that is written back, so the two arrays end holding the formulas' arrays.
-/
import proofs.«178072_j6914897347234_2_alg».proof.Proof.FrameData
import proofs.«178072_j6914897347234_2_alg».proof.Proof.BridgeValue
import proofs.«178072_j6914897347234_2_alg».proof.Proof.EntryValue
import proofs.«178072_j6914897347234_2_alg».proof.Proof.FinalArrays

set_option maxRecDepth 16384

noncomputable section

namespace Cert.KernelIdeal.KernelValue

open Cert.KernelIdeal Cert.KernelIdeal.Gen Cert.KernelIdeal.Body Cert.KernelIdeal.Bridge Cert.KernelIdeal.EntryValue Cert.KernelIdeal.FinalArrays
open Idealize.ShloMosaic Idealize.ShloMosaic.TcCoe Idealize.ShloMosaic.ValueIdx Idealize.SL.Sem

/-! ## The projection scratches are the batch's -/

/-- The first point of the batch of point `t`. -/
def batchStart (t : Fin cfg0.N) : Fin cfg0.N := ⟨t.val - t.val % 12, lt_of_le_of_lt (Nat.sub_le _ _) t.isLt⟩

theorem batchStart_val (t : Fin cfg0.N) : (batchStart t).val = t.val - t.val % 12 := rfl

section
variable {F : FTy → Type} [FloatOps F] (m : (ℓ : Loc nD τ sig) → Buf (Elt F) ℓ) (c : Dev nD)

/-- After point `n` the projection scratches hold the projections of the blocks at the first point of `n`'s batch:
    written there, kept since. -/
theorem projAt_of_start : ∀ (n : ℕ) (hn : n < cfg0.N) (t₀ : Fin cfg0.N), t₀.val = n - n % 12 →
    projAt m c n hn = (projected (iblk m c 0 t₀) (iblk m c 1 t₀), values (iblk m c 0 t₀) (iblk m c 2 t₀))
  | 0, hn, t₀, h₀ => by
    obtain rfl : t₀ = ⟨0, hn⟩ := Fin.ext (by show t₀.val = 0; omega)
    rfl
  | n + 1, hn, t₀, h₀ => by
    by_cases h0 : (n + 1) % 12 = 0
    · obtain rfl : t₀ = ⟨n + 1, hn⟩ := Fin.ext (by show t₀.val = n + 1; omega)
      exact projAt_first m c ⟨n + 1, hn⟩ h0
    · exact (projAt_later m c ⟨n + 1, hn⟩ h0).trans (projAt_of_start n _ t₀ (by omega))

/-- At every point the projection scratches hold the projections of the blocks at the first point of its batch. -/
theorem projAt_batch (t : Fin cfg0.N) :
    projAt m c t.val t.isLt
      = (projected (iblk m c 0 (batchStart t)) (iblk m c 1 (batchStart t)),
         values (iblk m c 0 (batchStart t)) (iblk m c 2 (batchStart t))) :=
  projAt_of_start m c t.val t.isLt (batchStart t) rfl

end

variable (m : (ℓ : Loc nD τ sig) → Buf (Elt Ideal) ℓ) (c : Dev nD)

/-! ## The blocks at the first point of a batch, read as the arguments -/

/-- The token block at the first point of `t`'s batch is batch `t / 12` of the tokens. -/
theorem xb_batch (t : Fin cfg0.N) (y : S1x1024x768.Idx) :
    iblk m c 0 (batchStart t) y = argX m c (ix3 (⟨t.val / 12, by have := t_lt t; omega⟩ : Fin 4) (y 1) (y 2)) :=
  (iblk0_apply m c (batchStart t) y).trans
    (congrArg (fun b => argX m c (ix3 b (y 1) (y 2))) (Fin.ext (by
      show (t.val - t.val % 12) / 12 = t.val / 12
      omega)))

/-- The staged query/key weight, read as the argument weight. -/
theorem wqk_block (t : Fin cfg0.N) (r : Fin 768) (j : Fin 1536) :
    (iblk m c 1 t : S768x1536.Idx → EReal) (ix2 r j)
      = if j.val < 768 then argW m c (ix2 (⟨j.val, by have := j.isLt; omega⟩ : Fin 2304) r) * Ideal.ofBits .f32 0x3E000000#32
        else argW m c (ix2 (⟨j.val, by have := j.isLt; omega⟩ : Fin 2304) r) :=
  (congrFun (iblk1_eq m c t) (ix2 r j)).trans (V_wqk m c r j)

/-- The staged value weight, read as the argument weight. -/
theorem wv_block (t : Fin cfg0.N) (r j : Fin 768) :
    (iblk m c 2 t : S768x768.Idx → EReal) (ix2 r j) = argW m c (ix2 (⟨1536 + j.val, by have := j.isLt; omega⟩ : Fin 2304) r) :=
  (congrFun (iblk2_eq m c t) (ix2 r j)).trans (V_wv m c r j)

/-- The staged output weight, read as the argument. -/
theorem wp_block (t : Fin cfg0.N) (r f : Fin 768) :
    (iblk m c 3 t : S768x768.Idx → EReal) (ix2 r f) = argWp m c (ix2 f r) :=
  (congrFun (iblk3_eq m c t) (ix2 r f)).trans (V_wp m c r f)

/-- The staged bias is the argument. -/
theorem bias_block (t : Fin cfg0.N) (k : Fin 768) : (iblk m c 4 t : S768.Idx → EReal) (ix1 k) = argB m c (ix1 k) :=
  congrFun (iblk4_eq m c t) (ix1 k)

/-! ## The body's values at a point, over the batch's projections -/

section
variable (hX : ∀ i, ∃ r : ℝ, argX m c i = ((r : ℝ) : EReal)) (hW : ∀ i, ∃ r : ℝ, argW m c i = ((r : ℝ) : EReal))
include hX hW

/-- The attention tile of point `t` over the batch's projections: entry (l, k) is the attention weight of key token
    `k` for query token `l` in batch `t / 12`, head `t % 12`. -/
theorem attnTile_point (t : Fin cfg0.N) (xb : Vec Ideal S1x1024x768 .f32) (wqk : Vec Ideal S768x1536 .f32)
    (hxb : ∀ y, xb y = argX m c (ix3 (⟨t.val / 12, by have := t_lt t; omega⟩ : Fin 4) (y 1) (y 2)))
    (hwqk : ∀ (r : Fin 768) (j : Fin 1536), wqk (ix2 r j)
      = if j.val < 768 then argW m c (ix2 (⟨j.val, by have := j.isLt; omega⟩ : Fin 2304) r) * Ideal.ofBits .f32 0x3E000000#32
        else argW m c (ix2 (⟨j.val, by have := j.isLt; omega⟩ : Fin 2304) r))
    (l k : Fin 1024) :
    attnTile (F := Ideal) (grid0.coords t) (projected xb wqk) (ix4 0 0 l k)
      = AttentionSpec.attn (argX m c) (argW m c) (⟨t.val / 12, by have := t_lt t; omega⟩ : Fin 4)
          (⟨t.val % 12, Nat.mod_lt _ (by norm_num)⟩ : Fin 12) l k :=
  (attnTile_at hX hW hxb hwqk (grid0.coords t) l k).trans
    (congrArg (fun h => AttentionSpec.attn (argX m c) (argW m c) _ h l k) (Fin.ext (coords_head t)))

/-- The result of the head that owns column `cc`, computed at its grid point of `t`'s batch over the batch's
    projections: lane `cc % 64` of head `cc / 64`. -/
theorem headCols_point (t : Fin cfg0.N) (xb : Vec Ideal S1x1024x768 .f32) (wqk : Vec Ideal S768x1536 .f32)
    (wv : Vec Ideal S768x768 .bf16)
    (hxb : ∀ y, xb y = argX m c (ix3 (⟨t.val / 12, by have := t_lt t; omega⟩ : Fin 4) (y 1) (y 2)))
    (hwqk : ∀ (r : Fin 768) (j : Fin 1536), wqk (ix2 r j)
      = if j.val < 768 then argW m c (ix2 (⟨j.val, by have := j.isLt; omega⟩ : Fin 2304) r) * Ideal.ofBits .f32 0x3E000000#32
        else argW m c (ix2 (⟨j.val, by have := j.isLt; omega⟩ : Fin 2304) r))
    (hwv : ∀ r j : Fin 768, wv (ix2 r j) = argW m c (ix2 (⟨1536 + j.val, by have := j.isLt; omega⟩ : Fin 2304) r))
    (l : Fin 1024) (cc : Fin 768) (hpt : t.val - t.val % 12 + cc.val / 64 < grid0.N) :
    headCols (F := Ideal) (grid0.coords ⟨t.val - t.val % 12 + cc.val / 64, hpt⟩) (projected xb wqk) (values xb wv)
        (ix2 l (⟨cc.val % 64, Nat.mod_lt _ (by norm_num)⟩ : Fin 64))
      = AttentionSpec.merged (argX m c) (argW m c) (⟨t.val / 12, by have := t_lt t; omega⟩ : Fin 4) l cc := by
  have hN := t_lt t
  have hcc := cc.isLt
  have hhead : (grid0.coords ⟨t.val - t.val % 12 + cc.val / 64, hpt⟩ 1).val = cc.val / 64 := by
    rw [coords_head]
    show (t.val - t.val % 12 + cc.val / 64) % 12 = cc.val / 64
    omega
  refine (headCols_at hX hW hxb hwqk hwv _ l _).trans ?_
  unfold AttentionSpec.merged
  exact congrArg (fun h => AttentionSpec.head (argX m c) (argW m c) _ h l _) (Fin.ext hhead)

end

/-! ## The projection scratches a point finds, each by itself -/

/-- The query/key scratch at point `t` is the projection of the batch's blocks. -/
theorem projAt_fst (t : Fin cfg0.N) :
    (projAt m c t.val t.isLt).1 = projected (F := Ideal) (iblk m c 0 (batchStart t)) (iblk m c 1 (batchStart t)) := by
  rw [projAt_batch m c t]

/-- The value scratch at point `t` is the value projection of the batch's blocks. -/
theorem projAt_snd (t : Fin cfg0.N) :
    (projAt m c t.val t.isLt).2 = values (F := Ideal) (iblk m c 0 (batchStart t)) (iblk m c 2 (batchStart t)) := by
  rw [projAt_batch m c t]

section
variable (hX : ∀ i, ∃ r : ℝ, argX m c i = ((r : ℝ) : EReal)) (hW : ∀ i, ∃ r : ℝ, argW m c i = ((r : ℝ) : EReal))
include hX hW

/-! ## What each point writes back -/

/-- The attention tile a point leaves is its block of the attention array of the formulas. -/
theorem attnTile_block (t : Fin cfg0.N) :
    (cfg0.win 6).cut (grid0.coords t) (attnTile (F := Ideal) (grid0.coords t) (projAt m c t.val t.isLt).1)
      = ((cfg0.win 6).blk t).view.read (Elt Ideal) (AttentionSpec.attnArr (argX m c) (argW m c)) := by
  rw [blk6_read]
  refine funext fun (y : S1x1x1024x1024.Idx) => ?_
  have h0 : (y 0).val < 1 := (y 0).isLt
  have h1 : (y 1).val < 1 := (y 1).isLt
  have hy : (cfg0.win 6).xinj (grid0.coords t) y = ix4 (0 : Fin 1) (0 : Fin 1) (y 2) (y 3) :=
    funext fun a => Fin.ext (by
      match a with
      | ⟨0, _⟩ => show (y 0).val = 0; omega
      | ⟨1, _⟩ => show (y 1).val = 0; omega
      | ⟨2, _⟩ => rfl
      | ⟨3, _⟩ => rfl)
  show attnTile (F := Ideal) (grid0.coords t) (projAt m c t.val t.isLt).1 ((cfg0.win 6).xinj (grid0.coords t) y) = _
  rw [hy, projAt_fst m c t]
  exact attnTile_point m c hX hW t _ _ (xb_batch m c t) (wqk_block m c (batchStart t)) (y 2) (y 3)

/-- The closed form of the third scratch for the batch of point `t` holds the heads' results side by side: column
    `cc` of token `l` is lane `cc % 64` of head `cc / 64`. -/
theorem mergedAt_at (t : Fin cfg0.N) (l : Fin 1024) (cc : Fin 768) :
    mergedAt (F := Ideal) m c t.val t.isLt (ix2 l cc)
      = AttentionSpec.merged (argX m c) (argW m c) (⟨t.val / 12, by have := t_lt t; omega⟩ : Fin 4) l cc := by
  have hpt : t.val - t.val % 12 + cc.val / 64 < grid0.N := pt_lt (batch_bound t.val t.isLt) cc.isLt
  refine (fullMerged_at (t.val - t.val % 12) (batch_bound t.val t.isLt) (projAt m c t.val t.isLt).1
    (projAt m c t.val t.isLt).2 l cc).trans ?_
  rw [projAt_fst m c t, projAt_snd m c t]
  exact headCols_point m c hX hW t _ _ _ (xb_batch m c t) (wqk_block m c (batchStart t)) (wv_block m c (batchStart t))
    l cc hpt

/-- The block a batch's last head leaves is its block of the output array of the formulas. -/
theorem outBlock_block (t : Fin cfg0.N) :
    (cfg0.win 5).cut (grid0.coords t) (outBlock (F := Ideal) (mergedAt m c t.val t.isLt) (iblk m c 3 t) (iblk m c 4 t))
      = ((cfg0.win 5).blk t).view.read (Elt Ideal)
          (AttentionSpec.outArr (argX m c) (argW m c) (argWp m c) (argB m c)) := by
  rw [blk5_read]
  refine funext fun (y : S1x1024x768.Idx) => ?_
  have h0 : (y 0).val < 1 := (y 0).isLt
  have hy : (cfg0.win 5).xinj (grid0.coords t) y = ix3 (0 : Fin 1) (y 1) (y 2) :=
    funext fun a => Fin.ext (by
      match a with
      | ⟨0, _⟩ => show (y 0).val = 0; omega
      | ⟨1, _⟩ => rfl
      | ⟨2, _⟩ => rfl)
  show outBlock (F := Ideal) (mergedAt m c t.val t.isLt) (iblk m c 3 t) (iblk m c 4 t)
    ((cfg0.win 5).xinj (grid0.coords t) y) = _
  rw [hy]
  exact outBlock_at (X := argX m c) (W := argW m c) (Wp := argWp m c) (Bi := argB m c)
    (b := (⟨t.val / 12, by have := t_lt t; omega⟩ : Fin 4)) (wp_block m c t) (iblk m c 4 t) (bias_block m c t)
    (mergedAt m c t.val t.isLt) (mergedAt_at m c hX hW t) (y 1) (y 2)

/-- What point `t` writes back to the attention array. -/
theorem flushed6_eq (t : Fin cfg0.N) :
    (dats m 0 c).flushed 6 t
      = ((cfg0.win 6).blk t).view.read (Elt Ideal) (AttentionSpec.attnArr (argX m c) (argW m c)) := by
  show (cfg0.win 6).cut (grid0.coords t) ((dats m 0 c).after 6 t) = _
  rw [after6]
  exact attnTile_block m c hX hW t

/-- What a batch's last head writes back to the output array. -/
theorem flushed5_eq (t : Fin cfg0.N) (h11 : t.val % 12 = 11) :
    (dats m 0 c).flushed 5 t
      = ((cfg0.win 5).blk t).view.read (Elt Ideal)
          (AttentionSpec.outArr (argX m c) (argW m c) (argWp m c) (argB m c)) := by
  show (cfg0.win 5).cut (grid0.coords t) ((dats m 0 c).after 5 t) = _
  rw [after5]
  exact outBlock_block m c hX hW t

/-! ## The two arrays after the region -/

/-- The output array ends holding the formulas' output. -/
theorem out_final :
    (dats m 0 c).arrAt 5 cfg0.N = AttentionSpec.outArr (argX m c) (argW m c) (argWp m c) (argB m c) :=
  final5_of c (dats m 0 c) _ (fun t h11 => flushed5_eq m c hX hW t h11)

/-- The attention array ends holding the formulas' attention weights. -/
theorem attn_final : (dats m 0 c).arrAt 6 cfg0.N = AttentionSpec.attnArr (argX m c) (argW m c) :=
  final6_of c (dats m 0 c) _ (fun t => flushed6_eq m c hX hW t)

end

/-! ## The run -/

/-- Every weakly fair execution of the kernel's program terminates with the two results at the formulas' arrays of
    the arguments and the arguments unchanged, provided every argument entry is a real number. -/
theorem run (ρ : Dev nD → PrngReg)
    (hfin : ∀ c : Dev nD, (∀ i, ∃ r : ℝ, argX m c i = ((r : ℝ) : EReal)) ∧ (∀ i, ∃ r : ℝ, argW m c i = ((r : ℝ) : EReal))
      ∧ (∀ i, ∃ r : ℝ, argWp m c i = ((r : ℝ) : EReal)) ∧ (∀ i, ∃ r : ℝ, argB m c i = ((r : ℝ) : EReal))) :
    θ_run defs (onTc (τ := τ) (main (F := Ideal))) ⟨m, fun _ => 0, ρ⟩ (fun r => ∀ c : Dev nD,
      r.2.mem ((c.tc : Thread nD τ).loc main_v12_0) = AttentionSpec.outArr (argX m c) (argW m c) (argWp m c) (argB m c)
      ∧ r.2.mem ((c.tc : Thread nD τ).loc main_v12_1) = AttentionSpec.attnArr (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 5).trans (out_final m c (hfin c).1 (hfin c).2.1),
     ((h c).1 6).trans (attn_final m c (hfin c).1 (hfin c).2.1),
     ((h c).1 0).trans ((((dats m) 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).1 4).trans ((((dats m) 0 c).arrAt_in 4 rfl _).trans ((A_eq m c 4).trans (V_main_arg3 m c)))⟩)
    (Body.run_main m ρ)

end Cert.KernelIdeal.KernelValue

end
-- ==== Proof.ReferenceValue.lean ====
import proofs.«178072_j6914897347234_2_alg».proof.Proof.Gen.ReferenceIdeal.Read
import proofs.«178072_j6914897347234_2_alg».proof.Proof.AttentionSpec
import Idealize.ShloMosaic.PureOps.Reduce

/-
  The reference program, at the extended reals, computes the specification.

  Each stage of the reference is read at an index written by its coordinates and identified with the matching
  quantity of the specification: the fused projection; the query, key and value features (a reshape, a transpose, a
  slice and a reshape: row-major position arithmetic); the scaled scores; the row maximum; the shifted exponentials;
  their row sums; the quotient; the weighted sum of value features; the heads laid side by side; the output
  projection with its bias.
-/

noncomputable section

namespace Cert.ReferenceIdeal.RefValue

open Cert.ReferenceIdeal Cert.ReferenceIdeal.Gen Idealize.ShloMosaic Idealize.ShloMosaic.ValueIdx Cert.AttentionSpec

variable (x0 : (⟨S4x1024x768, .f32⟩ : BufTy).Contents (Elt Ideal)) (x1 : (⟨S2304x768, .f32⟩ : BufTy).Contents (Elt Ideal))

/-- The fused projection at token `(b, l)`, feature `f`. -/
theorem v0_at (b : Fin 4) (l : Fin 1024) (f : Fin 2304) :
    Read.val_main_v0 (F := Ideal) x0 x1 (ix3 b l f) = proj x0 x1 b l f := by
  rw [Read.val_main_v0_apply]
  refine Finset.sum_congr rfl fun k _ => ?_
  have el : Read.lidx_main_v0 (ix3 b l f) k = ix3 b l k := funext fun a => Fin.ext (by
    match a with
    | ⟨0, _⟩ => rfl
    | ⟨1, _⟩ => rfl
    | ⟨2, _⟩ => rfl)
  have er : Read.ridx_main_v0 (ix3 b l f) k = ix2 f k := funext fun a => Fin.ext (by
    match a with
    | ⟨0, _⟩ => rfl
    | ⟨1, _⟩ => rfl)
  rw [el, er]

/-- Row-major position arithmetic of the cast from `[4, 1024, 2304]` to `[4, 1024, 3, 12, 64]`: the feature axis splits as
    `f = p · 768 + h · 64 + d`. -/
theorem pos5 {b l p h d : Nat} (hb : b < 4) (hl : l < 1024) (hp : p < 3) (hh : h < 12) (hd : d < 64) :
    ((((b * 1024 + l) * 3 + p) * 12 + h) * 64 + d) / 2359296 = b
      ∧ ((((b * 1024 + l) * 3 + p) * 12 + h) * 64 + d) / 2304 % 1024 = l
      ∧ ((((b * 1024 + l) * 3 + p) * 12 + h) * 64 + d) % 2304 = p * 768 + h * 64 + d := by
  refine ⟨?_, ?_, ?_⟩ <;> omega

/-- The re-laid projection: entry `(p, b, h, l, d)` of the transposed five-axis array is feature `feat p h d` of
    token `(b, l)`. -/
theorem v2_at (p : Fin 3) (b : Fin 4) (h : Fin 12) (l : Fin 1024) (d : Fin 64) :
    Read.val_main_v2 (F := Ideal) x0 x1 (ix5 p b h l d) = proj x0 x1 b l (feat p h d) := by
  rw [Read.val_main_v2_apply, Read.val_main_v1_apply]
  have e : Read.idx_main_v1 (Read.idx_main_v2 (ix5 p b h l d)) = ix3 b l (feat p h d) := funext fun a => Fin.ext (by
    obtain ⟨e0, e1, e2⟩ := pos5 b.isLt l.isLt p.isLt h.isLt d.isLt
    match a with
    | ⟨0, _⟩ => exact e0
    | ⟨1, _⟩ => exact e1
    | ⟨2, _⟩ => exact e2)
  rw [e]
  exact v0_at x0 x1 b l (feat p h d)

/-- Row-major position arithmetic of the cast from `[1, 4, 12, 1024, 64]` to `[4, 12, 1024, 64]`. -/
theorem pos4 {b h l d : Nat} (hb : b < 4) (hh : h < 12) (hl : l < 1024) (hd : d < 64) :
    (((b * 12 + h) * 1024 + l) * 64 + d) / 786432 % 4 = b ∧ (((b * 12 + h) * 1024 + l) * 64 + d) / 65536 % 12 = h
      ∧ (((b * 12 + h) * 1024 + l) * 64 + d) / 64 % 1024 = l ∧ (((b * 12 + h) * 1024 + l) * 64 + d) % 64 = d := by
  refine ⟨?_, ?_, ?_, ?_⟩ <;> omega

/-- The query features: entry `(b, h, l, d)`. -/
theorem v4_at (b : Fin 4) (h : Fin 12) (l : Fin 1024) (d : Fin 64) :
    Read.val_main_v4 (F := Ideal) x0 x1 (ix4 b h l d) = proj x0 x1 b l (feat 0 h d) := by
  rw [Read.val_main_v4_apply, Read.val_main_v3_apply]
  have e : Read.idx_main_v3 (Read.idx_main_v4 (ix4 b h l d)) = ix5 (0 : Fin 3) b h l d := funext fun a => Fin.ext (by
    obtain ⟨e1, e2, e3, e4⟩ := pos4 b.isLt h.isLt l.isLt d.isLt
    match a with
    | ⟨0, _⟩ => rfl
    | ⟨1, _⟩ => exact e1
    | ⟨2, _⟩ => exact e2
    | ⟨3, _⟩ => exact e3
    | ⟨4, _⟩ => exact e4)
  rw [e]
  exact v2_at x0 x1 0 b h l d

/-- The key features: entry `(b, h, l, d)`. -/
theorem v6_at (b : Fin 4) (h : Fin 12) (l : Fin 1024) (d : Fin 64) :
    Read.val_main_v6 (F := Ideal) x0 x1 (ix4 b h l d) = proj x0 x1 b l (feat 1 h d) := by
  rw [Read.val_main_v6_apply, Read.val_main_v5_apply]
  have e : Read.idx_main_v5 (Read.idx_main_v6 (ix4 b h l d)) = ix5 (1 : Fin 3) b h l d := funext fun a => Fin.ext (by
    obtain ⟨e1, e2, e3, e4⟩ := pos4 b.isLt h.isLt l.isLt d.isLt
    match a with
    | ⟨0, _⟩ => rfl
    | ⟨1, _⟩ => exact e1
    | ⟨2, _⟩ => exact e2
    | ⟨3, _⟩ => exact e3
    | ⟨4, _⟩ => exact e4)
  rw [e]
  exact v2_at x0 x1 1 b h l d

/-- The value features: entry `(b, h, l, d)`. -/
theorem v8_at (b : Fin 4) (h : Fin 12) (l : Fin 1024) (d : Fin 64) :
    Read.val_main_v8 (F := Ideal) x0 x1 (ix4 b h l d) = proj x0 x1 b l (feat 2 h d) := by
  rw [Read.val_main_v8_apply, Read.val_main_v7_apply]
  have e : Read.idx_main_v7 (Read.idx_main_v8 (ix4 b h l d)) = ix5 (2 : Fin 3) b h l d := funext fun a => Fin.ext (by
    obtain ⟨e1, e2, e3, e4⟩ := pos4 b.isLt h.isLt l.isLt d.isLt
    match a with
    | ⟨0, _⟩ => rfl
    | ⟨1, _⟩ => exact e1
    | ⟨2, _⟩ => exact e2
    | ⟨3, _⟩ => exact e3
    | ⟨4, _⟩ => exact e4)
  rw [e]
  exact v2_at x0 x1 2 b h l d

/-- The unscaled scores: the dot product of query token `l` and key token `m` in head `h`. -/
theorem v9_at (b : Fin 4) (h : Fin 12) (l m : Fin 1024) :
    Read.val_main_v9 (F := Ideal) x0 x1 (ix4 b h l m)
      = ∑ d : Fin 64, proj x0 x1 b l (feat 0 h d) * proj x0 x1 b m (feat 1 h d) := by
  rw [Read.val_main_v9_apply]
  refine Finset.sum_congr rfl fun k _ => ?_
  have el : Read.lidx_main_v9 (ix4 b h l m) k = ix4 b h l k := funext fun a => Fin.ext (by
    match a with
    | ⟨0, _⟩ => rfl
    | ⟨1, _⟩ => rfl
    | ⟨2, _⟩ => rfl
    | ⟨3, _⟩ => rfl)
  have er : Read.ridx_main_v9 (ix4 b h l m) k = ix4 b h m k := funext fun a => Fin.ext (by
    match a with
    | ⟨0, _⟩ => rfl
    | ⟨1, _⟩ => rfl
    | ⟨2, _⟩ => rfl
    | ⟨3, _⟩ => rfl)
  rw [el, er, v4_at, v6_at]

/-- The scaled scores. -/
theorem v11_at (b : Fin 4) (h : Fin 12) (l m : Fin 1024) :
    Read.val_main_v11 (F := Ideal) x0 x1 (ix4 b h l m) = score x0 x1 b h l m := by
  rw [Read.val_main_v11_apply, Read.val_main_v10_apply, Read.val_main_cst_apply, v9_at]
  rfl

/-- The f32 pattern of −∞ denotes the bottom extended real. -/
theorem negInf_eq_bot : FloatOps.ofBits (F := Ideal) .f32 0xFF800000#32 = (⊥ : EReal) := by
  simp [Ideal.ofBits, Ideal.ieee]

/-- The shape fact that names the inserted coordinate of a reduction over the key axis. -/
theorem reduces_d3 : S4x12x1024x1024.Reduces [3] S4x12x1024 := by decide

/-- A maximum-reduction over the last axis of a `[4, 12, 1024, 1024]` array, at `j`: the fold of `max` from the
    initial value over the last coordinate. The maximum commutes and associates, so the order the reduction visits
    the coordinates in does not matter. -/
theorem hostMax_apply (y : S4x12x1024x1024.Idx → EReal) (c : S_.Idx → EReal) (j : S4x12x1024.Idx) :
    Host.reduce (FloatOps.maximumf (F := Ideal) (φ := .f32)) y c reducesTo_S4x12x1024x1024_S4x12x1024_d3 h_S_ j
      = (Finset.univ : Finset (Fin 1024)).fold max (c (Shape.Idx.first h_S_)) (y ∘ reduces_d3.lift j) := by
  rw [Host.reduce_eq_fold_single (FloatOps.maximumf (F := Ideal) (φ := .f32)) y c
    reducesTo_S4x12x1024x1024_S4x12x1024_d3 reduces_d3 h_S_]
  rfl

/-- The reduction over the key axis is the largest score of the row. -/
theorem v12_at (b : Fin 4) (h : Fin 12) (l : Fin 1024) :
    Read.val_main_v12 (F := Ideal) x0 x1 (ix3 b h l) = rowMax x0 x1 b h l := by
  unfold Read.val_main_v12
  refine (hostMax_apply (Read.val_main_v11 (F := Ideal) x0 x1) (Read.val_main_cst_0 (F := Ideal)) (ix3 b h l)).trans ?_
  have hf : (Read.val_main_v11 (F := Ideal) x0 x1 ∘ reduces_d3.lift (ix3 b h l)) = fun m => score x0 x1 b h l m :=
    funext fun m => by
      have e : reduces_d3.lift (ix3 b h l) m = ix4 b h l m := funext fun a => Fin.ext (by
        match a with
        | ⟨0, _⟩ => rfl
        | ⟨1, _⟩ => rfl
        | ⟨2, _⟩ => rfl
        | ⟨3, _⟩ => rfl)
      show Read.val_main_v11 (F := Ideal) x0 x1 (reduces_d3.lift (ix3 b h l) m) = _
      rw [e]
      exact v11_at x0 x1 b h l m
  have hi : Read.val_main_cst_0 (F := Ideal) (Shape.Idx.first h_S_) = (⊥ : EReal) :=
    (Read.val_main_cst_0_apply _).trans negInf_eq_bot
  exact congrArg₂ (fun i f => (Finset.univ : Finset (Fin 1024)).fold max i f) hi hf

/-- The row maximum as the program forms it: the larger of −∞ and the reduction, which is the reduction. -/
theorem v14_at (b : Fin 4) (h : Fin 12) (l : Fin 1024) :
    Read.val_main_v14 (F := Ideal) x0 x1 (ix3 b h l) = rowMax x0 x1 b h l := by
  rw [Read.val_main_v14_apply, Read.val_main_v13_apply, Read.val_main_cst_1_apply, v12_at, negInf_eq_bot]
  exact max_bot_left _

/-- The shifted exponentials: the row maximum, broadcast back along the key axis, is subtracted first. -/
theorem v18_at (b : Fin 4) (h : Fin 12) (l m : Fin 1024) :
    Read.val_main_v18 (F := Ideal) x0 x1 (ix4 b h l m) = expo x0 x1 b h l m := by
  rw [Read.val_main_v18_apply, Read.val_main_v17_apply, Read.val_main_v16_apply, Read.val_main_v15_apply]
  have e : Read.idx_main_v15 (Read.idx_main_v16 (ix4 b h l m)) = ix3 b h l := funext fun a => Fin.ext (by
    match a with
    | ⟨0, _⟩ => rfl
    | ⟨1, _⟩ => rfl
    | ⟨2, _⟩ => rfl)
  rw [e, v14_at, v11_at]
  rfl

/-- The normalizer: zero plus the sum of the shifted exponentials over the key tokens. -/
theorem v19_at (b : Fin 4) (h : Fin 12) (l : Fin 1024) :
    Read.val_main_v19 (F := Ideal) x0 x1 (ix3 b h l) = denom x0 x1 b h l := by
  rw [Read.val_main_v19_apply, Read.val_main_cst_2_apply]
  have hs : ∑ k : Fin 1024, Read.val_main_v18 (F := Ideal) x0 x1 (Read.idx_main_v19 (ix3 b h l) k)
      = ∑ m : Fin 1024, expo x0 x1 b h l m :=
    Finset.sum_congr rfl fun k _ => by
      have e : Read.idx_main_v19 (ix3 b h l) k = ix4 b h l k := funext fun a => Fin.ext (by
        match a with
        | ⟨0, _⟩ => rfl
        | ⟨1, _⟩ => rfl
        | ⟨2, _⟩ => rfl
        | ⟨3, _⟩ => rfl)
      rw [e]
      exact v18_at x0 x1 b h l k
  rw [hs, Ideal.ofBits_def, Ideal.ofBits_zero_f32, zero_add]
  rfl

/-- The attention weights: each shifted exponential over its row's normalizer, broadcast back along the key axis. -/
theorem v22_at (b : Fin 4) (h : Fin 12) (l m : Fin 1024) :
    Read.val_main_v22 (F := Ideal) x0 x1 (ix4 b h l m) = attn x0 x1 b h l m := by
  rw [Read.val_main_v22_apply, Read.val_main_v21_apply, Read.val_main_v20_apply]
  have e : Read.idx_main_v20 (Read.idx_main_v21 (ix4 b h l m)) = ix3 b h l := funext fun a => Fin.ext (by
    match a with
    | ⟨0, _⟩ => rfl
    | ⟨1, _⟩ => rfl
    | ⟨2, _⟩ => rfl)
  rw [e, v19_at, v18_at]
  rfl

/-- The program's second result is the specification's attention array. -/
theorem attn_eq : Read.val_main_v22 (F := Ideal) x0 x1 = Cert.AttentionSpec.attnArr x0 x1 := by
  funext i
  rw [eq_ix4 i]
  exact v22_at x0 x1 (i 0) (i 1) (i 2) (i 3)

/-- One lane of one head's output: the attention-weighted sum of the value features over the key tokens. -/
theorem v23_at (b : Fin 4) (h : Fin 12) (l : Fin 1024) (d : Fin 64) :
    Read.val_main_v23 (F := Ideal) x0 x1 (ix4 b h l d) = head x0 x1 b h l d := by
  rw [Read.val_main_v23_apply]
  refine Finset.sum_congr rfl fun k _ => ?_
  have el : Read.lidx_main_v23 (ix4 b h l d) k = ix4 b h l k := funext fun a => Fin.ext (by
    match a with
    | ⟨0, _⟩ => rfl
    | ⟨1, _⟩ => rfl
    | ⟨2, _⟩ => rfl
    | ⟨3, _⟩ => rfl)
  have er : Read.ridx_main_v23 (ix4 b h l d) k = ix4 b h k d := funext fun a => Fin.ext (by
    match a with
    | ⟨0, _⟩ => rfl
    | ⟨1, _⟩ => rfl
    | ⟨2, _⟩ => rfl
    | ⟨3, _⟩ => rfl)
  rw [el, er, v22_at, v8_at]

/-- Row-major position arithmetic of the cast from `[4, 1024, 12, 64]` to `[4, 1024, 768]`: column `c` is lane
    `c % 64` of head `c / 64`. -/
theorem pos3 {b l c : Nat} (hb : b < 4) (hl : l < 1024) (hc : c < 768) :
    ((b * 1024 + l) * 768 + c) / 786432 = b ∧ ((b * 1024 + l) * 768 + c) / 768 % 1024 = l
      ∧ ((b * 1024 + l) * 768 + c) / 64 % 12 = c / 64 ∧ ((b * 1024 + l) * 768 + c) % 64 = c % 64 := by
  refine ⟨?_, ?_, ?_, ?_⟩ <;> omega

/-- The heads laid side by side: the transpose brings the token axis forward, the cast merges head and lane. -/
theorem v25_at (b : Fin 4) (l : Fin 1024) (c : Fin 768) :
    Read.val_main_v25 (F := Ideal) x0 x1 (ix3 b l c) = merged x0 x1 b l c := by
  rw [Read.val_main_v25_apply, Read.val_main_v24_apply]
  have e : Read.idx_main_v24 (Read.idx_main_v25 (ix3 b l c))
      = ix4 b (⟨c.val / 64, by have := c.isLt; omega⟩ : Fin 12) l (⟨c.val % 64, Nat.mod_lt _ (by norm_num)⟩ : Fin 64) :=
    funext fun a => Fin.ext (by
      obtain ⟨e0, e1, e2, e3⟩ := pos3 b.isLt l.isLt c.isLt
      match a with
      | ⟨0, _⟩ => exact e0
      | ⟨1, _⟩ => exact e2
      | ⟨2, _⟩ => exact e1
      | ⟨3, _⟩ => exact e3)
  rw [e]
  exact v23_at x0 x1 b _ l _

variable (x2 : (⟨S768x768, .f32⟩ : BufTy).Contents (Elt Ideal)) (x3 : (⟨S768, .f32⟩ : BufTy).Contents (Elt Ideal))

/-- The output projection before the bias. -/
theorem v26_at (b : Fin 4) (l : Fin 1024) (f : Fin 768) :
    Read.val_main_v26 (F := Ideal) x0 x1 x2 (ix3 b l f) = ∑ c : Fin 768, merged x0 x1 b l c * x2 (ix2 f c) := by
  rw [Read.val_main_v26_apply]
  refine Finset.sum_congr rfl fun k _ => ?_
  have el : Read.lidx_main_v26 (ix3 b l f) k = ix3 b l k := funext fun a => Fin.ext (by
    match a with
    | ⟨0, _⟩ => rfl
    | ⟨1, _⟩ => rfl
    | ⟨2, _⟩ => rfl)
  have er : Read.ridx_main_v26 (ix3 b l f) k = ix2 f k := funext fun a => Fin.ext (by
    match a with
    | ⟨0, _⟩ => rfl
    | ⟨1, _⟩ => rfl)
  rw [el, er, v25_at]

/-- The bias broadcast over batches and tokens. -/
theorem v28_at (b : Fin 4) (l : Fin 1024) (f : Fin 768) :
    Read.val_main_v28 (F := Ideal) x3 (ix3 b l f) = x3 (ix1 f) := by
  rw [Read.val_main_v28_apply, Read.val_main_v27_apply]
  have e : Read.idx_main_v27 (Read.idx_main_v28 (ix3 b l f)) = ix1 f := funext fun a => Fin.ext (by
    match a with
    | ⟨0, _⟩ => rfl)
  rw [e]

/-- The projected output with its bias. -/
theorem v29_at (b : Fin 4) (l : Fin 1024) (f : Fin 768) :
    Read.val_main_v29 (F := Ideal) x0 x1 x2 x3 (ix3 b l f) = out x0 x1 x2 x3 b l f := by
  rw [Read.val_main_v29_apply, v26_at, v28_at]
  rfl

/-- The program's first result is the specification's output array. -/
theorem out_eq : Read.val_main_v29 (F := Ideal) x0 x1 x2 x3 = Cert.AttentionSpec.outArr x0 x1 x2 x3 := by
  funext i
  rw [eq_ix3 i]
  exact v29_at x0 x1 x2 x3 (i 0) (i 1) (i 2)

end Cert.ReferenceIdeal.RefValue

end
-- ==== Proof.EntryFinite.lean ====
/-
  Finiteness of the arguments. The precondition of the claim says, through four conjunctions over all entries, that
  the absolute value of every entry of the four argument arrays is strictly below +∞. Read at the extended reals:
  every entry is a real number.
-/
import proofs.«178072_j6914897347234_2_alg».proof.Defs
import Idealize.ShloMosaic.Lib.ValueIdx
import Idealize.ShloMosaic.Lib.ReduceAll
import Idealize.ShloMosaic.PureOps.Ideal

noncomputable section

namespace Cert.KernelIdeal.EntryValue

open Cert.KernelIdeal Idealize.ShloMosaic Idealize.ShloMosaic.TcCoe Idealize.ShloMosaic.ValueIdx Idealize.SL.Sem

variable (m : (ℓ : Loc nD τ sig) → Buf (Elt Ideal) ℓ)

/-! ## Every argument entry is a real number

The precondition compares the absolute value of every entry of the four argument arrays with the pattern of
`+∞` and takes the conjunction of all the comparisons. Read back: no entry is `⊤` or `⊥`. -/

instance : Subsingleton Cert.Pre_finite_inputs.S_.Idx := ⟨fun a b => funext fun d => d.elim0⟩

/-- The f32 pattern `0x7F800000` is `+∞`. -/
theorem ofBits_inf_f32 : Ideal.ofBits .f32 0x7F800000#32 = (⊤ : EReal) := by simp [Ideal.ofBits, Ideal.ieee]

/-- An extended real whose absolute value is strictly below `+∞` is a real. -/
theorem real_of_abs_lt_inf (x : EReal) (h : Ideal.cmp .olt (max x (-x)) (Ideal.ofBits .f32 0x7F800000#32) = 1#1) :
    ∃ r : ℝ, x = ↑r := by
  rw [ofBits_inf_f32] at h
  induction x using EReal.rec with
  | bot => simp [Ideal.cmp] at h
  | coe r => exact ⟨r, rfl⟩
  | top => simp [Ideal.cmp] at h

/-- One `jnp.all(|X| < inf)` read back: every entry of `X` is a real. -/
theorem all_real {s : Shape} (X : FVec Ideal s .f32) (hb : Cert.Pre_finite_inputs.S_.BroadcastsInDim s ![])
    {axes : List (Fin s.rank)} (hr : s.ReducesTo axes Cert.Pre_finite_inputs.S_) (hu : 0 < Cert.Pre_finite_inputs.S_.numel)
    (e : Host.reduce IntOp.andi (cmpf .olt (Host.absf X) (broadcastInDim s ![] hb (constant (F := Ideal) Cert.Pre_finite_inputs.S_ .f32 0x7F800000#32)))
      (constantI Cert.Pre_finite_inputs.S_ 1 1#1) hr hu ix0 = 1#1) (i : s.Idx) : ∃ r : ℝ, X i = ↑r :=
  real_of_abs_lt_inf (X i) (Host.reduce_andi_all _ _ hr hu ix0 e i)

/-- From the precondition: every entry of the four argument arrays is a real number. -/
theorem finite_of_pre [Cert.Pre_finite_inputs.Facts] (h : Cert.Pre_KernelIdeal m) (c : Dev nD) :
    (∀ i, ∃ r : ℝ, (m ((c : Thread nD τ).loc main_arg0) : S4x1024x768.Idx → EReal) i = ((r : ℝ) : EReal))
    ∧ (∀ i, ∃ r : ℝ, (m ((c : Thread nD τ).loc main_arg1) : S2304x768.Idx → EReal) i = ((r : ℝ) : EReal))
    ∧ (∀ i, ∃ r : ℝ, (m ((c : Thread nD τ).loc main_arg2) : S768x768.Idx → EReal) i = ((r : ℝ) : EReal))
    ∧ (∀ i, ∃ r : ℝ, (m ((c : Thread nD τ).loc main_arg3) : S768.Idx → EReal) i = ((r : ℝ) : EReal)) := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real _ _ _ _ h0', all_real _ _ _ _ h1, all_real _ _ _ _ h2, all_real _ _ _ _ h3⟩

end Cert.KernelIdeal.EntryValue

end
-- ==== Proof.lean ====
/-
  A fused multi-head self-attention kernel and its reference compute one function on the extended reals.

  Both programs take a token array of shape [4, 1024, 768], a fused query/key/value weight [2304, 768], an output
  weight [768, 768] and a bias [768], every entry finite, and return the projected output [4, 1024, 768] and the
  attention weights [4, 12, 1024, 1024]. Read over the extended reals, where every operation is exact and a change of
  number format is the identity, each returns the specification's two arrays of its arguments: per batch and head,
  the softmax over the key tokens of the scaled dot products of projected queries and keys, and the output projection,
  with its bias, of the heads' weighted sums of projected values laid side by side. The kernel reaches them one
  (batch, head) grid point at a time, through scratch arrays that hold a batch's projections and its heads' results;
  the reference by whole-array operations. What joins the two is that one specification: the kernel's two result
  arrays and the reference's are the same terms of arguments that agree.

  Besides that, each of the three programs — the kernel on words, the kernel on extended reals, the reference on
  extended reals — runs to completion from any memory with finite arguments and leaves its arguments as they were;
  and the kernel on extended reals differs from the kernel on words at six places only, each a narrowing to bf16
  followed by the widening back, which is the identity on extended reals and the rounding through bf16 on words.
-/
import proofs.«178072_j6914897347234_2_alg».proof.Defs
import proofs.«178072_j6914897347234_2_alg».proof.Proof.Gen.Kernel
import proofs.«178072_j6914897347234_2_alg».proof.Proof.Gen.KernelIdeal
import proofs.«178072_j6914897347234_2_alg».proof.Proof.Gen.ReferenceIdeal
import proofs.«178072_j6914897347234_2_alg».proof.Proof.Gen.Pre_finite_inputs
import proofs.«178072_j6914897347234_2_alg».proof.Proof.Gen.ReferenceIdeal.Run
import proofs.«178072_j6914897347234_2_alg».proof.Proof.Gen.ReferenceIdeal.Read
import proofs.«178072_j6914897347234_2_alg».proof.Proof.FrameData
import proofs.«178072_j6914897347234_2_alg».proof.Proof.FrameDataBits
import proofs.«178072_j6914897347234_2_alg».proof.Proof.KernelValue
import proofs.«178072_j6914897347234_2_alg».proof.Proof.ReferenceValue
import proofs.«178072_j6914897347234_2_alg».proof.Proof.EntryFinite
import proofs.«178072_j6914897347234_2_alg».proof.Proof.EntryValue
import Idealize.ShloMosaic.Adequacy
import Idealize.ShloMosaic.Init

noncomputable section

namespace Cert.Proof

open Idealize.ShloMosaic Idealize.SL.Sem Cert.KernelIdeal.EntryValue

/-! ## The three programs run and keep their arguments -/

/-- The kernel on words runs, and its four arguments end as they began. -/
theorem frame_Kernel : Cert.frame_Kernel := fun m ρ _ => Cert.Kernel.Body.frame m ρ

/-- The kernel on extended reals runs, and its four arguments end as they began. -/
theorem frame_KernelIdeal : Cert.frame_KernelIdeal := fun m ρ _ => Cert.KernelIdeal.Body.frame m ρ

/-- The reference runs, and its four arguments end as they began. -/
theorem frame_ReferenceIdeal : Cert.frame_ReferenceIdeal := fun m ρ _ =>
  (θ_run Cert.ReferenceIdeal.defs _ _).mono (fun _ h c => (h c).2.2) (Cert.ReferenceIdeal.Value.run (F := Ideal) m ρ)

/-! ## The kernel on extended reals against the kernel on words -/

/-- The six places where the idealized kernel drops a narrowing to bf16 followed by the widening back: on extended
    reals that pair is the identity, on words it is the rounding through bf16. -/
theorem preserves_Kernel_KernelIdeal : Cert.preserves_Kernel_KernelIdeal :=
  ⟨IdealRules.truncf_extf.statement _ _ _, IdealRules.truncf_extf.statement _ _ _,
    IdealRules.truncf_extf.statement _ _ _, IdealRules.truncf_extf.statement _ _ _,
    IdealRules.truncf_extf.statement _ _ _, IdealRules.truncf_extf.statement _ _ _⟩

/-! ## The kernel and the reference compute the specification -/

/-- The reference's run, read through the specification: from a memory that agrees with `m` on the four arguments,
    every execution ends with the first result at the specification's output array of `m`'s arguments, the second at
    its attention array, and the arguments as they began. -/
theorem reference_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v29)
            = Cert.AttentionSpec.outArr (argX m c) (argW m c) (argWp m c) (argB m c)
        ∧ r.2.mem ((c.tc : Thread Cert.ReferenceIdeal.nD Cert.ReferenceIdeal.τ).loc Cert.ReferenceIdeal.main_v22)
            = Cert.AttentionSpec.attnArr (argX m c) (argW m c)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c =>
    ⟨by rw [(h c).1, Cert.ReferenceIdeal.Read.val_main_v29_eq, Cert.ReferenceIdeal.RefValue.out_eq,
          (hagree c).1, (hagree c).2.1, (hagree c).2.2.1, (hagree c).2.2.2],
     by rw [(h c).2.1, Cert.ReferenceIdeal.Read.val_main_v22_eq, Cert.ReferenceIdeal.RefValue.attn_eq,
          (hagree c).1, (hagree c).2.1],
     (h c).2.2⟩)
    (Cert.ReferenceIdeal.Value.run (F := Ideal) m' ρ')

/-- From memories that agree on the four finite arguments, the kernel and the reference both run, both end with the
    specification's output array and attention array of those arguments as their results, and both leave the
    arguments as they were. -/
theorem algebraic_KernelIdeal_ReferenceIdeal : Cert.algebraic_KernelIdeal_ReferenceIdeal := by
  intro m ρ m' ρ' hpre hagree
  exact ⟨fun c => Cert.AttentionSpec.outArr (argX m c) (argW m c) (argWp m c) (argB m c),
    fun c => Cert.AttentionSpec.attnArr (argX m c) (argW m c),
    Cert.KernelIdeal.KernelValue.run m ρ (fun c => Cert.KernelIdeal.EntryValue.finite_of_pre m hpre c),
    reference_run m m' ρ' hagree⟩

/-! ## The certificate -/

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves_Kernel_KernelIdeal,
    algebraic_KernelIdeal_ReferenceIdeal⟩

end Cert.Proof

end
